-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x1 : Shape := ⟨2, ![1000000, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x1 .f32) : IVec S_ 1 :=
  let main_v0 : FVec F S1000000x1 .f32 := Host.absf main_arg1
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x1 : Shape := ⟨2, ![1000000, 1]⟩
abbrev S1000000 : Shape := ⟨1, ![1000000]⟩
abbrev S512 : Shape := ⟨1, ![512]⟩
abbrev S2 : Shape := ⟨1, ![2]⟩
abbrev S_ : Shape := ⟨0, ![]⟩
abbrev S256 : Shape := ⟨1, ![256]⟩
abbrev S1 : Shape := ⟨1, ![1]⟩
abbrev S16 : Shape := ⟨1, ![16]⟩
abbrev S16384x1 : Shape := ⟨2, ![16384, 1]⟩

abbrev nBuf : Table → Nat
  | .hbm => 5
  | .local .scVector .vmem => 2
  | _ => 0

abbrev bufTy : (tb : Table) → Fin (nBuf tb) → BufTy
  | .hbm, ⟨0, _⟩ => ⟨S16384, .i32⟩
  | .hbm, ⟨1, _⟩ => ⟨S1000000x1, .f32⟩
  | .hbm, ⟨2, _⟩ => ⟨S1000000, .f32⟩
  | .hbm, ⟨3, _⟩ => ⟨S16384, .f32⟩
  | .hbm, ⟨4, _⟩ => ⟨S16384x1, .f32⟩
  | .local .scVector .vmem, ⟨0, _⟩ => ⟨S512, .i32⟩
  | .local .scVector .vmem, ⟨1, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg0_scv : Ref sig .scVector := ⟨.hbm, 0, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x1_S1000000 : S1000000x1.ShapeCasts S1000000
  inb_S512_S256_0 : ∀ a, (![0] : Fin 1 → Nat) a + S256.size a ≤ S512.size a
  inb_S2_S1_0 : ∀ a, (![0] : Fin 1 → Nat) a + S1.size a ≤ S2.size a
  squeezes_S1_S_ : S1.Squeezes S_
  inb_S512_S256_256 : ∀ a, (![256] : Fin 1 → Nat) a + S256.size a ≤ S512.size a
  inb_S2_S1_1 : ∀ a, (![1] : Fin 1 → Nat) a + S1.size a ≤ S2.size a
  inb_S1000000_S1000000_0 : ∀ a, (![0] : Fin 1 → Nat) a + S1000000.size a ≤ S1000000.size a
  gathers_S1000000_S256 : S1000000.Gathers 0 S256
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  shapeCasts_S16384_S16384x1 : S16384.ShapeCasts S16384x1
  hcc0_scratch2 : 0 + S2.numel ≤ 5
  hcc0_scratch3 : 2 + S2.numel ≤ 5
  hcc0_scratch4 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (256 * r.val))) a + S256.size a ≤ S16384.size a

variable [Facts₀]

abbrev cc0_scratch2 : DmaSems sig S2 := SemArray.consecutive 0 S2 hcc0_scratch2
abbrev cc0_scratch3 : DmaSems sig S2 := SemArray.consecutive 2 S2 hcc0_scratch3
abbrev cc0_scratch4 : DmaSems sig S_ := SemArray.consecutive 4 S_ hcc0_scratch4

class Facts : Prop extends Facts₀ where

variable [Facts]
-- ==== ReferenceIdeal.lean ====
abbrev S16384 : Shape := ⟨1, ![16384]⟩
abbrev S1000000x1 : Shape := ⟨2, ![1000000, 1]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x1, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x1, .f32⟩
  | .hbm, ⟨21, _⟩ => ⟨S16384x1, .i1⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S1000000x1_S16384x1_S16384x1_1_0_n_n_0_1_11_wf : GatherDims.WF S1000000x1 S16384x1 S16384x1 [1] [0] [] [0] [] 1 ![1, 1]

variable [Facts₀]

def gather_S1000000x1_S16384x1_S16384x1_1_0_n_n_0_1_11 : GatherDims S1000000x1 S16384x1 S16384x1 where
  offsetDims := [1]
  collapsedSliceDims := [0]
  operandBatchingDims := []
  startIndicesBatchingDims := []
  startIndexMap := [0]
  indexVectorDim := 1
  sliceSizes := ![1, 1]
  wf := gather_S1000000x1_S16384x1_S16384x1_1_0_n_n_0_1_11_wf

class Facts : Prop extends Facts₀ where

variable [Facts]
-- ==== Proof.Spec.lean ====
/-
  What both programs compute, stated once over literal shapes.

  For an index vector `idx` of 16384 words and a one-column table `W` of 1000000 rows, entry `n` of the
  result is the logistic function `1 / (1 + exp (-x))` of the table's entry `x = W[idx n]`.  The row an index
  word names is kept inside the table by a minimum, so the function is total; under the certificate's
  precondition every word is below 1000000 and the minimum is the word itself.

  Two spellings of the logistic function appear.  The kernel's lanes compute `1 / (1 + exp (0 - x))` with the
  float instance's own operations (`lane`, stated for every float instance); on the extended reals that is
  `1 / (1 + exp (-x))` (`logi`), because `0 - x = -x` there, infinities included (`lane_eq_logi`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The index vector's shape, the table's, the table's as one flat row, the result's, the result's as a column. -/
abbrev SIdx : Shape := ⟨1, ![16384]⟩
abbrev STab : Shape := ⟨2, ![1000000, 1]⟩
abbrev SFlat : Shape := ⟨1, ![1000000]⟩
abbrev SCol : Shape := ⟨2, ![16384, 1]⟩

/-- The table row an index word names, kept inside the table. -/
def row (w : BitVec 32) : Fin 1000000 := ⟨min w.toNat 999999, by omega⟩

theorem row_val_of_lt {w : BitVec 32} (h : w.toNat < 1000000) : (row w).val = w.toNat := by
  simp only [row]; omega

section Lane

variable {F : FTy → Type} [FloatOps F]

/-- One lane of the kernel's arithmetic: `1 / (1 + exp (0 - x))`, the constants the words the kernel writes. -/
def lane (x : F .f32) : F .f32 :=
  FloatOps.divf (FloatOps.ofBits .f32 0x3F800000#32)
    (FloatOps.addf (FloatOps.ofBits .f32 0x3F800000#32) (FloatOps.exp (FloatOps.subf (FloatOps.ofBits .f32 0x00000000#32) x)))

/-- The kernel's flat result: entry `n` is the lane function of the flat table at the row `idx n` names. -/
def flat (idx : IVec SIdx 32) (w : FVec F SFlat .f32) : FVec F SIdx .f32 :=
  fun n => lane (w (ix1 (row (idx n))))

end Lane

/-- The logistic function on the extended reals, `1 / (1 + exp (-x))`, the unit the word `0x3F800000`. -/
def logi (x : EReal) : EReal :=
  Ideal.div (Ideal.ofBits .f32 0x3F800000#32) (Ideal.ofBits .f32 0x3F800000#32 + Ideal.exp (-x))

/-- On the extended reals the kernel's lane is the logistic function: `0 - x = -x`. -/
theorem lane_eq_logi (x : EReal) : lane (F := Ideal) x = logi x := by
  show Ideal.div _ (_ + Ideal.exp (Ideal.ofBits .f32 0x00000000#32 - x)) = _
  rw [Ideal.ofBits_zero_f32, zero_sub]; rfl

/-- THE SPECIFICATION: the result column, entry `(n, 0)` the logistic function of `W[idx n, 0]`. -/
def G (idx : IVec SIdx 32) (W : FVec Ideal STab .f32) : FVec Ideal SCol .f32 :=
  fun j => logi (W (ix2 (row (idx (ix1 (j 0)))) (0 : Fin 1)))

end Cert.Spec

end
-- ==== Proof.KISetup.lean ====
/-
  The kernel as the launch theorem sees it, and what each thread is handed.

  The device's TensorCore flattens the table `W` to one row `w`, starts both SparseCores, and reshapes the flat
  result to a column.  The 32 vector subcores each own 512 consecutive entries of the flat result, two blocks of 256:
  subcore `s` of SparseCore `c` owns the blocks at `1024 s + 512 c` and `1024 s + 512 c + 256`.  Every subcore reads the
  whole index vector and the whole flat table, so each is handed a READ SHARE of both: the full share gives one share
  per SparseCore (and keeps a rest), each SparseCore's share one per subcore (and keeps a rest).  A subcore brings back its
  two blocks holding, entry `n`, the lane function of `w` at the row the index word `idx n` names (`Cert.Spec.flat`).
-/
import proofs.«206194_g86921548136457_cont_9to1c4b_267_10_alg».proof.KernelIdeal
import proofs.«206194_g86921548136457_cont_9to1c4b_267_10_alg».proof.Proof.Gen.KernelIdeal
import proofs.«206194_g86921548136457_cont_9to1c4b_267_10_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The index vector, the table, the table flattened, the flat result, the result column. -/
abbrev iLoc (d : Dev nD) : Loc nD τ sig := (SparseCore.T d).loc main_arg0
abbrev aLoc (d : Dev nD) : Loc nD τ sig := (SparseCore.T d).loc main_arg1
abbrev wLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

/-! ## The grid point of a subcore, and its two blocks of the flat result -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The grid point of subcore `s` of SparseCore `c`. -/
abbrev LL (c : Fin 2) (s : Fin 16) : grid0.Coords := coordsV (Fin.cast bound_zero.symm c) (Fin.cast bound_one.symm s)

abbrev cV (L : grid0.Coords) : Fin τ.nSC := (L 0).castLE hcore0
abbrev jV (L : grid0.Coords) : Fin τ.nSub := (L 1).castLE hsub0

/-- Block `r` (of two) of the flat result that the subcore at `L` owns, as the kernel slices it. -/
abbrev oBlk (L : grid0.Coords) (r : Fin 2) : Rect S16384 :=
  Rect.unit (s := S16384) (k0_off1 L (BitVec.ofNat 32 (256 * r.val))) S256.size (k0_off1_inb L r)
abbrev oMem (L : grid0.Coords) (r : Fin 2) : Memref sig .scVector .hbm S256 .f32 := (oV).slice (oBlk L r) (fun _ => rfl)
abbrev iMem (L : grid0.Coords) (r : Fin 2) : Memref sig .scVector .hbm S256 .i32 := (iV).slice (oBlk L r) (fun _ => rfl)
abbrev oSet (L : grid0.Coords) (r : Fin 2) : Finset S16384.Idx := (oMem L r).view.set

/-! ## Read shares -/

/-- SparseCore `c`'s read share, and subcore `s`'s of it. -/
abbrev qc (c : Fin 2) : PosShare TreeShare := Transfers.shareTok fullShare 2 c
abbrev qt (c : Fin 2) (s : Fin 16) : PosShare TreeShare := Transfers.shareTok (qc c) 16 s

variable [FloatOps F]

/-! ## The contents -/

/-- The table as one flat row. -/
def wF (d : Dev nD) : Buf (Elt F) (wLoc d) := shapeCast S1000000 (m (aLoc d)) shapeCasts_S1000000x1_S1000000
/-- The flat result: entry `n` the lane function of the flat table at the row `idx n` names. -/
def oF (d : Dev nD) : Buf (Elt F) (oLoc d) := Cert.Spec.flat (m (iLoc d)) (wF m d)
/-- The result column. -/
def rF (d : Dev nD) : Buf (Elt F) (rLoc d) := shapeCast S16384x1 (oF m d) shapeCasts_S16384_S16384x1

/-! ## What the handshakes carry -/

abbrev iSh (d : Dev nD) (q : PosShare TreeShare) : sProp 𝕄 := iLoc d ↦{q} m (iLoc d)
abbrev wSh (d : Dev nD) (q : PosShare TreeShare) : sProp 𝕄 := wLoc d ↦{q} wF m d
abbrev oBlkPts (d : Dev nD) (L : grid0.Coords) (r : Fin 2) (f : Buf (Elt F) (oLoc d)) : sProp 𝕄 := oLoc d ↦[oSet L r]{fullShare} f
/-- A subcore's two blocks, at contents `f`. -/
abbrev oTile (d : Dev nD) (c : Fin 2) (s : Fin 16) (f : Buf (Elt F) (oLoc d)) : sProp 𝕄 :=
  iprop(oBlkPts d (LL c s) 0 f ∗ oBlkPts d (LL c s) 1 f)
/-- A SparseCore's sixteen subcores' blocks, at contents `f`. -/
abbrev oCore (d : Dev nD) (c : Fin 2) (f : Buf (Elt F) (oLoc d)) : sProp 𝕄 :=
  bigSep Finset.univ fun s : Fin 16 => oTile d c s f

/-- Each SparseCore takes its read shares of the index vector and the flat table and its subcores' blocks of the flat
    result; each subcore its own shares and its two blocks; they come back with the blocks at the flat result. -/
def P : (K (F := F)).Pay (nD := nD) (Val := Elt F) (Name := ℕ) (U := UU) where
  st := fun q d c => match q with
    | 0 => iprop(iSh m d (qc (Fin.cast nCore_zero c)) ∗ wSh m d (qc (Fin.cast nCore_zero c)) ∗ oCore d (Fin.cast nCore_zero c) (m (oLoc d)))
  dn := fun q d c => match q with
    | 0 => iprop(iSh m d (qc (Fin.cast nCore_zero c)) ∗ wSh m d (qc (Fin.cast nCore_zero c)) ∗ oCore d (Fin.cast nCore_zero c) (oF m d))
  go := fun q d c i => match q with
    | 0 => iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (m (oLoc d)))
  td := fun q d c i => match q with
    | 0 => iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (oF m d))
  x := fun _ _ => iprop(emp)

instance P_storable : (P (F := F) m).IsStorable where
  st q d c := match q with
    | 0 => (inferInstance : BI.Storable (upEmb : UEmb _ 𝕄)
      iprop(iSh m d (qc (Fin.cast nCore_zero c)) ∗ wSh m d (qc (Fin.cast nCore_zero c)) ∗ oCore d (Fin.cast nCore_zero c) (m (oLoc d))))
  dn q d c := match q with
    | 0 => (inferInstance : BI.Storable (upEmb : UEmb _ 𝕄)
      iprop(iSh m d (qc (Fin.cast nCore_zero c)) ∗ wSh m d (qc (Fin.cast nCore_zero c)) ∗ oCore d (Fin.cast nCore_zero c) (oF m d)))
  go q d c i := match q with
    | 0 => (inferInstance : BI.Storable (upEmb : UEmb _ 𝕄)
      iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (m (oLoc d))))
  td q d c i := match q with
    | 0 => (inferInstance : BI.Storable (upEmb : UEmb _ 𝕄)
      iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (oF m d)))

/-- What the proof asks of the launch memory: every index word names a row of the table. -/
def PreOK : Prop := ∀ (d : Dev nD) (j : S16384.Idx), (m (iLoc d) j).toNat < 1000000

end Cert.Proof.KI

end
-- ==== Proof.KIFacts.lean ====
/-
  A vector subcore's own storage as the kernel addresses it, and the one fact about the index words it fetches.

  Each subcore has an index scratch and a value scratch of 512 entries, used as two halves of 256: half `h` of the index
  scratch receives block `h` of the subcore's 512 index words, half `h` of the value scratch the table rows those words
  name.  Five completion semaphores: one per index copy, one per gather, one shared by the two copies out.
  The fact: a block of 256 index words copied whole into 256 words of scratch reads back as words of the index vector,
  so each is below the table's 1000000 rows when every index word is.
-/
import proofs.«206194_g86921548136457_cont_9to1c4b_267_10_alg».proof.Proof.KISetup
import proofs.«206194_g86921548136457_cont_9to1c4b_267_10_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-- The halves of the two scratch buffers, as the kernel slices them. -/
abbrev sH0 : Memref sig .scVector .vmem S256 .i32 := (sV).slice (Rect.unit (s := S512) ![0] S256.size inb_S512_S256_0) (fun _ => rfl)
abbrev sH1 : Memref sig .scVector .vmem S256 .i32 := (sV).slice (Rect.unit (s := S512) ![256] S256.size inb_S512_S256_256) (fun _ => rfl)
abbrev rH0 : Memref sig .scVector .vmem S256 .f32 := (rV).slice (Rect.unit (s := S512) ![0] S256.size inb_S512_S256_0) (fun _ => rfl)
abbrev rH1 : Memref sig .scVector .vmem S256 .f32 := (rV).slice (Rect.unit (s := S512) ![256] S256.size inb_S512_S256_256) (fun _ => rfl)

abbrev semI0 : DmaSem sig := ((cc0_scratch2.slice (Rect.unit (s := S2) ![0] S1.size inb_S2_S1_0)).squeeze S_ squeezes_S1_S_).sem
abbrev semI1 : DmaSem sig := ((cc0_scratch2.slice (Rect.unit (s := S2) ![1] S1.size inb_S2_S1_1)).squeeze S_ squeezes_S1_S_).sem
abbrev semG0 : DmaSem sig := ((cc0_scratch3.slice (Rect.unit (s := S2) ![0] S1.size inb_S2_S1_0)).squeeze S_ squeezes_S1_S_).sem
abbrev semG1 : DmaSem sig := ((cc0_scratch3.slice (Rect.unit (s := S2) ![1] S1.size inb_S2_S1_1)).squeeze S_ squeezes_S1_S_).sem
abbrev semO : DmaSem sig := cc0_scratch4.sem

abbrev sLoc (d : Dev nD) (L : grid0.Coords) : Loc nD τ sig := (V d (cV L) (jV L)).loc cc0_scratch0
abbrev vLoc (d : Dev nD) (L : grid0.Coords) : Loc nD τ sig := (V d (cV L) (jV L)).loc cc0_scratch1

/-- A block of 256 index words copied whole into a slice of 256 words reads back, word by word, as words of the index
    vector, each of which names a row of the table. -/
theorem idx_inb (hpre : PreOK m) (d : Dev nD) (Kv : Memref sig .scVector .vmem S256 .i32) (g : Kv.view.ty.Contents (Elt F))
    (off : Fin 1 → ℕ) (inb : ∀ a, off a + S256.size a ≤ S16384.size a) (hs : ∀ a, (Rect.unit (s := S16384) off S256.size inb).stride a = 1) :
    ∀ x : S256.Idx, (Kv.view.read (Elt F) (Kv.view.writes (Elt F) g
        [⟨Rect.whole S256, ReadAs.same.apply (((iV).slice (Rect.unit (s := S16384) off S256.size inb) hs).view.read (Elt F) (m (iLoc d)))⟩]) x).toNat < 1000000 := by
  intro x
  have e := View.read_writes_cons_emb Kv.view g (Rect.whole S256)
    (ReadAs.same.apply (((iV).slice (Rect.unit (s := S16384) off S256.size inb) hs).view.read (Elt F) (m (iLoc d)))) [] x
  rw [Rect.emb_whole_apply] at e
  rw [e]
  show ((((iV).slice (Rect.unit (s := S16384) off S256.size inb) hs).view.read (Elt F) (m (iLoc d))) x).toNat < 1000000
  rw [show ∀ j, ((iV).slice (Rect.unit (s := S16384) off S256.size inb) hs).view.read (Elt F) (m (iLoc d)) j
      = m (iLoc d) (((iV).slice (Rect.unit (s := S16384) off S256.size inb) hs).view.emb j) from fun j => (View.read_apply _ _).trans (cast_eq _ _)]
  exact hpre d _

end Cert.Proof.KI

end
-- ==== Proof.KIVals.lean ====
/-
  The closed forms of what a vector subcore holds.

  Entry `k` of the subcore's 512-entry value scratch stands for entry `1024 s + 512 c + k` of the flat result (`gpos`):
  once the subcore's arithmetic is done the value scratch holds, entry by entry, the flat result at those positions
  (`vF`), and a half of it copied out whole onto the subcore's block of the flat result makes that block the flat
  result there (`landed0`, `landed1`).
-/
import proofs.«206194_g86921548136457_cont_9to1c4b_267_10_alg».proof.Proof.KIFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-- The position in the flat result of entry `k` of the value scratch of the subcore at grid point `L`. -/
def gpos (L : grid0.Coords) (k : S512.Idx) : S16384.Idx :=
  ValueIdx.ix1 ⟨1024 * (L 1).val + 512 * (L 0).val + (k 0).val, by
    have h0 : (L 0).val < 2 := (L 0).isLt
    have h1 : (L 1).val < 16 := (L 1).isLt
    have hk : (k 0).val < 512 := (k 0).isLt
    omega⟩

/-- The value scratch when the arithmetic is done: the flat result at the subcore's positions. -/
def vF (d : Dev nD) (L : grid0.Coords) : Buf (Elt F) (vLoc d L) := fun k => oF m d (gpos L k)

/-- Block 0 (block 1) of the subcore's part of the flat result after the first (second) half of the finished value scratch
    has been copied onto it whole, over what the block held at the launch. -/
abbrev landed0 (d : Dev nD) (L : grid0.Coords) : Buf (Elt F) (oLoc d) :=
  (oMem L 0).view.writes (Elt F) (m (oLoc d)) [⟨Rect.whole S256, ReadAs.same.apply ((rH0).view.read (Elt F) (vF m d L))⟩]
abbrev landed1 (d : Dev nD) (L : grid0.Coords) : Buf (Elt F) (oLoc d) :=
  (oMem L 1).view.writes (Elt F) (m (oLoc d)) [⟨Rect.whole S256, ReadAs.same.apply ((rH1).view.read (Elt F) (vF m d L))⟩]

end Cert.Proof.KI

end
-- ==== Proof.KIStep.lean ====
/-
  One slice of the subcore's arithmetic, as a step of an invariant.

  The body walks the value scratch sixteen entries at a time: it loads entries `a … a + 15`, applies the lane function
  `1 / (1 + exp (0 - x))` to each, and stores the sixteen results back where they came from.  Over a half
  `lo … lo + 255` of the scratch, relative to the contents `G` the half held before the first slice, the invariant
  `Done lo a c G` says: below `a` the contents `c` are the lane function of `G`, from `a` on they are still `G`.
  A slice at `a` takes `Done lo a` to `Done lo (a + 16)` (`step`); sixteen slices take `Done lo lo`, which holds of `G`
  itself, to `Done lo (lo + 256)`: the whole half is the lane function of what it held.
-/
import proofs.«206194_g86921548136457_cont_9to1c4b_267_10_alg».proof.Proof.KIVals
import Idealize.ShloMosaic.Lib.WritesUnit
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-- The lane function on a vector of sixteen. -/
def laneVec (v : S16.Idx → F .f32) : S16.Idx → F .f32 := fun y => Cert.Spec.lane (v y)

/-- The sixteen entries from `a` on, as the kernel addresses them. -/
abbrev slab (a : ℕ) (inb : ∀ i, (![a] : Fin 1 → ℕ) i + S16.size i ≤ S512.size i) : Rect S512 := Rect.unit (s := S512) ![a] S16.size inb

/-- The value scratch after a store of sixteen entries at `a`: the stored vector there, the old contents elsewhere. -/
theorem write_slab (a : ℕ) (inb : ∀ i, (![a] : Fin 1 → ℕ) i + S16.size i ≤ S512.size i)
    (c : ((rV).access (slab a inb)).ty.Contents (Elt F)) (p : S16.Idx → F .f32) (k : S512.Idx) :
    View.write (Elt F) ((rV).access (slab a inb)) c p Finset.univ k
      = if h : ∀ i, (![a] : Fin 1 → ℕ) i ≤ (k i).val ∧ (k i).val < (![a] : Fin 1 → ℕ) i + S16.size i then
          p (Rect.unitLocal (s := S512) (off := ![a]) (size := S16.size) k h) else c k :=
  View.read_writes_cons_unit (rV).view c inb p [] k rfl

/-- A load of sixteen entries at `a` reads the contents there. -/
theorem read_slab (a : ℕ) (inb : ∀ i, (![a] : Fin 1 → ℕ) i + S16.size i ≤ S512.size i)
    (c : (rV).view.ty.Contents (Elt F)) (y : S16.Idx) :
    View.readAt (Elt F) (rV).view (slab a inb).toLoadRect c y = c ((slab a inb).emb y) :=
  (View.read_apply _ _).trans (cast_eq _ _)

/-- Below `a` the lane function of `G`, from `a` to the end of the half still `G`. -/
def Done (lo a : ℕ) (c G : S512.Idx → F .f32) : Prop :=
  (∀ k : S512.Idx, lo ≤ (k 0).val → (k 0).val < a → c k = Cert.Spec.lane (G k))
    ∧ (∀ k : S512.Idx, a ≤ (k 0).val → (k 0).val < lo + 256 → c k = G k)

theorem done_start (lo : ℕ) (G : S512.Idx → F .f32) : Done lo lo G G :=
  ⟨fun _ h1 h2 => absurd h2 (Nat.not_lt.mpr h1), fun _ _ _ => rfl⟩

/-- One slice: load sixteen at `a`, apply the lane function, store them back. -/
theorem step (lo a : ℕ) (inb : ∀ i, (![a] : Fin 1 → ℕ) i + S16.size i ≤ S512.size i)
    (c G : S512.Idx → F .f32) (p : S16.Idx → F .f32)
    (hp : p = laneVec (View.readAt (Elt F) (rV).view (slab a inb).toLoadRect c))
    (h : Done lo a c G) (h1 : lo ≤ a) (h2 : a + 16 ≤ lo + 256) :
    Done lo (a + 16) (View.write (Elt F) ((rV).access (slab a inb)) c p Finset.univ) G := by
  subst hp
  refine ⟨fun k hk1 hk2 => ?_, fun k hk1 hk2 => ?_⟩
  · rw [write_slab]
    split
    · rename_i hh
      have h0 := hh 0
      simp only [Matrix.cons_val_zero] at h0
      show Cert.Spec.lane (View.readAt (Elt F) (rV).view (slab a inb).toLoadRect c _) = _
      rw [read_slab]
      have e : (slab a inb).emb (Rect.unitLocal (s := S512) (off := ![a]) (size := S16.size) k hh) = k := by
        funext i; match i with
        | ⟨0, _⟩ => exact Fin.ext (by show a + 1 * ((k 0).val - a) = (k 0).val; omega)
      rw [e, h.2 k h0.1 (by omega)]
    · rename_i hh
      refine h.1 k hk1 ?_
      by_contra hc
      exact hh fun i => by
        match i with
        | ⟨0, _⟩ => exact ⟨by show a ≤ (k 0).val; omega, by show (k 0).val < a + 16; omega⟩
  · rw [write_slab]
    split
    · rename_i hh
      have h0 := hh 0
      simp only [Matrix.cons_val_zero] at h0
      exact absurd h0.2 (by show ¬ (k 0).val < a + 16; omega)
    · exact h.2 k (by omega) hk2

/-- An assertion set aside: held, but not by a name the body's run reads. -/
@[irreducible] def aside (A : sProp 𝕄) : sProp 𝕄 := A

theorem aside_eq (A : sProp 𝕄) : aside A = A := by unfold aside; rfl

end Cert.Proof.KI

end
-- ==== Proof.KILanded.lean ====
/-
  A finished half of the value scratch copied out whole onto the subcore's block of the flat result makes that block
  the flat result there.

  An element of block `r` of the subcore at grid point `(c, s)` is position `1024 s + 512 c + 256 r + y` of the flat
  result for one `y < 256`.  The copy puts there entry `y` of half `r` of the value scratch, that is entry `256 r + y` of
  the scratch, which stands for position `1024 s + 512 c + (256 r + y)` of the flat result: the same position.
-/
import proofs.«206194_g86921548136457_cont_9to1c4b_267_10_alg».proof.Proof.KIVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-! ## Entry `y` of a half of the value scratch stands for element `y` of the block -/

theorem pos0 (L : grid0.Coords) (y : S256.Idx) : gpos L ((rH0).view.emb y) = (oMem L 0).view.emb y := by
  funext a
  match a with
  | 0 =>
    apply Fin.ext
    show 1024 * (L 1).val + 512 * (L 0).val + (0 + 1 * (y 0).val)
      = (k0_off1 L (BitVec.ofNat 32 (256 * (0 : Fin 2).val))) 0 + 1 * (y 0).val
    rw [k0_off1_eq]
    show 1024 * (L 1).val + 512 * (L 0).val + (0 + 1 * (y 0).val) = 1024 * (L 1).val + 512 * (L 0).val + 256 * 0 + 1 * (y 0).val
    omega

theorem pos1 (L : grid0.Coords) (y : S256.Idx) : gpos L ((rH1).view.emb y) = (oMem L 1).view.emb y := by
  funext a
  match a with
  | 0 =>
    apply Fin.ext
    show 1024 * (L 1).val + 512 * (L 0).val + (256 + 1 * (y 0).val)
      = (k0_off1 L (BitVec.ofNat 32 (256 * (1 : Fin 2).val))) 0 + 1 * (y 0).val
    rw [k0_off1_eq]
    show 1024 * (L 1).val + 512 * (L 0).val + (256 + 1 * (y 0).val) = 1024 * (L 1).val + 512 * (L 0).val + 256 * 1 + 1 * (y 0).val
    omega

/-! ## The blocks after the copies out -/

theorem landed0_agree (d : Dev nD) (L : grid0.Coords) : ∀ j ∈ (oMem L 0).view.set, landed0 m d L j = oF m d j := by
  intro j hj
  obtain ⟨y, -, rfl⟩ := Finset.mem_map.mp hj
  have e := View.read_writes_cons_emb (oMem L 0).view (m (oLoc d)) (Rect.whole S256)
    (ReadAs.same.apply ((rH0).view.read (Elt F) (vF m d L))) [] y
  rw [Rect.emb_whole_apply] at e
  have e' : (oMem L 0).view.read (Elt F) (landed0 m d L) y = landed0 m d L ((oMem L 0).view.emb y) :=
    (View.read_apply _ _).trans (cast_eq _ _)
  rw [← e', e]
  show (rH0).view.read (Elt F) (vF m d L) y = oF m d ((oMem L 0).view.emb y)
  rw [show (rH0).view.read (Elt F) (vF m d L) y = vF m d L ((rH0).view.emb y) from (View.read_apply _ _).trans (cast_eq _ _)]
  show oF m d (gpos L ((rH0).view.emb y)) = oF m d ((oMem L 0).view.emb y)
  rw [pos0]

theorem landed1_agree (d : Dev nD) (L : grid0.Coords) : ∀ j ∈ (oMem L 1).view.set, landed1 m d L j = oF m d j := by
  intro j hj
  obtain ⟨y, -, rfl⟩ := Finset.mem_map.mp hj
  have e := View.read_writes_cons_emb (oMem L 1).view (m (oLoc d)) (Rect.whole S256)
    (ReadAs.same.apply ((rH1).view.read (Elt F) (vF m d L))) [] y
  rw [Rect.emb_whole_apply] at e
  have e' : (oMem L 1).view.read (Elt F) (landed1 m d L) y = landed1 m d L ((oMem L 1).view.emb y) :=
    (View.read_apply _ _).trans (cast_eq _ _)
  rw [← e', e]
  show (rH1).view.read (Elt F) (vF m d L) y = oF m d ((oMem L 1).view.emb y)
  rw [show (rH1).view.read (Elt F) (vF m d L) y = vF m d L ((rH1).view.emb y) from (View.read_apply _ _).trans (cast_eq _ _)]
  show oF m d (gpos L ((rH1).view.emb y)) = oF m d ((oMem L 1).view.emb y)
  rw [pos1]

end Cert.Proof.KI

end
-- ==== Proof.KIGathered.lean ====
/-
  What a half of the value scratch holds after the index copy and the indirect gather.

  Half `h` of the index scratch receives block `h` of the subcore's 512 index words: its entry `y` is the index vector's
  word at position `1024 s + 512 c + 256 h + y`, the position entry `256 h + y` of the value scratch stands for.  The gather
  then puts at entry `y` of half `h` of the value scratch the flat table at the row that word names; every index word is
  below 1000000, so the row is the word itself, the one the specification's `row` names.
-/
import proofs.«206194_g86921548136457_cont_9to1c4b_267_10_alg».proof.Proof.KIVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-! ## Positions: entry `y` of a half of the scratch, element `y` of the block of index words -/

theorem gposI0 (L : grid0.Coords) (y : S256.Idx) : (iMem L 0).view.emb y = gpos L ((rH0).view.emb y) := by
  funext a
  match a with
  | 0 =>
    apply Fin.ext
    show (k0_off1 L (BitVec.ofNat 32 (256 * (0 : Fin 2).val))) 0 + 1 * (y 0).val
      = 1024 * (L 1).val + 512 * (L 0).val + (0 + 1 * (y 0).val)
    rw [k0_off1_eq]
    show 1024 * (L 1).val + 512 * (L 0).val + 256 * 0 + 1 * (y 0).val = 1024 * (L 1).val + 512 * (L 0).val + (0 + 1 * (y 0).val)
    omega

theorem gposI1 (L : grid0.Coords) (y : S256.Idx) : (iMem L 1).view.emb y = gpos L ((rH1).view.emb y) := by
  funext a
  match a with
  | 0 =>
    apply Fin.ext
    show (k0_off1 L (BitVec.ofNat 32 (256 * (1 : Fin 2).val))) 0 + 1 * (y 0).val
      = 1024 * (L 1).val + 512 * (L 0).val + (256 + 1 * (y 0).val)
    rw [k0_off1_eq]
    show 1024 * (L 1).val + 512 * (L 0).val + 256 * 1 + 1 * (y 0).val = 1024 * (L 1).val + 512 * (L 0).val + (256 + 1 * (y 0).val)
    omega

/-- A list of 256 words in row-major order: entry `k` is the word at index `k`. -/
theorem rowMajor_symm_S256 (hn : S256.numel = S256.size (gathers_S1000000_S256).axis') (y : S256.Idx) :
    S256.rowMajor.symm ((y (gathers_S1000000_S256).axis').cast hn.symm) = y := by
  rw [Equiv.symm_apply_eq]
  apply Fin.ext
  rw [Shape.rowMajor_val_one]
  rfl

/-! ## The gathered halves -/

/-- The whole flat table read through the kernel's whole-table slice is the flat table. -/
theorem read_wAll (d : Dev nD) (hs : ∀ a, (Rect.unit (s := S1000000) ![0] S1000000.size inb_S1000000_S1000000_0).stride a = 1)
    (x : S1000000.Idx) :
    View.read (Elt F) ((wV).slice (Rect.unit (s := S1000000) ![0] S1000000.size inb_S1000000_S1000000_0) hs).view (wF m d) x = wF m d x := by
  rw [show View.read (Elt F) ((wV).slice (Rect.unit (s := S1000000) ![0] S1000000.size inb_S1000000_S1000000_0) hs).view (wF m d) x
      = wF m d (((wV).slice (Rect.unit (s := S1000000) ![0] S1000000.size inb_S1000000_S1000000_0) hs).view.emb x) from
    (View.read_apply _ _).trans (cast_eq _ _)]
  congr 1
  funext a
  match a with
  | 0 =>
    apply Fin.ext
    show 0 + 1 * (x 0).val = (x 0).val
    omega

theorem gathered0 (hpre : PreOK m) (d : Dev nD) (L : grid0.Coords) (g : (sH0).view.ty.Contents (Elt F))
    (hs : ∀ a, (Rect.unit (s := S1000000) ![0] S1000000.size inb_S1000000_S1000000_0).stride a = 1)
    (hn : S256.numel = S256.size (gathers_S1000000_S256).axis')
    (hr : ∀ x, (View.read (Elt F) (sH0).view ((sH0).view.writes (Elt F) g
        [⟨Rect.whole S256, ReadAs.same.apply ((iMem L 0).view.read (Elt F) (m (iLoc d)))⟩]) x).toNat < S1000000.size (gathers_S1000000_S256).axis)
    (y : S256.Idx) :
    SparseCore.gatherPayload gathers_S1000000_S256
        (View.read (Elt F) ((wV).slice (Rect.unit (s := S1000000) ![0] S1000000.size inb_S1000000_S1000000_0) hs).view (wF m d))
        (SparseCore.rows (View.read (Elt F) (sH0).view ((sH0).view.writes (Elt F) g
          [⟨Rect.whole S256, ReadAs.same.apply ((iMem L 0).view.read (Elt F) (m (iLoc d)))⟩])) hn hr) y
      = wF m d (ValueIdx.ix1 (Cert.Spec.row (m (iLoc d) (gpos L ((rH0).view.emb y))))) := by
  unfold SparseCore.gatherPayload
  rw [read_wAll]
  congr 1
  funext a
  match a with
  | 0 =>
    apply Fin.ext
    rw [show (gathers_S1000000_S256).idx (SparseCore.rows (View.read (Elt F) (sH0).view ((sH0).view.writes (Elt F) g
          [⟨Rect.whole S256, ReadAs.same.apply ((iMem L 0).view.read (Elt F) (m (iLoc d)))⟩])) hn hr) y 0
        = SparseCore.rows (View.read (Elt F) (sH0).view ((sH0).view.writes (Elt F) g
          [⟨Rect.whole S256, ReadAs.same.apply ((iMem L 0).view.read (Elt F) (m (iLoc d)))⟩])) hn hr (y (gathers_S1000000_S256).axis')
        from Shape.Gathers.idx_axis _ _ _]
    show (View.read (Elt F) (sH0).view ((sH0).view.writes (Elt F) g
          [⟨Rect.whole S256, ReadAs.same.apply ((iMem L 0).view.read (Elt F) (m (iLoc d)))⟩])
          (S256.rowMajor.symm ((y (gathers_S1000000_S256).axis').cast hn.symm))).toNat
        = (Cert.Spec.row (m (iLoc d) (gpos L ((rH0).view.emb y)))).val
    rw [rowMajor_symm_S256 hn]
    have e := View.read_writes_cons_emb (sH0).view g (Rect.whole S256)
      (ReadAs.same.apply ((iMem L 0).view.read (Elt F) (m (iLoc d)))) [] y
    rw [Rect.emb_whole_apply] at e
    rw [e]
    show ((iMem L 0).view.read (Elt F) (m (iLoc d)) y).toNat = _
    rw [show (iMem L 0).view.read (Elt F) (m (iLoc d)) y = m (iLoc d) ((iMem L 0).view.emb y) from
      (View.read_apply _ _).trans (cast_eq _ _), gposI0, Cert.Spec.row_val_of_lt (hpre d _)]

theorem gathered1 (hpre : PreOK m) (d : Dev nD) (L : grid0.Coords) (g : (sH1).view.ty.Contents (Elt F))
    (hs : ∀ a, (Rect.unit (s := S1000000) ![0] S1000000.size inb_S1000000_S1000000_0).stride a = 1)
    (hn : S256.numel = S256.size (gathers_S1000000_S256).axis')
    (hr : ∀ x, (View.read (Elt F) (sH1).view ((sH1).view.writes (Elt F) g
        [⟨Rect.whole S256, ReadAs.same.apply ((iMem L 1).view.read (Elt F) (m (iLoc d)))⟩]) x).toNat < S1000000.size (gathers_S1000000_S256).axis)
    (y : S256.Idx) :
    SparseCore.gatherPayload gathers_S1000000_S256
        (View.read (Elt F) ((wV).slice (Rect.unit (s := S1000000) ![0] S1000000.size inb_S1000000_S1000000_0) hs).view (wF m d))
        (SparseCore.rows (View.read (Elt F) (sH1).view ((sH1).view.writes (Elt F) g
          [⟨Rect.whole S256, ReadAs.same.apply ((iMem L 1).view.read (Elt F) (m (iLoc d)))⟩])) hn hr) y
      = wF m d (ValueIdx.ix1 (Cert.Spec.row (m (iLoc d) (gpos L ((rH1).view.emb y))))) := by
  unfold SparseCore.gatherPayload
  rw [read_wAll]
  congr 1
  funext a
  match a with
  | 0 =>
    apply Fin.ext
    rw [show (gathers_S1000000_S256).idx (SparseCore.rows (View.read (Elt F) (sH1).view ((sH1).view.writes (Elt F) g
          [⟨Rect.whole S256, ReadAs.same.apply ((iMem L 1).view.read (Elt F) (m (iLoc d)))⟩])) hn hr) y 0
        = SparseCore.rows (View.read (Elt F) (sH1).view ((sH1).view.writes (Elt F) g
          [⟨Rect.whole S256, ReadAs.same.apply ((iMem L 1).view.read (Elt F) (m (iLoc d)))⟩])) hn hr (y (gathers_S1000000_S256).axis')
        from Shape.Gathers.idx_axis _ _ _]
    show (View.read (Elt F) (sH1).view ((sH1).view.writes (Elt F) g
          [⟨Rect.whole S256, ReadAs.same.apply ((iMem L 1).view.read (Elt F) (m (iLoc d)))⟩])
          (S256.rowMajor.symm ((y (gathers_S1000000_S256).axis').cast hn.symm))).toNat
        = (Cert.Spec.row (m (iLoc d) (gpos L ((rH1).view.emb y)))).val
    rw [rowMajor_symm_S256 hn]
    have e := View.read_writes_cons_emb (sH1).view g (Rect.whole S256)
      (ReadAs.same.apply ((iMem L 1).view.read (Elt F) (m (iLoc d)))) [] y
    rw [Rect.emb_whole_apply] at e
    rw [e]
    show ((iMem L 1).view.read (Elt F) (m (iLoc d)) y).toNat = _
    rw [show (iMem L 1).view.read (Elt F) (m (iLoc d)) y = m (iLoc d) ((iMem L 1).view.emb y) from
      (View.read_apply _ _).trans (cast_eq _ _), gposI1, Cert.Spec.row_val_of_lt (hpre d _)]

end Cert.Proof.KI

end
-- ==== Proof.KITile.lean ====
/-
  One vector subcore's body, run from its operands to its results.

  The subcore at grid point `L` copies its two blocks of 256 index words into the halves of its index scratch (a
  semaphore each), and as each lands gathers the table rows those words name into the matching half of its value scratch
  (a semaphore each; the words name rows of the table by the precondition, `idx_inb`).  As each gather lands it walks
  that half sixteen entries at a time, replacing each entry `x` by `1 / (1 + exp (0 - x))`, and copies the half out onto
  its block of the flat result.  The two copies out complete on ONE semaphore: a wait on it says nothing about either
  copy until both have been waited for, so their deliveries are stated together beforehand (`deliv`) and collected at
  the second wait; between the first copy's issue and that wait nothing touches its source or its destination.

  The value is carried along: when a half's sixteen slices are done its contents are, entry by entry, the flat result
  at the subcore's positions (`vF`: sixteen applications of `step` from what the gather left, `gathered0` /
  `gathered1`), so what lands on each block of the flat result is the flat result there (`landed0_agree`,
  `landed1_agree`).  The run stops before each copy out — the shared semaphore's counter, then the second block, are set
  aside until then — so that the half copied is held at that closed form when the copy is issued.
-/
import proofs.«206194_g86921548136457_cont_9to1c4b_267_10_alg».proof.Proof.KIStep
import proofs.«206194_g86921548136457_cont_9to1c4b_267_10_alg».proof.Proof.KILanded
import proofs.«206194_g86921548136457_cont_9to1c4b_267_10_alg».proof.Proof.KIGathered

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-- Every payload of the body is the lane function of the vector it was computed from: the printed operations are
    pointwise, and a cast of a vector of sixteen to a vector of sixteen is the identity. -/
local macro "pay_tac" : tactic =>
  `(tactic| (funext y; simp only [laneVec, Cert.Spec.lane, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self]; rfl))

/-- What the two copies out deliver: block `t` of the subcore's part of the flat result landed, half `t` of the finished
    value scratch back. -/
def deliv (d : Dev nD) (L : grid0.Coords) : Fin 2 → sProp 𝕄
  | ⟨0, _⟩ => iprop(((oMem L 0).view.loc (V d (cV L) (jV L)) ↦[(oMem L 0).view.set]{fullShare} landed0 m d L)
      ∗ ((rH0).view.loc (V d (cV L) (jV L)) ↦[(rH0).view.set]{fullShare} vF m d L))
  | ⟨1, _⟩ => iprop(((oMem L 1).view.loc (V d (cV L) (jV L)) ↦[(oMem L 1).view.set]{fullShare} landed1 m d L)
      ∗ ((rH1).view.loc (V d (cV L) (jV L)) ↦[(rH1).view.set]{fullShare} vF m d L))

instance deliv_storable (d : Dev nD) (L : grid0.Coords) : ∀ t, BI.Storable (upEmb : UEmb _ 𝕄) (deliv m d L t)
  | ⟨0, _⟩ => (inferInstance : BI.Storable (upEmb : UEmb _ 𝕄) iprop(((oMem L 0).view.loc (V d (cV L) (jV L)) ↦[(oMem L 0).view.set]{fullShare} landed0 m d L)
      ∗ ((rH0).view.loc (V d (cV L) (jV L)) ↦[(rH0).view.set]{fullShare} vF m d L)))
  | ⟨1, _⟩ => (inferInstance : BI.Storable (upEmb : UEmb _ 𝕄) iprop(((oMem L 1).view.loc (V d (cV L) (jV L)) ↦[(oMem L 1).view.set]{fullShare} landed1 m d L)
      ∗ ((rH1).view.loc (V d (cV L) (jV L)) ↦[(rH1).view.set]{fullShare} vF m d L)))

/-- One block's credit on the shared completion semaphore. -/
abbrev creditO (L : grid0.Coords) : ℕ := (oMem L 0).view.amount (SemLoc.dma (sig := sig) semO)

set_option maxHeartbeats 4000000 in
theorem tile_core (hpre : PreOK m) (d : Dev nD) (L : grid0.Coords) (O : CellTallies nD τ sig (HIx 1)) (W : Waits sig (HIx 1)) (hO : ∀ g, O g none = 0) (q : PosShare TreeShare)
    (fs0 fs1 : Buf (Elt F) (sLoc d L)) (fr0 fr1 : Buf (Elt F) (vLoc d L)) :
    (iprop(levAts (K (F := F)).L (K (F := F)).lev
        ∗ (iLoc d ↦{q} m (iLoc d))
        ∗ (wLoc d ↦{q} wF m d)
        ∗ (oLoc d ↦[oSet L 0]{fullShare} m (oLoc d))
        ∗ (oLoc d ↦[oSet L 1]{fullShare} m (oLoc d))
        ∗ (sLoc d L ↦[(sH0).view.set]{fullShare} fs0)
        ∗ (sLoc d L ↦[(sH1).view.set]{fullShare} fs1)
        ∗ (vLoc d L ↦[(rH0).view.set]{fullShare} fr0)
        ∗ (vLoc d L ↦[(rH1).view.set]{fullShare} fr1)
        ∗ semVal (V d (cV L) (jV L), SemLoc.dma semI0) 0 ∗ semVal (V d (cV L) (jV L), SemLoc.dma semI1) 0
        ∗ semVal (V d (cV L) (jV L), SemLoc.dma semG0) 0 ∗ semVal (V d (cV L) (jV L), SemLoc.dma semG1) 0
        ∗ semVal (V d (cV L) (jV L), SemLoc.dma semO) 0
        ∗ owes (V d (cV L) (jV L)) O W) : sProp 𝕄)
      ⊢ wp frame (wpE (defs₀ (F := F)) 𝒱₀ (V d (cV L) (jV L)) none) Set.univ
          (cc0__emb_sigmoid L wV (Memref.isWhole_whole _) iV (Memref.isWhole_whole _) oV (Memref.isWhole_whole _)
            sV (Memref.isWhole_whole _) rV (Memref.isWhole_whole _) cc0_scratch2 cc0_scratch3 cc0_scratch4)
          fun _ => (iprop((iLoc d ↦{q} m (iLoc d))
            ∗ (wLoc d ↦{q} wF m d)
            ∗ (oLoc d ↦[oSet L 0]{fullShare} oF m d)
            ∗ (oLoc d ↦[oSet L 1]{fullShare} oF m d)
            ∗ (∃ f, sLoc d L ↦[(sH0).view.set]{fullShare} f)
            ∗ (∃ f, sLoc d L ↦[(sH1).view.set]{fullShare} f)
            ∗ (∃ f, vLoc d L ↦[(rH0).view.set]{fullShare} f)
            ∗ (∃ f, vLoc d L ↦[(rH1).view.set]{fullShare} f)
            ∗ semVal (V d (cV L) (jV L), SemLoc.dma semI0) 0 ∗ semVal (V d (cV L) (jV L), SemLoc.dma semI1) 0
            ∗ semVal (V d (cV L) (jV L), SemLoc.dma semG0) 0 ∗ semVal (V d (cV L) (jV L), SemLoc.dma semG1) 0
            ∗ semVal (V d (cV L) (jV L), SemLoc.dma semO) 0
            ∗ ∃ W', ⌜∀ p ∈ W', p ∈ W ∨ p.2 = none⌝ ∗ owes (V d (cV L) (jV L)) O W') : sProp 𝕄) := by
  simp only [cc0__emb_sigmoid_eq_skeleton]; unfold cc0__emb_sigmoid_skel
  iintro ⟨#Hlv, Hi, Hw, Ho0, Ho1, Hs0, Hs1, Hr0, Hr1, HsemI0, HsemI1, HsemG0, HsemG1, HsemO, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (show (iLoc d ↦{q} m (iLoc d) : sProp 𝕄) = ((iV).view.loc (V d (cV L) (jV L)) ↦{q} m (iLoc d)) from rfl)) $$ Hi
  ihave Hw' := (Entails.of_eq (show (wLoc d ↦{q} wF m d : sProp 𝕄) = ((wV).view.loc (V d (cV L) (jV L)) ↦{q} wF m d) from rfl)) $$ Hw
  ihave Ho0' := (Entails.of_eq (show (oLoc d ↦[oSet L 0]{fullShare} m (oLoc d) : sProp 𝕄)
      = ((oMem L 0).view.loc (V d (cV L) (jV L)) ↦[(oMem L 0).view.set]{fullShare} m (oLoc d)) from rfl)) $$ Ho0
  ihave Ho1a := (Entails.of_eq (aside_eq (oLoc d ↦[oSet L 1]{fullShare} m (oLoc d) : sProp 𝕄)).symm) $$ Ho1
  ihave HsemOa := (Entails.of_eq (aside_eq (semVal ((V d (cV L) (jV L)), SemLoc.dma semO) 0 : sProp 𝕄)).symm) $$ HsemO
  ihave Hs0' := (Entails.of_eq (show (sLoc d L ↦[(sH0).view.set]{fullShare} fs0 : sProp 𝕄)
      = ((sH0).view.loc (V d (cV L) (jV L)) ↦[(sH0).view.set]{fullShare} fs0) from rfl)) $$ Hs0
  ihave Hs1' := (Entails.of_eq (show (sLoc d L ↦[(sH1).view.set]{fullShare} fs1 : sProp 𝕄)
      = ((sH1).view.loc (V d (cV L) (jV L)) ↦[(sH1).view.set]{fullShare} fs1) from rfl)) $$ Hs1
  ihave Hr0' := (Entails.of_eq (show (vLoc d L ↦[(rH0).view.set]{fullShare} fr0 : sProp 𝕄)
      = ((rH0).view.loc (V d (cV L) (jV L)) ↦[(rH0).view.set]{fullShare} fr0) from rfl)) $$ Hr0
  ihave Hr1' := (Entails.of_eq (show (vLoc d L ↦[(rH1).view.set]{fullShare} fr1 : sProp 𝕄)
      = ((rH1).view.loc (V d (cV L) (jV L)) ↦[(rH1).view.set]{fullShare} fr1) from rfl)) $$ Hr1
  have hin := idx_inb (F := F) m hpre d
  -- two gathers read the table at once: a read share of it for each, and the rest
  ihave Hws := (Transfers.pointsTo_toks_split (ℓ := (wV).view.loc (V d (cV L) (jV L))) (S := Finset.univ) (f := wF m d) q 2) $$ Hw'
  icases Hws with ⟨Hwr, Hwt⟩
  ihave Hwt' := (Entails.of_eq (bigSep_univ_two (fun i : Fin 2 => ((wV).view.loc (V d (cV L) (jV L)) ↦{Transfers.shareTok q 2 i} wF m d : sProp 𝕄)))) $$ Hwt
  icases Hwt' with ⟨Hw0, Hw1⟩
  -- the index copies and their waits, the two gathers, the first gather's wait, sixteen slices
  sl_exec
  -- the first half of the value scratch is finished
  have hV1 : ∀ j ∈ (rH0).view.set, tile_core.sl.Hr0'_w16 m d L hin j = vF m d L j := by
    have eG : ∀ y, tile_core.sl.gather2 m d L hin y = wF m d (ValueIdx.ix1 (Cert.Spec.row (m (iLoc d) (gpos L ((rH0).view.emb y))))) := fun y => by
      unfold tile_core.sl.gather2 tile_core.sl.dma0; exact gathered0 m hpre d L _ _ _ _ y
    have hB : ∀ y, ((rH0).view.writes (Elt F) (rH0).view.junk [⟨Rect.whole S256, tile_core.sl.gather2 m d L hin⟩]) ((rH0).view.emb y) = tile_core.sl.gather2 m d L hin y := fun y => by
      have e := View.read_writes_cons_emb (rH0).view (rH0).view.junk (Rect.whole S256) (tile_core.sl.gather2 m d L hin) [] y
      rw [Rect.emb_whole_apply] at e
      exact ((View.read_apply _ _).trans (cast_eq _ _)).symm.trans e
    have d0 := done_start (F := F) 0 ((rH0).view.writes (Elt F) (rH0).view.junk [⟨Rect.whole S256, tile_core.sl.gather2 m d L hin⟩])
    have d1 : Done 0 16 (tile_core.sl.Hr0'_w1 m d L hin) _ := step 0 0 inb_S512_S16_0 _ _ _ (by pay_tac) d0 (by omega) (by omega)
    have d2 : Done 0 32 (tile_core.sl.Hr0'_w2 m d L hin) _ := step 0 16 inb_S512_S16_16 _ _ _ (by pay_tac) d1 (by omega) (by omega)
    have d3 : Done 0 48 (tile_core.sl.Hr0'_w3 m d L hin) _ := step 0 32 inb_S512_S16_32 _ _ _ (by unfold tile_core.sl.r; pay_tac) d2 (by omega) (by omega)
    have d4 : Done 0 64 (tile_core.sl.Hr0'_w4 m d L hin) _ := step 0 48 inb_S512_S16_48 _ _ _ (by pay_tac) d3 (by omega) (by omega)
    have d5 : Done 0 80 (tile_core.sl.Hr0'_w5 m d L hin) _ := step 0 64 inb_S512_S16_64 _ _ _ (by pay_tac) d4 (by omega) (by omega)
    have d6 : Done 0 96 (tile_core.sl.Hr0'_w6 m d L hin) _ := step 0 80 inb_S512_S16_80 _ _ _ (by unfold tile_core.sl.r_1; pay_tac) d5 (by omega) (by omega)
    have d7 : Done 0 112 (tile_core.sl.Hr0'_w7 m d L hin) _ := step 0 96 inb_S512_S16_96 _ _ _ (by pay_tac) d6 (by omega) (by omega)
    have d8 : Done 0 128 (tile_core.sl.Hr0'_w8 m d L hin) _ := step 0 112 inb_S512_S16_112 _ _ _ (by pay_tac) d7 (by omega) (by omega)
    have d9 : Done 0 144 (tile_core.sl.Hr0'_w9 m d L hin) _ := step 0 128 inb_S512_S16_128 _ _ _ (by unfold tile_core.sl.r_2; pay_tac) d8 (by omega) (by omega)
    have d10 : Done 0 160 (tile_core.sl.Hr0'_w10 m d L hin) _ := step 0 144 inb_S512_S16_144 _ _ _ (by pay_tac) d9 (by omega) (by omega)
    have d11 : Done 0 176 (tile_core.sl.Hr0'_w11 m d L hin) _ := step 0 160 inb_S512_S16_160 _ _ _ (by pay_tac) d10 (by omega) (by omega)
    have d12 : Done 0 192 (tile_core.sl.Hr0'_w12 m d L hin) _ := step 0 176 inb_S512_S16_176 _ _ _ (by pay_tac) d11 (by omega) (by omega)
    have d13 : Done 0 208 (tile_core.sl.Hr0'_w13 m d L hin) _ := step 0 192 inb_S512_S16_192 _ _ _ (by unfold tile_core.sl.r_4; pay_tac) d12 (by omega) (by omega)
    have d14 : Done 0 224 (tile_core.sl.Hr0'_w14 m d L hin) _ := step 0 208 inb_S512_S16_208 _ _ _ (by pay_tac) d13 (by omega) (by omega)
    have d15 : Done 0 240 (tile_core.sl.Hr0'_w15 m d L hin) _ := step 0 224 inb_S512_S16_224 _ _ _ (by pay_tac) d14 (by omega) (by omega)
    have d16 : Done 0 256 (tile_core.sl.Hr0'_w16 m d L hin) _ := step 0 240 inb_S512_S16_240 _ _ _ (by unfold tile_core.sl.r_5; pay_tac) d15 (by omega) (by omega)
    intro j hj
    obtain ⟨y, -, rfl⟩ := Finset.mem_map.mp hj
    have hy : ((rH0).view.emb y 0).val = 0 + (y 0).val := by show 0 + 1 * (y 0).val = _; omega
    have hy' : (y 0).val < 256 := (y 0).isLt
    rw [d16.1 _ (by omega) (by omega), hB y, eG y]
    rfl
  ihave Hr0c := (Entails.of_eq (pointsTo_congr (ℓ := (rH0).view.loc (V d (cV L) (jV L))) (q := fullShare) hV1)) $$ Hr0'
  -- the two copies out share one semaphore: their deliveries are stated now
  ihave HsemO := (Entails.of_eq (aside_eq (semVal ((V d (cV L) (jV L)), SemLoc.dma semO) 0 : sProp 𝕄))) $$ HsemOa
  imod (Transfers.batch_alloc' (Lvl := ℕ) countersEmb (V d (cV L) (jV L)) (default : HIx 1) (creditO L) (deliv m d L) (sm := .dma semO) (E := Set.univ)) $$ HsemO with HB
  -- the first copy out, the second gather's wait, sixteen slices
  sl_exec
  -- the second half of the value scratch is finished
  have hV2 : ∀ j ∈ (rH1).view.set, tile_core.sl.Hr1'_w16 m d L hin j = vF m d L j := by
    have eG : ∀ y, tile_core.sl.gather3 m d L hin y = wF m d (ValueIdx.ix1 (Cert.Spec.row (m (iLoc d) (gpos L ((rH1).view.emb y))))) := fun y => by
      unfold tile_core.sl.gather3 tile_core.sl.dma0_1; exact gathered1 m hpre d L _ _ _ _ y
    have hB : ∀ y, ((rH1).view.writes (Elt F) (rH1).view.junk [⟨Rect.whole S256, tile_core.sl.gather3 m d L hin⟩]) ((rH1).view.emb y) = tile_core.sl.gather3 m d L hin y := fun y => by
      have e := View.read_writes_cons_emb (rH1).view (rH1).view.junk (Rect.whole S256) (tile_core.sl.gather3 m d L hin) [] y
      rw [Rect.emb_whole_apply] at e
      exact ((View.read_apply _ _).trans (cast_eq _ _)).symm.trans e
    have d0 := done_start (F := F) 256 ((rH1).view.writes (Elt F) (rH1).view.junk [⟨Rect.whole S256, tile_core.sl.gather3 m d L hin⟩])
    have d1 : Done 256 272 (tile_core.sl.Hr1'_w1 m d L hin) _ := step 256 256 inb_S512_S16_256 _ _ _ (by pay_tac) d0 (by omega) (by omega)
    have d2 : Done 256 288 (tile_core.sl.Hr1'_w2 m d L hin) _ := step 256 272 inb_S512_S16_272 _ _ _ (by unfold tile_core.sl.r_6; pay_tac) d1 (by omega) (by omega)
    have d3 : Done 256 304 (tile_core.sl.Hr1'_w3 m d L hin) _ := step 256 288 inb_S512_S16_288 _ _ _ (by pay_tac) d2 (by omega) (by omega)
    have d4 : Done 256 320 (tile_core.sl.Hr1'_w4 m d L hin) _ := step 256 304 inb_S512_S16_304 _ _ _ (by pay_tac) d3 (by omega) (by omega)
    have d5 : Done 256 336 (tile_core.sl.Hr1'_w5 m d L hin) _ := step 256 320 inb_S512_S16_320 _ _ _ (by pay_tac) d4 (by omega) (by omega)
    have d6 : Done 256 352 (tile_core.sl.Hr1'_w6 m d L hin) _ := step 256 336 inb_S512_S16_336 _ _ _ (by unfold tile_core.sl.r_7; pay_tac) d5 (by omega) (by omega)
    have d7 : Done 256 368 (tile_core.sl.Hr1'_w7 m d L hin) _ := step 256 352 inb_S512_S16_352 _ _ _ (by pay_tac) d6 (by omega) (by omega)
    have d8 : Done 256 384 (tile_core.sl.Hr1'_w8 m d L hin) _ := step 256 368 inb_S512_S16_368 _ _ _ (by pay_tac) d7 (by omega) (by omega)
    have d9 : Done 256 400 (tile_core.sl.Hr1'_w9 m d L hin) _ := step 256 384 inb_S512_S16_384 _ _ _ (by unfold tile_core.sl.r_8 tile_core.sl.cst_126; pay_tac) d8 (by omega) (by omega)
    have d10 : Done 256 416 (tile_core.sl.Hr1'_w10 m d L hin) _ := step 256 400 inb_S512_S16_400 _ _ _ (by pay_tac) d9 (by omega) (by omega)
    have d11 : Done 256 432 (tile_core.sl.Hr1'_w11 m d L hin) _ := step 256 416 inb_S512_S16_416 _ _ _ (by pay_tac) d10 (by omega) (by omega)
    have d12 : Done 256 448 (tile_core.sl.Hr1'_w12 m d L hin) _ := step 256 432 inb_S512_S16_432 _ _ _ (by unfold tile_core.sl.r_9; pay_tac) d11 (by omega) (by omega)
    have d13 : Done 256 464 (tile_core.sl.Hr1'_w13 m d L hin) _ := step 256 448 inb_S512_S16_448 _ _ _ (by pay_tac) d12 (by omega) (by omega)
    have d14 : Done 256 480 (tile_core.sl.Hr1'_w14 m d L hin) _ := step 256 464 inb_S512_S16_464 _ _ _ (by pay_tac) d13 (by omega) (by omega)
    have d15 : Done 256 496 (tile_core.sl.Hr1'_w15 m d L hin) _ := step 256 480 inb_S512_S16_480 _ _ _ (by pay_tac) d14 (by omega) (by omega)
    have d16 : Done 256 512 (tile_core.sl.Hr1'_w16 m d L hin) _ := step 256 496 inb_S512_S16_496 _ _ _ (by unfold tile_core.sl.r_10; pay_tac) d15 (by omega) (by omega)
    intro j hj
    obtain ⟨y, -, rfl⟩ := Finset.mem_map.mp hj
    have hy : ((rH1).view.emb y 0).val = 256 + (y 0).val := by show 256 + 1 * (y 0).val = _; omega
    have hy' : (y 0).val < 256 := (y 0).isLt
    rw [d16.1 _ (by omega) (by omega), hB y, eG y]
    rfl
  ihave Hr1c := (Entails.of_eq (pointsTo_congr (ℓ := (rH1).view.loc (V d (cV L) (jV L))) (q := fullShare) hV2)) $$ Hr1'
  ihave Ho1 := (Entails.of_eq (aside_eq (oLoc d ↦[oSet L 1]{fullShare} m (oLoc d) : sProp 𝕄))) $$ Ho1a
  ihave Ho1' := (Entails.of_eq (show (oLoc d ↦[oSet L 1]{fullShare} m (oLoc d) : sProp 𝕄)
      = ((oMem L 1).view.loc (V d (cV L) (jV L)) ↦[(oMem L 1).view.set]{fullShare} m (oLoc d)) from rfl)) $$ Ho1
  -- the second copy out and the two waits
  sl_exec
  sl_step
  -- the table's read share whole again
  ihave Hwt2 := (Entails.of_eq (bigSep_univ_two (fun i : Fin 2 => ((wV).view.loc (V d (cV L) (jV L)) ↦{Transfers.shareTok q 2 i} wF m d : sProp 𝕄))).symm) $$ [Hw0 Hw1]
  · isplitl [Hw0]; · iexact Hw0
    iexact Hw1
  ihave Hw2 := (Transfers.pointsTo_toks_join (ℓ := (wV).view.loc (V d (cV L) (jV L))) (S := Finset.univ) (f := wF m d) q 2) $$ [Hwr Hwt2]
  · isplitl [Hwr]; · iexact Hwr
    iexact Hwt2
  -- what landed on the two blocks is the flat result there
  ihave Ho0f := (Entails.of_eq (pointsTo_congr (ℓ := (oMem L 0).view.loc (V d (cV L) (jV L))) (q := fullShare) (landed0_agree m d L))) $$ HB_dst0
  ihave Ho1f := (Entails.of_eq (pointsTo_congr (ℓ := (oMem L 1).view.loc (V d (cV L) (jV L))) (q := fullShare) (landed1_agree m d L))) $$ HB_dst1
  isplitl [Hi']; · iexact Hi'
  isplitl [Hw2]; · iexact Hw2
  isplitl [Ho0f]; · iexact Ho0f
  isplitl [Ho1f]; · iexact Ho1f
  isplitl [Hs0']; · iexists _; iexact Hs0'
  isplitl [Hs1']; · iexists _; iexact Hs1'
  isplitl [HB_src0]; · iexists _; iexact HB_src0
  isplitl [HB_src1]; · iexists _; iexact HB_src1
  isplitl [HsemI0]; · iexact HsemI0
  isplitl [HsemI1]; · iexact HsemI1
  isplitl [HsemG0]; · iexact HsemG0
  isplitl [HsemG1]; · iexact HsemG1
  isplitl [HB]; · iexact HB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KI

end
-- ==== Proof.KIObl.lean ====
/-
  The launch theorem's obligation for the vector-subcore kernel, from the core run of one subcore's body.

  The launch theorem hands a subcore its task's operands — its read shares of the index vector and the flat table, its two
  blocks of the flat result — and its scoped storage: every buffer and every semaphore that is the subcore's own.  The core
  run is stated over exactly what the body touches: the two halves of each scratch buffer and the five completion
  semaphores.  So the scoped storage is opened: the subcore's own buffers are the two scratch buffers and a rest
  (`ownBufs_V`), its own cells the five semaphores and a rest (`ownSems0_V`); a scratch buffer's 512 entries are the two
  parts of 256 of its one axis, which are the kernel's two slices, so held whole it is its two halves, at any contents
  (`s_split`, `v_split`), and two halves at whatever contents join into the whole at some contents (`s_join`, `v_join`).
  The rests ride along beside the run (`tile_body`).  The body table runs the kernel function on each subcore of the grid
  at its grid point, which is the obligation (`tileObl`).
-/
import proofs.«206194_g86921548136457_cont_9to1c4b_267_10_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-! ## A vector subcore's own cells and buffers -/

section Tile

variable (d : Dev nD) (L : grid0.Coords)

omit [FloatOps F] in
/-- Cells of one thread on distinct semaphores are distinct. -/
theorem cell_ne {k k' : DmaSem sig} (h : k ≠ k') :
    ((V d (cV L) (jV L), SemLoc.dma k) : GSem nD τ sig) ≠ (V d (cV L) (jV L), SemLoc.dma k') :=
  fun e => h (SemLoc.dma.inj (Prod.mk.inj e).2)

omit [FloatOps F] in
/-- A scoped completion semaphore of the subcore is one of its own cells. -/
theorem cell_mem {k : DmaSem sig} (hk : (SemLoc.dma k : SemLoc sig).isScoped .scVector = true) :
    ((V d (cV L) (jV L), SemLoc.dma k) : GSem nD τ sig) ∈ ownCells (V d (cV L) (jV L)) :=
  mem_ownCells.mpr ⟨rfl, hk⟩

omit [FloatOps F] in
/-- The five completion semaphores are among the subcore's own cells: they, at zero, and the rest. -/
theorem ownSems0_V :
    (ownSems0 (V d (cV L) (jV L)) : sProp 𝕄)
      = iprop(semVal (V d (cV L) (jV L), SemLoc.dma semI0) 0 ∗ semVal (V d (cV L) (jV L), SemLoc.dma semI1) 0
          ∗ semVal (V d (cV L) (jV L), SemLoc.dma semG0) 0 ∗ semVal (V d (cV L) (jV L), SemLoc.dma semG1) 0
          ∗ semVal (V d (cV L) (jV L), SemLoc.dma semO) 0
          ∗ bigSep ((((((ownCells (V d (cV L) (jV L))).erase (V d (cV L) (jV L), SemLoc.dma semI0)).erase (V d (cV L) (jV L), SemLoc.dma semI1)).erase
              (V d (cV L) (jV L), SemLoc.dma semG0)).erase (V d (cV L) (jV L), SemLoc.dma semG1)).erase (V d (cV L) (jV L), SemLoc.dma semO))
              fun g => semVal g 0) := by
  unfold SparseCore.Cfg.ownSems0
  have m0 := cell_mem d L (k := semI0) (by decide)
  have m1 := cell_mem d L (k := semI1) (by decide)
  have m2 := cell_mem d L (k := semG0) (by decide)
  have m3 := cell_mem d L (k := semG1) (by decide)
  have m4 := cell_mem d L (k := semO) (by decide)
  rw [SparseCore.bigSep_erase' m0,
    SparseCore.bigSep_erase' (Finset.mem_erase.mpr ⟨cell_ne d L (show semI1 ≠ semI0 by decide), m1⟩),
    SparseCore.bigSep_erase' (Finset.mem_erase.mpr ⟨cell_ne d L (show semG0 ≠ semI1 by decide),
      Finset.mem_erase.mpr ⟨cell_ne d L (show semG0 ≠ semI0 by decide), m2⟩⟩),
    SparseCore.bigSep_erase' (Finset.mem_erase.mpr ⟨cell_ne d L (show semG1 ≠ semG0 by decide),
      Finset.mem_erase.mpr ⟨cell_ne d L (show semG1 ≠ semI1 by decide),
        Finset.mem_erase.mpr ⟨cell_ne d L (show semG1 ≠ semI0 by decide), m3⟩⟩⟩),
    SparseCore.bigSep_erase' (Finset.mem_erase.mpr ⟨cell_ne d L (show semO ≠ semG1 by decide),
      Finset.mem_erase.mpr ⟨cell_ne d L (show semO ≠ semG0 by decide),
        Finset.mem_erase.mpr ⟨cell_ne d L (show semO ≠ semI1 by decide),
          Finset.mem_erase.mpr ⟨cell_ne d L (show semO ≠ semI0 by decide), m4⟩⟩⟩⟩)]

omit [FloatOps F] in
/-- The two scratch buffers are among the subcore's own: they, at some contents, and the rest. -/
theorem ownBufs_V :
    (ownBufs (V d (cV L) (jV L)) : sProp 𝕄)
      = iprop((∃ f, sLoc d L ↦{fullShare} f) ∗ (∃ f, vLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The halves of a scratch buffer -/

theorem hdiv : 2 ∣ S512.size 0 := ⟨256, rfl⟩

/-- The kernel's two slices of a scratch buffer are the two parts of its one axis. -/
theorem half0_eq : Rect.unit (s := S512) ![0] S256.size inb_S512_S256_0 = Rect.part (s := S512) (a₀ := 0) hdiv 0 := by
  unfold Rect.part Rect.block
  congr 1 <;> funext a
  · match a with
    | 0 => simp [Shape.partIx, Shape.partSize]
  · match a with
    | 0 => simp [Shape.partSize]
theorem half1_eq : Rect.unit (s := S512) ![256] S256.size inb_S512_S256_256 = Rect.part (s := S512) (a₀ := 0) hdiv 1 := by
  unfold Rect.part Rect.block
  congr 1 <;> funext a
  · match a with
    | 0 => simp [Shape.partIx, Shape.partSize]
  · match a with
    | 0 => simp [Shape.partSize]

omit [FloatOps F] in
theorem sH0_set : (sH0).view.set = (Rect.part (s := S512) (a₀ := 0) hdiv 0).set := by
  show ((View.whole (cc0_scratch0 : Ref sig .scVector)).slice (Rect.unit (s := S512) ![0] S256.size inb_S512_S256_0)).set = _
  rw [View.set_slice, half0_eq]; exact Finset.map_refl
omit [FloatOps F] in
theorem sH1_set : (sH1).view.set = (Rect.part (s := S512) (a₀ := 0) hdiv 1).set := by
  show ((View.whole (cc0_scratch0 : Ref sig .scVector)).slice (Rect.unit (s := S512) ![256] S256.size inb_S512_S256_256)).set = _
  rw [View.set_slice, half1_eq]; exact Finset.map_refl
omit [FloatOps F] in
theorem rH0_set : (rH0).view.set = (Rect.part (s := S512) (a₀ := 0) hdiv 0).set := by
  show ((View.whole (cc0_scratch1 : Ref sig .scVector)).slice (Rect.unit (s := S512) ![0] S256.size inb_S512_S256_0)).set = _
  rw [View.set_slice, half0_eq]; exact Finset.map_refl
omit [FloatOps F] in
theorem rH1_set : (rH1).view.set = (Rect.part (s := S512) (a₀ := 0) hdiv 1).set := by
  show ((View.whole (cc0_scratch1 : Ref sig .scVector)).slice (Rect.unit (s := S512) ![256] S256.size inb_S512_S256_256)).set = _
  rw [View.set_slice, half1_eq]; exact Finset.map_refl

theorem parts_disjoint : Disjoint (Rect.part (s := S512) (a₀ := 0) hdiv 0).set (Rect.part (s := S512) (a₀ := 0) hdiv 1).set :=
  Rect.part_disjoint hdiv (by decide)

theorem parts_union : (Rect.part (s := S512) (a₀ := 0) hdiv 0).set ∪ (Rect.part (s := S512) (a₀ := 0) hdiv 1).set = Finset.univ := by
  rw [← Rect.biUnion_part hdiv, show (Finset.univ : Finset (Fin 2)) = {0, 1} from by decide, Finset.biUnion_insert, Finset.singleton_biUnion]

omit [FloatOps F] in
/-- A scratch buffer held whole is its two halves, at any contents. -/
theorem s_split (f : Buf (Elt F) (sLoc d L)) :
    (sLoc d L ↦{fullShare} f : sProp 𝕄) = iprop((sLoc d L ↦[(sH0).view.set]{fullShare} f) ∗ (sLoc d L ↦[(sH1).view.set]{fullShare} f)) := by
  rw [sH0_set, sH1_set]
  have h : (sLoc d L ↦[(Rect.part (s := S512) (a₀ := 0) hdiv 0).set ∪ (Rect.part (s := S512) (a₀ := 0) hdiv 1).set]{fullShare} f : sProp 𝕄)
      ⊣⊢ iprop((sLoc d L ↦[(Rect.part (s := S512) (a₀ := 0) hdiv 0).set]{fullShare} f) ∗ sLoc d L ↦[(Rect.part (s := S512) (a₀ := 0) hdiv 1).set]{fullShare} f) :=
    pointsTo_union parts_disjoint
  rw [parts_union] at h
  exact BI.equiv_iff.mp ⟨h.1, h.2⟩
omit [FloatOps F] in
theorem v_split (f : Buf (Elt F) (vLoc d L)) :
    (vLoc d L ↦{fullShare} f : sProp 𝕄) = iprop((vLoc d L ↦[(rH0).view.set]{fullShare} f) ∗ (vLoc d L ↦[(rH1).view.set]{fullShare} f)) := by
  rw [rH0_set, rH1_set]
  have h : (vLoc d L ↦[(Rect.part (s := S512) (a₀ := 0) hdiv 0).set ∪ (Rect.part (s := S512) (a₀ := 0) hdiv 1).set]{fullShare} f : sProp 𝕄)
      ⊣⊢ iprop((vLoc d L ↦[(Rect.part (s := S512) (a₀ := 0) hdiv 0).set]{fullShare} f) ∗ vLoc d L ↦[(Rect.part (s := S512) (a₀ := 0) hdiv 1).set]{fullShare} f) :=
    pointsTo_union parts_disjoint
  rw [parts_union] at h
  exact BI.equiv_iff.mp ⟨h.1, h.2⟩

omit [FloatOps F] in
/-- The two halves, at whatever contents each has, are the whole buffer at some contents. -/
theorem s_join :
    (iprop((∃ f, sLoc d L ↦[(sH0).view.set]{fullShare} f) ∗ (∃ f, sLoc d L ↦[(sH1).view.set]{fullShare} f)) : sProp 𝕄)
      ⊢ iprop(∃ f, sLoc d L ↦{fullShare} f) := by
  rw [sH0_set, sH1_set]
  iintro ⟨⟨%f0, H0⟩, ⟨%f1, H1⟩⟩
  ihave H := (pointsTo_join (ℓ := sLoc d L) (q := fullShare) parts_disjoint) $$ [H0 H1]
  · isplitl [H0] <;> iassumption
  rw [parts_union]
  iexists _; iexact H
omit [FloatOps F] in
theorem v_join :
    (iprop((∃ f, vLoc d L ↦[(rH0).view.set]{fullShare} f) ∗ (∃ f, vLoc d L ↦[(rH1).view.set]{fullShare} f)) : sProp 𝕄)
      ⊢ iprop(∃ f, vLoc d L ↦{fullShare} f) := by
  rw [rH0_set, rH1_set]
  iintro ⟨⟨%f0, H0⟩, ⟨%f1, H1⟩⟩
  ihave H := (pointsTo_join (ℓ := vLoc d L) (q := fullShare) parts_disjoint) $$ [H0 H1]
  · isplitl [H0] <;> iassumption
  rw [parts_union]
  iexists _; iexact H

/-! ## The task in the launch theorem's own resources -/

/-- The task on the vector subcore at `L` of device `d`: from its read shares of the index vector and the flat table, its
    two blocks of the flat result, its scoped storage and semaphores, to the blocks at the flat result's contents and the
    storage back.  The scoped storage opens to the two scratch buffers, each split into its halves, and the five
    completion semaphores; the core run uses exactly those; the halves join again. -/
theorem tile_body (hF : (K (F := F)).Facts) (hpre : PreOK m) (O : CellTallies nD τ sig (HIx 1)) (W : Waits sig (HIx 1)) (hO : ∀ g, O g none = 0)
    (q : PosShare TreeShare) :
    (iprop(levAts (K (F := F)).L (K (F := F)).lev ∗ emp
        ∗ (iSh m d q ∗ wSh m d q ∗ (oBlkPts d L 0 (m (oLoc d)) ∗ oBlkPts d L 1 (m (oLoc d))))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__emb_sigmoid L wV (Memref.isWhole_whole _) iV (Memref.isWhole_whole _) oV (Memref.isWhole_whole _)
            sV (Memref.isWhole_whole _) rV (Memref.isWhole_whole _) cc0_scratch2 cc0_scratch3 cc0_scratch4)
          fun _ => (iprop((iSh m d q ∗ wSh m d q ∗ (oBlkPts d L 0 (oF m d) ∗ oBlkPts d L 1 (oF m d)))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Hi, Hw, Ho0, Ho1⟩, ⟨⟨%fs, Hs⟩, ⟨%fr, Hr⟩, Hbufs⟩, ⟨HI0, HI1, HG0, HG1, HSO, Hsems⟩, HO⟩
  ihave Hs := (Entails.of_eq (s_split (F := F) d L fs)) $$ Hs
  icases Hs with ⟨Hs0, Hs1⟩
  ihave Hr := (Entails.of_eq (v_split (F := F) d L fr)) $$ Hr
  icases Hr with ⟨Hr0, Hr1⟩
  iapply (wp_wand_r frame _ Set.univ)
  isplitl [Hi Hw Ho0 Ho1 Hs0 Hs1 Hr0 Hr1 HI0 HI1 HG0 HG1 HSO HO]
  · iapply (tile_core m hpre d L O W hO q fs fs fr fr)
    isplitr; · iexact Hlv
    isplitl [Hi]; · iexact Hi
    isplitl [Hw]; · iexact Hw
    isplitl [Ho0]; · iexact Ho0
    isplitl [Ho1]; · iexact Ho1
    isplitl [Hs0]; · iexact Hs0
    isplitl [Hs1]; · iexact Hs1
    isplitl [Hr0]; · iexact Hr0
    isplitl [Hr1]; · iexact Hr1
    isplitl [HI0]; · iexact HI0
    isplitl [HI1]; · iexact HI1
    isplitl [HG0]; · iexact HG0
    isplitl [HG1]; · iexact HG1
    isplitl [HSO]; · iexact HSO
    iexact HO
  iintro %_ ⟨Hi, Hw, Ho0, Ho1, Hs0, Hs1, Hr0, Hr1, HI0, HI1, HG0, HG1, HSO, HO⟩
  isplitl [Hi Hw Ho0 Ho1]
  · isplitl [Hi]; · iexact Hi
    isplitl [Hw]; · iexact Hw
    isplitl [Ho0]; · iexact Ho0
    iexact Ho1
  isplitl [Hs0 Hs1 Hr0 Hr1 Hbufs]
  · isplitl [Hs0 Hs1]
    · iapply (s_join (F := F) d L)
      isplitl [Hs0]; · iexact Hs0
      iexact Hs1
    isplitl [Hr0 Hr1]
    · iapply (v_join (F := F) d L)
      isplitl [Hr0]; · iexact Hr0
      iexact Hr1
    iexact Hbufs
  isplitl [HI0 HI1 HG0 HG1 HSO Hsems]
  · isplitl [HI0]; · iexact HI0
    isplitl [HI1]; · iexact HI1
    isplitl [HG0]; · iexact HG0
    isplitl [HG1]; · iexact HG1
    isplitl [HSO]; · iexact HSO
    iexact Hsems
  iexact HO

end Tile

/-! ## The obligation -/

/-- The body table runs the kernel function on a vector subcore at its grid point, on the whole arrays and its scratch. -/
theorem defs₀_vector (c : Fin τ.nSC) (s : Fin τ.nSub) :
    defs₀ (F := F) (.scVector c s) 0 ()
      = SparseCore.onTile hcore0 hsub0 (fun c s => cc0__emb_sigmoid (coordsV c s)
          wV (Memref.isWhole_whole _) iV (Memref.isWhole_whole _) oV (Memref.isWhole_whole _)
          sV (Memref.isWhole_whole _) rV (Memref.isWhole_whole _) cc0_scratch2 cc0_scratch3 cc0_scratch4) ⟨⟩ c s := rfl

omit [FloatOps F] in
/-- A wait recorded by the task is one the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- THE OBLIGATION of the vector-subcore kernel: every subcore of the grid, handed its task's operands and its scoped
    storage, runs the kernel function to the task's results. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO _).trans (wp_mono frame _ _ fun _ => obl_post)

end Cert.Proof.KI

end
-- ==== Proof.KISplit.lean ====
/-
  The launch's splits and joins: how the device's three arrays are shared out to the two SparseCores and, on each, to its
  sixteen subcores, and how what comes back is gathered into the whole arrays again.

  The flat result has 16384 entries, 64 blocks of 256.  Block `r` of the subcore at grid point `(c, s)` starts at
  `1024 s + 512 c + 256 r`: it is block number `4 s + 2 c + r`, and `(c, s, r) ↦ 4 s + 2 c + r` is a bijection onto the 64
  block numbers.  So the 64 sets are pairwise disjoint and cover the array, and the points-to of the whole array is the
  separating conjunction, over the SparseCores and their subcores, of the subcore's two blocks — at any contents.
  The index vector and the flat table are only read: the full share gives one read share per SparseCore and keeps a rest,
  a SparseCore's share one per subcore and keeps a rest; a rest waits beside the returning shares and joins them again.
-/
import proofs.«206194_g86921548136457_cont_9to1c4b_267_10_alg».proof.Proof.KISetup
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "oV" => (Memref.whole Cert.KernelIdeal.main_v1_scv : Memref Cert.KernelIdeal.sig Kind.scVector Space.hbm Cert.KernelIdeal.S16384 EltTy.f32)

/-! ## The 64 blocks of the flat result -/

theorem odiv : 64 ∣ S16384.size 0 := ⟨256, rfl⟩

/-- The number of block `r` of subcore `s` of SparseCore `c`. -/
def blk (c : Fin 2) (s : Fin 16) (r : Fin 2) : Fin 64 := ⟨4 * s.val + 2 * c.val + r.val, by omega⟩

/-- Every block number is that of exactly one `(c, s, r)`. -/
def blkEquiv : Fin 2 × Fin 16 × Fin 2 ≃ Fin 64 where
  toFun t := blk t.1 t.2.1 t.2.2
  invFun b := (⟨b.val / 2 % 2, by omega⟩, ⟨b.val / 4, by omega⟩, ⟨b.val % 2, by omega⟩)
  left_inv := fun ⟨c, s, r⟩ => by
    refine Prod.ext (Fin.ext ?_) (Prod.ext (Fin.ext ?_) (Fin.ext ?_)) <;> simp only [blk] <;> omega
  right_inv := fun b => Fin.ext (by simp only [blk]; omega)

/-- The block as the kernel slices it is the block of that number. -/
theorem oBlk_eq (c : Fin 2) (s : Fin 16) (r : Fin 2) :
    oBlk (LL c s) r = Rect.part (s := S16384) (a₀ := 0) odiv (blk c s r) := by
  unfold oBlk Rect.part Rect.block
  congr 1 <;> funext a
  · rw [k0_off1_eq]
    match a with
    | 0 => simp [Shape.partIx, Shape.partSize, blk, LL, coordsV]; omega
  · match a with
    | 0 => simp [Shape.partSize]

theorem oSet_eq (c : Fin 2) (s : Fin 16) (r : Fin 2) :
    oSet (LL c s) r = (Rect.part (s := S16384) (a₀ := 0) odiv (blk c s r)).set := by
  show ((View.whole (main_v1_scv : Ref sig .scVector)).slice (oBlk (LL c s) r)).set = _
  rw [View.set_slice, oBlk_eq]; exact Finset.map_refl

/-- The whole flat result is the two SparseCores' subcores' blocks, at any contents. -/
theorem oPts_tiles (d : Dev nD) (f : Buf (Elt F) (oLoc d)) :
    (oLoc d ↦{fullShare} f : sProp 𝕄) = bigSep Finset.univ fun c : Fin 2 => oCore d c f := by
  have h1 : (oLoc d ↦{fullShare} f : sProp 𝕄)
      = bigSep Finset.univ fun b : Fin 64 => oLoc d ↦[(Rect.part (s := S16384) (a₀ := 0) odiv b).set]{fullShare} f := by
    rw [← pointsTo_biUnion Finset.univ (ℓ := oLoc d) (fun b : Fin 64 => (Rect.part (s := S16384) (a₀ := 0) odiv b).set)
      (fun i _ j _ h => Rect.part_disjoint odiv h), Rect.biUnion_part odiv]; try rfl
  rw [h1, bigSep_univ_equiv blkEquiv, bigSep_univ_prod]
  refine bigSep_congr fun c _ => ?_
  rw [bigSep_univ_prod]
  refine bigSep_congr fun s _ => ?_
  rw [bigSep_univ_two]
  show iprop((oLoc d ↦[(Rect.part (s := S16384) (a₀ := 0) odiv (blk c s 0)).set]{fullShare} f)
      ∗ (oLoc d ↦[(Rect.part (s := S16384) (a₀ := 0) odiv (blk c s 1)).set]{fullShare} f))
    = iprop((oLoc d ↦[oSet (LL c s) 0]{fullShare} f) ∗ (oLoc d ↦[oSet (LL c s) 1]{fullShare} f))
  rw [oSet_eq, oSet_eq]

/-! ## Re-indexing over the configuration's own counts -/

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ)

variable [FloatOps F]

/-! ## A SparseCore's operands among its subcores -/

/-- What the sixteen subcores of a SparseCore hold together: their shares of the two read arrays, and the SparseCore's blocks. -/
theorem bigSep_tiles (d : Dev nD) (c : Fin 2) (f : Buf (Elt F) (oLoc d)) :
    (bigSep Finset.univ fun i : Fin 16 => iprop(iSh m d (qt c i) ∗ wSh m d (qt c i) ∗ oTile d c i f))
      = (iprop((bigSep Finset.univ fun i : Fin 16 => iSh m d (qt c i)) ∗ (bigSep Finset.univ fun i : Fin 16 => wSh m d (qt c i)) ∗ oCore d c f) : sProp 𝕄) := by
  rw [bigSep_sep' Finset.univ (fun i : Fin 16 => iSh m d (qt c i)) (fun i : Fin 16 => iprop(wSh m d (qt c i) ∗ oTile d c i f)),
    bigSep_sep' Finset.univ (fun i : Fin 16 => wSh m d (qt c i)) (fun i : Fin 16 => oTile d c i f)]

/-- A SparseCore's operands split among its sixteen subcores, and their results gather. -/
theorem vecSplit : (K (F := F)).VecSplit' (P m) 0 := by
  intro d c
  show iprop(iSh m d (qc (Fin.cast nCore_zero c)) ∗ wSh m d (qc (Fin.cast nCore_zero c)) ∗ oCore d (Fin.cast nCore_zero c) (m (oLoc d)))
    ⊢ |={Set.univ}=> iprop(
      (bigSep Finset.univ fun i : Fin ((K (F := F)).nSub 0) =>
        iprop(iSh m d (qt (Fin.cast nCore_zero c) (Fin.cast nSub_zero i)) ∗ wSh m d (qt (Fin.cast nCore_zero c) (Fin.cast nSub_zero i))
          ∗ oTile d (Fin.cast nCore_zero c) (Fin.cast nSub_zero i) (m (oLoc d))))
      ∗ ((bigSep Finset.univ fun i : Fin ((K (F := F)).nSub 0) =>
          iprop(iSh m d (qt (Fin.cast nCore_zero c) (Fin.cast nSub_zero i)) ∗ wSh m d (qt (Fin.cast nCore_zero c) (Fin.cast nSub_zero i))
            ∗ oTile d (Fin.cast nCore_zero c) (Fin.cast nSub_zero i) (oF m d)))
          -∗ iprop(iSh m d (qc (Fin.cast nCore_zero c)) ∗ wSh m d (qc (Fin.cast nCore_zero c)) ∗ oCore d (Fin.cast nCore_zero c) (oF m d))))
  generalize Fin.cast nCore_zero c = c'
  rw [bigSep_subs (F := F) (fun i => iprop(iSh m d (qt c' i) ∗ wSh m d (qt c' i) ∗ oTile d c' i (m (oLoc d)))),
    bigSep_subs (F := F) (fun i => iprop(iSh m d (qt c' i) ∗ wSh m d (qt c' i) ∗ oTile d c' i (oF m d))),
    bigSep_tiles, bigSep_tiles]
  iintro ⟨Hi, Hw, Ho⟩
  ihave Hi := (Transfers.pointsTo_toks_split (qc c') 16) $$ Hi
  icases Hi with ⟨Hi0, Hi⟩
  ihave Hw := (Transfers.pointsTo_toks_split (qc c') 16) $$ Hw
  icases Hw with ⟨Hw0, Hw⟩
  imodintro
  isplitl [Hi Hw Ho]
  · isplitl [Hi]; · iexact Hi
    isplitl [Hw]; · iexact Hw
    iexact Ho
  iintro ⟨Hi, Hw, Ho⟩
  isplitl [Hi0 Hi]
  · iapply (Transfers.pointsTo_toks_join (qc c') 16)
    isplitl [Hi0]; · iexact Hi0
    iexact Hi
  isplitl [Hw0 Hw]
  · iapply (Transfers.pointsTo_toks_join (qc c') 16)
    isplitl [Hw0]; · iexact Hw0
    iexact Hw
  iexact Ho

/-! ## The device's arrays between the two SparseCores -/

/-- What the two SparseCores hold together: their shares of the two read arrays, and the whole flat result. -/
theorem bigSep_coresAll (d : Dev nD) (f : Buf (Elt F) (oLoc d)) :
    (bigSep Finset.univ fun c : Fin 2 => iprop(iSh m d (qc c) ∗ wSh m d (qc c) ∗ oCore d c f))
      = (iprop((bigSep Finset.univ fun c : Fin 2 => iSh m d (qc c)) ∗ (bigSep Finset.univ fun c : Fin 2 => wSh m d (qc c)) ∗ (oLoc d ↦{fullShare} f)) : sProp 𝕄) := by
  rw [bigSep_sep' Finset.univ (fun c : Fin 2 => iSh m d (qc c)) (fun c : Fin 2 => iprop(wSh m d (qc c) ∗ oCore d c f)),
    bigSep_sep' Finset.univ (fun c : Fin 2 => wSh m d (qc c)) (fun c : Fin 2 => oCore d c f), oPts_tiles]

/-- The TensorCore's three arrays split between the two SparseCores, and their results gather into the whole arrays,
    the flat result now at oF. -/
theorem st_split (d : Dev nD) :
    iprop((iLoc d ↦{fullShare} m (iLoc d)) ∗ (wLoc d ↦{fullShare} wF m d) ∗ (oLoc d ↦{fullShare} m (oLoc d)))
      ⊢ (iprop((bigSep Finset.univ fun c : Fin ((K (F := F)).nCore 0) => (P m).st 0 d c)
          ∗ ((bigSep Finset.univ fun c : Fin ((K (F := F)).nCore 0) => (P m).dn 0 d c)
              -∗ iprop((iLoc d ↦{fullShare} m (iLoc d)) ∗ (wLoc d ↦{fullShare} wF m d) ∗ (oLoc d ↦{fullShare} oF m d)))) : sProp 𝕄) := by
  show iprop((iLoc d ↦{fullShare} m (iLoc d)) ∗ (wLoc d ↦{fullShare} wF m d) ∗ (oLoc d ↦{fullShare} m (oLoc d)))
      ⊢ (iprop((bigSep Finset.univ fun c : Fin ((K (F := F)).nCore 0) =>
            iprop(iSh m d (qc (Fin.cast nCore_zero c)) ∗ wSh m d (qc (Fin.cast nCore_zero c)) ∗ oCore d (Fin.cast nCore_zero c) (m (oLoc d))))
          ∗ ((bigSep Finset.univ fun c : Fin ((K (F := F)).nCore 0) =>
              iprop(iSh m d (qc (Fin.cast nCore_zero c)) ∗ wSh m d (qc (Fin.cast nCore_zero c)) ∗ oCore d (Fin.cast nCore_zero c) (oF m d)))
              -∗ iprop((iLoc d ↦{fullShare} m (iLoc d)) ∗ (wLoc d ↦{fullShare} wF m d) ∗ (oLoc d ↦{fullShare} oF m d)))) : sProp 𝕄)
  rw [bigSep_cores (F := F) (fun c => iprop(iSh m d (qc c) ∗ wSh m d (qc c) ∗ oCore d c (m (oLoc d)))),
    bigSep_cores (F := F) (fun c => iprop(iSh m d (qc c) ∗ wSh m d (qc c) ∗ oCore d c (oF m d))),
    bigSep_coresAll, bigSep_coresAll]
  iintro ⟨Hi, Hw, Ho⟩
  ihave Hi := (Transfers.pointsTo_toks_split fullShare 2) $$ Hi
  icases Hi with ⟨Hi0, Hi⟩
  ihave Hw := (Transfers.pointsTo_toks_split fullShare 2) $$ Hw
  icases Hw with ⟨Hw0, Hw⟩
  isplitl [Hi Hw Ho]
  · isplitl [Hi]; · iexact Hi
    isplitl [Hw]; · iexact Hw
    iexact Ho
  iintro ⟨Hi, Hw, Ho⟩
  isplitl [Hi0 Hi]
  · iapply (Transfers.pointsTo_toks_join fullShare 2)
    isplitl [Hi0]; · iexact Hi0
    iexact Hi
  isplitl [Hw0 Hw]
  · iapply (Transfers.pointsTo_toks_join fullShare 2)
    isplitl [Hw0]; · iexact Hw0
    iexact Hw
  iexact Ho

end Cert.Proof.KI

end
-- ==== Proof.KILaunch.lean ====
/-
  The launch side of the kernel's certificate: the ghost state the run starts from, @main on the TensorCore, and how
  the final memory reads the claim.

  @main is three lines.  The first flattens the table: a reshape writes the flat array with the table's elements in
  row-major order, which is the contents `wF`.  The second is the call: the index vector, the flat table and the flat
  result, held whole, are shared out to the two SparseCores (`st_split`), the call runs, and what comes back gathers into
  the three whole arrays again, the flat result now at `oF`.  The third reshapes the flat result to a column, which is
  the contents `rF`.  Around the call the TensorCore's five arrays are held whole at a valuation: the launch contents,
  then the flat table written, then the flat result written, then the column written; an operation changes the
  valuation at the one array it writes.  What @main ends with is the two arguments as at the launch and the column at
  `rF`; the final memory agrees with each array held whole.
-/
import proofs.«206194_g86921548136457_cont_9to1c4b_267_10_alg».proof.Proof.KISplit
import Idealize.ShloMosaic.Lib.SparseCore.Launch
import Idealize.ShloMosaic.Lib.SparseCore.Threads
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element of the certificate's ghost state -/

/-- The handshakes' cells at their initial rounds, beside the unit of the transfers' counters. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch element gives the handshakes' initial state; no device and no thread is handed anything more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev a' : DevRef τ sig := Proc.devRef .tc (main_arg1 : Ref sig .tc)
abbrev w' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes: the table to one flat row, the flat result to a column. -/
abbrev opW : HloOp τ sig (Elt F) := StableHlo.reshape main_arg1 main_v0 rfl shapeCasts_S1000000x1_S1000000
abbrev opR : HloOp τ sig (Elt F) := StableHlo.reshape main_v1 main_v2 rfl shapeCasts_S16384_S16384x1

/-- The TensorCore's arrays, all unscoped: the index vector, the table, the flat table, the flat result, the column. -/
abbrev S5 : Finset (DevRef τ sig) := {i', a', w', o', r'}

omit [FloatOps F] in
theorem held_S5 (d : Dev nD) (W : Valuation τ sig (Elt F)) :
    (held (T d) S5 W : sProp 𝕄)
      = iprop((iLoc d ↦{fullShare} W i') ∗ (aLoc d ↦{fullShare} W a') ∗ (wLoc d ↦{fullShare} W w')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (aLoc d ↦{fullShare} W main_arg1) ∗ (wLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call (the flat result at `oF`). -/
def V0 (d : Dev nD) : Valuation τ sig (Elt F) := fun b => m (d, b)
def V1 (d : Dev nD) : Valuation τ sig (Elt F) := (opW (F := F)).result (V0 m d)
def V2 (d : Dev nD) : Valuation τ sig (Elt F) := Function.update (V1 m d) o' (oF m d)

omit [FloatOps F] in
theorem unscoped_held (d : Dev nD) : (unscopedBufs d (fun b => m ((SparseCore.T d).loc b)) : sProp 𝕄) = held (T d) S5 (V0 m d) := by
  rw [unscopedBufs_eq, held_S5]; rfl

theorem V1_i (d : Dev nD) : V1 m d i' = m (iLoc d) := by
  unfold V1
  rw [(opW (F := F)).result_of_not_mem _ (show i' ∉ ({w'} : Finset (DevRef τ sig)) by decide)]
  rfl
theorem V1_a (d : Dev nD) : V1 m d a' = m (aLoc d) := by
  unfold V1
  rw [(opW (F := F)).result_of_not_mem _ (show a' ∉ ({w'} : Finset (DevRef τ sig)) by decide)]
  rfl
theorem V1_o (d : Dev nD) : V1 m d o' = m (oLoc d) := by
  unfold V1
  rw [(opW (F := F)).result_of_not_mem _ (show o' ∉ ({w'} : Finset (DevRef τ sig)) by decide)]
  rfl
theorem V1_r (d : Dev nD) : V1 m d r' = m (rLoc d) := by
  unfold V1
  rw [(opW (F := F)).result_of_not_mem _ (show r' ∉ ({w'} : Finset (DevRef τ sig)) by decide)]
  rfl
/-- The first reshape writes the flat table: the table's elements in row-major order. -/
theorem V1_w (d : Dev nD) : V1 m d w' = wF m d := by
  unfold V1
  rw [StableHlo.reshape_result]
  rfl

theorem V2_i (d : Dev nD) : V2 m d i' = m (iLoc d) := (Function.update_of_ne (show i' ≠ o' by decide) _ _).trans (V1_i m d)
theorem V2_a (d : Dev nD) : V2 m d a' = m (aLoc d) := (Function.update_of_ne (show a' ≠ o' by decide) _ _).trans (V1_a m d)
theorem V2_w (d : Dev nD) : V2 m d w' = wF m d := (Function.update_of_ne (show w' ≠ o' by decide) _ _).trans (V1_w m d)
theorem V2_o (d : Dev nD) : V2 m d o' = oF m d := Function.update_self _ _ _
theorem V2_r (d : Dev nD) : V2 m d r' = m (rLoc d) := (Function.update_of_ne (show r' ≠ o' by decide) _ _).trans (V1_r m d)

/-- The five arrays after the first reshape. -/
theorem held_V1 (d : Dev nD) :
    (held (T d) S5 ((opW (F := F)).result (V0 m d)) : sProp 𝕄)
      = iprop((iLoc d ↦{fullShare} m (iLoc d)) ∗ (aLoc d ↦{fullShare} m (aLoc d)) ∗ (wLoc d ↦{fullShare} wF m d)
          ∗ (oLoc d ↦{fullShare} m (oLoc d)) ∗ rLoc d ↦{fullShare} m (rLoc d)) := by
  show held (SparseCore.T d) S5 (V1 m d) = _
  rw [held_S5, V1_i, V1_a, V1_w, V1_o, V1_r]

/-- The five arrays after the second reshape: the column at `rF`. -/
theorem held_V3 (d : Dev nD) :
    (held (T d) S5 ((opR (F := F)).result (V2 m d)) : sProp 𝕄)
      = iprop((iLoc d ↦{fullShare} m (iLoc d)) ∗ (aLoc d ↦{fullShare} m (aLoc d)) ∗ (wLoc d ↦{fullShare} wF m d)
          ∗ (oLoc d ↦{fullShare} oF m d) ∗ rLoc d ↦{fullShare} rF m d) := by
  rw [held_S5,
    (opR (F := F)).result_of_not_mem _ (show i' ∉ ({r'} : Finset (DevRef τ sig)) by decide),
    (opR (F := F)).result_of_not_mem _ (show a' ∉ ({r'} : Finset (DevRef τ sig)) by decide),
    (opR (F := F)).result_of_not_mem _ (show w' ∉ ({r'} : Finset (DevRef τ sig)) by decide),
    (opR (F := F)).result_of_not_mem _ (show o' ∉ ({r'} : Finset (DevRef τ sig)) by decide),
    V2_i, V2_a, V2_w, V2_o,
    show (opR (F := F)).result (V2 m d) r' = rF m d from by
      rw [StableHlo.reshape_result, V2_o]; rfl]

theorem hW : (opW (F := F)).bufs ⊆ S5 := show ({a', w'} : Finset (DevRef τ sig)) ⊆ S5 by decide
theorem hR : (opR (F := F)).bufs ⊆ S5 := show ({o', r'} : Finset (DevRef τ sig)) ⊆ S5 by decide

/-- What @main ends with: the two arguments as at the launch, the result column at rF. -/
abbrev FIN (d : Dev nD) : sProp 𝕄 := iprop((iLoc d ↦{fullShare} m (iLoc d)) ∗ (aLoc d ↦{fullShare} m (aLoc d)) ∗ (rLoc d ↦{fullShare} rF m d))

/-- @main on device `d`'s TensorCore: the table flattened, the call from the index vector, the flat table and the flat
    result shared out to the SparseCores and gathered again, the flat result reshaped to the column; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table flattened
  iapply (wp_hlo_within 𝒱 (SparseCore.T d) none Set.univ (op := opW) (S := S5) hW (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Ha, Hw, Ho, Hr⟩
  -- the call: the three arrays to the SparseCores and back
  ihave Hs := (st_split (F := F) m d) $$ [Hi Hw Ho]
  · isplitl [Hi]; · iexact Hi
    isplitl [Hw]; · iexact Hw
    iexact Ho
  icases Hs with ⟨Hst0, Hback⟩
  iapply ((K (F := F)).wp_run (D (F := F)) 𝒱 (EH := EH) (P := P m) κ d 0) $$ [Hst Hst0 Hback Hb Ha Hr]
  isplitr; · iexact Hctx
  isplitl [Hst]; · iexact Hst
  isplitl [Hst0]; · iexact Hst0
  iintro ⟨Hst, Hdn⟩
  ispecialize Hback $$ Hdn
  icases Hback with ⟨Hi, Hw, Ho⟩
  -- the flat result reshaped to the column
  iapply (wp_hlo_within 𝒱 (SparseCore.T d) none Set.univ (op := opR) (S := S5) hR (V := V2 m d)) $$ [Hb Hi Ha Hw Ho Hr]
  · isplitl [Hb]; · iexact Hb
    rw [held_S5, V2_i, V2_a, V2_w, V2_o, V2_r]
    isplitl [Hi]; · iexact Hi
    isplitl [Ha]; · iexact Ha
    isplitl [Hw]; · iexact Hw
    isplitl [Ho]; · iexact Ho
    iexact Hr
  iintro ⟨Hb, Hheld⟩
  ihave Hh := (Entails.of_eq (held_V3 (F := F) m d)) $$ Hheld
  icases Hh with ⟨Hi, Ha, -, -, Hr⟩
  rw [wp_ret]; imodintro; imodintro
  isplitl [Hst]; · iexact Hst
  isplitl [Hi]; · iexact Hi
  isplitl [Ha]; · iexact Ha
  iexact Hr

/-! ## The final memory -/

/-- The final memory has the two arguments as at the launch and the result column at `rF`. -/
def fq (d : Dev nD) (s' : Phys nD τ sig (Elt F)) : Prop :=
  s'.mem.mem (iLoc d) = m (iLoc d) ∧ s'.mem.mem (aLoc d) = m (aLoc d) ∧ s'.mem.mem (rLoc d) = rF m d

set_option maxRecDepth 16384 in
/-- An array held whole is what the memory holds there. -/
theorem hfin (d : Dev nD) (s' : Phys nD τ sig (Elt F)) : iprop(FIN m d ∗ SI s') ⊢ (⌜fq m d s'⌝ : sProp 𝕄) := by
  iintro ⟨⟨Hi, Ha, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := rF m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

end Cert.Proof.KI

end
-- ==== Proof.KIRun.lean ====
/-
  The kernel's run: every weakly fair execution of all its threads ends, nothing faulting, with the two arguments as
  at the launch and the result column at `rF`: the reshaped flat result, entry `n` the lane function of the flattened table
  at the row the index word `idx n` names.  From the subcores' obligation, the split of each SparseCore's operands among
  its subcores, and @main on the TensorCore, by the library's launch theorem for SparseCore programs.
-/
import proofs.«206194_g86921548136457_cont_9to1c4b_267_10_alg».proof.Proof.KIObl
import proofs.«206194_g86921548136457_cont_9to1c4b_267_10_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

/-- What the run ends with, on every device. -/
def QC : PUnit × MemSt nD τ sig (Elt F) → Prop :=
  fun r => ∀ c : Dev nD, r.2.mem (iLoc c) = m (iLoc c) ∧ r.2.mem (aLoc c) = m (aLoc c) ∧ r.2.mem (rLoc c) = rF m c

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KbSetup.lean ====
/-
  The kernel as the launch theorem sees it, and what each thread is handed.

  The device's TensorCore flattens the table `W` to one row `w`, starts both SparseCores, and reshapes the flat
  result to a column.  The 32 vector subcores each own 512 consecutive entries of the flat result, two blocks of 256:
  subcore `s` of SparseCore `c` owns the blocks at `1024 s + 512 c` and `1024 s + 512 c + 256`.  Every subcore reads the
  whole index vector and the whole flat table, so each is handed a READ SHARE of both: the full share gives one share
  per SparseCore (and keeps a rest), each SparseCore's share one per subcore (and keeps a rest).  A subcore brings back its
  two blocks holding, entry `n`, the lane function of `w` at the row the index word `idx n` names (`Cert.Spec.flat`).
-/
import proofs.«206194_g86921548136457_cont_9to1c4b_267_10_alg».proof.Kernel
import proofs.«206194_g86921548136457_cont_9to1c4b_267_10_alg».proof.Proof.Gen.Kernel
import proofs.«206194_g86921548136457_cont_9to1c4b_267_10_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.Batch

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The index vector, the table, the table flattened, the flat result, the result column. -/
abbrev iLoc (d : Dev nD) : Loc nD τ sig := (SparseCore.T d).loc main_arg0
abbrev aLoc (d : Dev nD) : Loc nD τ sig := (SparseCore.T d).loc main_arg1
abbrev wLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

/-! ## The grid point of a subcore, and its two blocks of the flat result -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The grid point of subcore `s` of SparseCore `c`. -/
abbrev LL (c : Fin 2) (s : Fin 16) : grid0.Coords := coordsV (Fin.cast bound_zero.symm c) (Fin.cast bound_one.symm s)

abbrev cV (L : grid0.Coords) : Fin τ.nSC := (L 0).castLE hcore0
abbrev jV (L : grid0.Coords) : Fin τ.nSub := (L 1).castLE hsub0

/-- Block `r` (of two) of the flat result that the subcore at `L` owns, as the kernel slices it. -/
abbrev oBlk (L : grid0.Coords) (r : Fin 2) : Rect S16384 :=
  Rect.unit (s := S16384) (k0_off1 L (BitVec.ofNat 32 (256 * r.val))) S256.size (k0_off1_inb L r)
abbrev oMem (L : grid0.Coords) (r : Fin 2) : Memref sig .scVector .hbm S256 .f32 := (oV).slice (oBlk L r) (fun _ => rfl)
abbrev iMem (L : grid0.Coords) (r : Fin 2) : Memref sig .scVector .hbm S256 .i32 := (iV).slice (oBlk L r) (fun _ => rfl)
abbrev oSet (L : grid0.Coords) (r : Fin 2) : Finset S16384.Idx := (oMem L r).view.set

/-! ## Read shares -/

/-- SparseCore `c`'s read share, and subcore `s`'s of it. -/
abbrev qc (c : Fin 2) : PosShare TreeShare := Transfers.shareTok fullShare 2 c
abbrev qt (c : Fin 2) (s : Fin 16) : PosShare TreeShare := Transfers.shareTok (qc c) 16 s

variable [FloatOps F]

/-! ## The contents -/

/-- The table as one flat row. -/
def wF (d : Dev nD) : Buf (Elt F) (wLoc d) := shapeCast S1000000 (m (aLoc d)) shapeCasts_S1000000x1_S1000000
/-- The flat result: entry `n` the lane function of the flat table at the row `idx n` names. -/
def oF (d : Dev nD) : Buf (Elt F) (oLoc d) := Cert.Spec.flat (m (iLoc d)) (wF m d)
/-- The result column. -/
def rF (d : Dev nD) : Buf (Elt F) (rLoc d) := shapeCast S16384x1 (oF m d) shapeCasts_S16384_S16384x1

/-! ## What the handshakes carry -/

abbrev iSh (d : Dev nD) (q : PosShare TreeShare) : sProp 𝕄 := iLoc d ↦{q} m (iLoc d)
abbrev wSh (d : Dev nD) (q : PosShare TreeShare) : sProp 𝕄 := wLoc d ↦{q} wF m d
abbrev oBlkPts (d : Dev nD) (L : grid0.Coords) (r : Fin 2) (f : Buf (Elt F) (oLoc d)) : sProp 𝕄 := oLoc d ↦[oSet L r]{fullShare} f
/-- A subcore's two blocks, at contents `f`. -/
abbrev oTile (d : Dev nD) (c : Fin 2) (s : Fin 16) (f : Buf (Elt F) (oLoc d)) : sProp 𝕄 :=
  iprop(oBlkPts d (LL c s) 0 f ∗ oBlkPts d (LL c s) 1 f)
/-- A SparseCore's sixteen subcores' blocks, at contents `f`. -/
abbrev oCore (d : Dev nD) (c : Fin 2) (f : Buf (Elt F) (oLoc d)) : sProp 𝕄 :=
  bigSep Finset.univ fun s : Fin 16 => oTile d c s f

/-- Each SparseCore takes its read shares of the index vector and the flat table and its subcores' blocks of the flat
    result; each subcore its own shares and its two blocks; they come back with the blocks at the flat result. -/
def P : (K (F := F)).Pay (nD := nD) (Val := Elt F) (Name := ℕ) (U := UU) where
  st := fun q d c => match q with
    | 0 => iprop(iSh m d (qc (Fin.cast nCore_zero c)) ∗ wSh m d (qc (Fin.cast nCore_zero c)) ∗ oCore d (Fin.cast nCore_zero c) (m (oLoc d)))
  dn := fun q d c => match q with
    | 0 => iprop(iSh m d (qc (Fin.cast nCore_zero c)) ∗ wSh m d (qc (Fin.cast nCore_zero c)) ∗ oCore d (Fin.cast nCore_zero c) (oF m d))
  go := fun q d c i => match q with
    | 0 => iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (m (oLoc d)))
  td := fun q d c i => match q with
    | 0 => iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (oF m d))
  x := fun _ _ => iprop(emp)

instance P_storable : (P (F := F) m).IsStorable where
  st q d c := match q with
    | 0 => (inferInstance : BI.Storable (upEmb : UEmb _ 𝕄)
      iprop(iSh m d (qc (Fin.cast nCore_zero c)) ∗ wSh m d (qc (Fin.cast nCore_zero c)) ∗ oCore d (Fin.cast nCore_zero c) (m (oLoc d))))
  dn q d c := match q with
    | 0 => (inferInstance : BI.Storable (upEmb : UEmb _ 𝕄)
      iprop(iSh m d (qc (Fin.cast nCore_zero c)) ∗ wSh m d (qc (Fin.cast nCore_zero c)) ∗ oCore d (Fin.cast nCore_zero c) (oF m d)))
  go q d c i := match q with
    | 0 => (inferInstance : BI.Storable (upEmb : UEmb _ 𝕄)
      iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (m (oLoc d))))
  td q d c i := match q with
    | 0 => (inferInstance : BI.Storable (upEmb : UEmb _ 𝕄)
      iprop(iSh m d (qt (Fin.cast nCore_zero c) (Fin.cast nSub_zero i)) ∗ wSh m d (qt (Fin.cast nCore_zero c) (Fin.cast nSub_zero i))
        ∗ oTile d (Fin.cast nCore_zero c) (Fin.cast nSub_zero i) (oF m d)))

/-- What the proof asks of the launch memory: every index word names a row of the table. -/
def PreOK : Prop := ∀ (d : Dev nD) (j : S16384.Idx), (m (iLoc d) j).toNat < 1000000

end Cert.Proof.Kb

end
-- ==== Proof.KbFacts.lean ====
/-
  A vector subcore's own storage as the kernel addresses it, and the one fact about the index words it fetches.

  Each subcore has an index scratch and a value scratch of 512 entries, used as two halves of 256: half `h` of the index
  scratch receives block `h` of the subcore's 512 index words, half `h` of the value scratch the table rows those words
  name.  Five completion semaphores: one per index copy, one per gather, one shared by the two copies out.
  The fact: a block of 256 index words copied whole into 256 words of scratch reads back as words of the index vector,
  so each is below the table's 1000000 rows when every index word is.
-/
import proofs.«206194_g86921548136457_cont_9to1c4b_267_10_alg».proof.Proof.KbSetup
import proofs.«206194_g86921548136457_cont_9to1c4b_267_10_alg».proof.Proof.Gen.Kernel.Skeleton

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-- The halves of the two scratch buffers, as the kernel slices them. -/
abbrev sH0 : Memref sig .scVector .vmem S256 .i32 := (sV).slice (Rect.unit (s := S512) ![0] S256.size inb_S512_S256_0) (fun _ => rfl)
abbrev sH1 : Memref sig .scVector .vmem S256 .i32 := (sV).slice (Rect.unit (s := S512) ![256] S256.size inb_S512_S256_256) (fun _ => rfl)
abbrev rH0 : Memref sig .scVector .vmem S256 .f32 := (rV).slice (Rect.unit (s := S512) ![0] S256.size inb_S512_S256_0) (fun _ => rfl)
abbrev rH1 : Memref sig .scVector .vmem S256 .f32 := (rV).slice (Rect.unit (s := S512) ![256] S256.size inb_S512_S256_256) (fun _ => rfl)

abbrev semI0 : DmaSem sig := ((cc0_scratch2.slice (Rect.unit (s := S2) ![0] S1.size inb_S2_S1_0)).squeeze S_ squeezes_S1_S_).sem
abbrev semI1 : DmaSem sig := ((cc0_scratch2.slice (Rect.unit (s := S2) ![1] S1.size inb_S2_S1_1)).squeeze S_ squeezes_S1_S_).sem
abbrev semG0 : DmaSem sig := ((cc0_scratch3.slice (Rect.unit (s := S2) ![0] S1.size inb_S2_S1_0)).squeeze S_ squeezes_S1_S_).sem
abbrev semG1 : DmaSem sig := ((cc0_scratch3.slice (Rect.unit (s := S2) ![1] S1.size inb_S2_S1_1)).squeeze S_ squeezes_S1_S_).sem
abbrev semO : DmaSem sig := cc0_scratch4.sem

abbrev sLoc (d : Dev nD) (L : grid0.Coords) : Loc nD τ sig := (V d (cV L) (jV L)).loc cc0_scratch0
abbrev vLoc (d : Dev nD) (L : grid0.Coords) : Loc nD τ sig := (V d (cV L) (jV L)).loc cc0_scratch1

/-- A block of 256 index words copied whole into a slice of 256 words reads back, word by word, as words of the index
    vector, each of which names a row of the table. -/
theorem idx_inb (hpre : PreOK m) (d : Dev nD) (Kv : Memref sig .scVector .vmem S256 .i32) (g : Kv.view.ty.Contents (Elt F))
    (off : Fin 1 → ℕ) (inb : ∀ a, off a + S256.size a ≤ S16384.size a) (hs : ∀ a, (Rect.unit (s := S16384) off S256.size inb).stride a = 1) :
    ∀ x : S256.Idx, (Kv.view.read (Elt F) (Kv.view.writes (Elt F) g
        [⟨Rect.whole S256, ReadAs.same.apply (((iV).slice (Rect.unit (s := S16384) off S256.size inb) hs).view.read (Elt F) (m (iLoc d)))⟩]) x).toNat < 1000000 := by
  intro x
  have e := View.read_writes_cons_emb Kv.view g (Rect.whole S256)
    (ReadAs.same.apply (((iV).slice (Rect.unit (s := S16384) off S256.size inb) hs).view.read (Elt F) (m (iLoc d)))) [] x
  rw [Rect.emb_whole_apply] at e
  rw [e]
  show ((((iV).slice (Rect.unit (s := S16384) off S256.size inb) hs).view.read (Elt F) (m (iLoc d))) x).toNat < 1000000
  rw [show ∀ j, ((iV).slice (Rect.unit (s := S16384) off S256.size inb) hs).view.read (Elt F) (m (iLoc d)) j
      = m (iLoc d) (((iV).slice (Rect.unit (s := S16384) off S256.size inb) hs).view.emb j) from fun j => (View.read_apply _ _).trans (cast_eq _ _)]
  exact hpre d _

end Cert.Proof.Kb

end
-- ==== Proof.KbVals.lean ====
/-
  The closed forms of what a vector subcore holds.

  Entry `k` of the subcore's 512-entry value scratch stands for entry `1024 s + 512 c + k` of the flat result (`gpos`):
  once the subcore's arithmetic is done the value scratch holds, entry by entry, the flat result at those positions
  (`vF`), and a half of it copied out whole onto the subcore's block of the flat result makes that block the flat
  result there (`landed0`, `landed1`).
-/
import proofs.«206194_g86921548136457_cont_9to1c4b_267_10_alg».proof.Proof.KbFacts

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-- The position in the flat result of entry `k` of the value scratch of the subcore at grid point `L`. -/
def gpos (L : grid0.Coords) (k : S512.Idx) : S16384.Idx :=
  ValueIdx.ix1 ⟨1024 * (L 1).val + 512 * (L 0).val + (k 0).val, by
    have h0 : (L 0).val < 2 := (L 0).isLt
    have h1 : (L 1).val < 16 := (L 1).isLt
    have hk : (k 0).val < 512 := (k 0).isLt
    omega⟩

/-- The value scratch when the arithmetic is done: the flat result at the subcore's positions. -/
def vF (d : Dev nD) (L : grid0.Coords) : Buf (Elt F) (vLoc d L) := fun k => oF m d (gpos L k)

/-- Block 0 (block 1) of the subcore's part of the flat result after the first (second) half of the finished value scratch
    has been copied onto it whole, over what the block held at the launch. -/
abbrev landed0 (d : Dev nD) (L : grid0.Coords) : Buf (Elt F) (oLoc d) :=
  (oMem L 0).view.writes (Elt F) (m (oLoc d)) [⟨Rect.whole S256, ReadAs.same.apply ((rH0).view.read (Elt F) (vF m d L))⟩]
abbrev landed1 (d : Dev nD) (L : grid0.Coords) : Buf (Elt F) (oLoc d) :=
  (oMem L 1).view.writes (Elt F) (m (oLoc d)) [⟨Rect.whole S256, ReadAs.same.apply ((rH1).view.read (Elt F) (vF m d L))⟩]

end Cert.Proof.Kb

end
-- ==== Proof.KbStep.lean ====
/-
  One slice of the subcore's arithmetic, as a step of an invariant.

  The body walks the value scratch sixteen entries at a time: it loads entries `a … a + 15`, applies the lane function
  `1 / (1 + exp (0 - x))` to each, and stores the sixteen results back where they came from.  Over a half
  `lo … lo + 255` of the scratch, relative to the contents `G` the half held before the first slice, the invariant
  `Done lo a c G` says: below `a` the contents `c` are the lane function of `G`, from `a` on they are still `G`.
  A slice at `a` takes `Done lo a` to `Done lo (a + 16)` (`step`); sixteen slices take `Done lo lo`, which holds of `G`
  itself, to `Done lo (lo + 256)`: the whole half is the lane function of what it held.
-/
import proofs.«206194_g86921548136457_cont_9to1c4b_267_10_alg».proof.Proof.KbVals
import Idealize.ShloMosaic.Lib.WritesUnit
import Idealize.ShloMosaic.Lib.Pipeline.Value

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-- The lane function on a vector of sixteen. -/
def laneVec (v : S16.Idx → F .f32) : S16.Idx → F .f32 := fun y => Cert.Spec.lane (v y)

/-- The sixteen entries from `a` on, as the kernel addresses them. -/
abbrev slab (a : ℕ) (inb : ∀ i, (![a] : Fin 1 → ℕ) i + S16.size i ≤ S512.size i) : Rect S512 := Rect.unit (s := S512) ![a] S16.size inb

/-- The value scratch after a store of sixteen entries at `a`: the stored vector there, the old contents elsewhere. -/
theorem write_slab (a : ℕ) (inb : ∀ i, (![a] : Fin 1 → ℕ) i + S16.size i ≤ S512.size i)
    (c : ((rV).access (slab a inb)).ty.Contents (Elt F)) (p : S16.Idx → F .f32) (k : S512.Idx) :
    View.write (Elt F) ((rV).access (slab a inb)) c p Finset.univ k
      = if h : ∀ i, (![a] : Fin 1 → ℕ) i ≤ (k i).val ∧ (k i).val < (![a] : Fin 1 → ℕ) i + S16.size i then
          p (Rect.unitLocal (s := S512) (off := ![a]) (size := S16.size) k h) else c k :=
  View.read_writes_cons_unit (rV).view c inb p [] k rfl

/-- A load of sixteen entries at `a` reads the contents there. -/
theorem read_slab (a : ℕ) (inb : ∀ i, (![a] : Fin 1 → ℕ) i + S16.size i ≤ S512.size i)
    (c : (rV).view.ty.Contents (Elt F)) (y : S16.Idx) :
    View.readAt (Elt F) (rV).view (slab a inb).toLoadRect c y = c ((slab a inb).emb y) :=
  (View.read_apply _ _).trans (cast_eq _ _)

/-- Below `a` the lane function of `G`, from `a` to the end of the half still `G`. -/
def Done (lo a : ℕ) (c G : S512.Idx → F .f32) : Prop :=
  (∀ k : S512.Idx, lo ≤ (k 0).val → (k 0).val < a → c k = Cert.Spec.lane (G k))
    ∧ (∀ k : S512.Idx, a ≤ (k 0).val → (k 0).val < lo + 256 → c k = G k)

theorem done_start (lo : ℕ) (G : S512.Idx → F .f32) : Done lo lo G G :=
  ⟨fun _ h1 h2 => absurd h2 (Nat.not_lt.mpr h1), fun _ _ _ => rfl⟩

/-- One slice: load sixteen at `a`, apply the lane function, store them back. -/
theorem step (lo a : ℕ) (inb : ∀ i, (![a] : Fin 1 → ℕ) i + S16.size i ≤ S512.size i)
    (c G : S512.Idx → F .f32) (p : S16.Idx → F .f32)
    (hp : p = laneVec (View.readAt (Elt F) (rV).view (slab a inb).toLoadRect c))
    (h : Done lo a c G) (h1 : lo ≤ a) (h2 : a + 16 ≤ lo + 256) :
    Done lo (a + 16) (View.write (Elt F) ((rV).access (slab a inb)) c p Finset.univ) G := by
  subst hp
  refine ⟨fun k hk1 hk2 => ?_, fun k hk1 hk2 => ?_⟩
  · rw [write_slab]
    split
    · rename_i hh
      have h0 := hh 0
      simp only [Matrix.cons_val_zero] at h0
      show Cert.Spec.lane (View.readAt (Elt F) (rV).view (slab a inb).toLoadRect c _) = _
      rw [read_slab]
      have e : (slab a inb).emb (Rect.unitLocal (s := S512) (off := ![a]) (size := S16.size) k hh) = k := by
        funext i; match i with
        | ⟨0, _⟩ => exact Fin.ext (by show a + 1 * ((k 0).val - a) = (k 0).val; omega)
      rw [e, h.2 k h0.1 (by omega)]
    · rename_i hh
      refine h.1 k hk1 ?_
      by_contra hc
      exact hh fun i => by
        match i with
        | ⟨0, _⟩ => exact ⟨by show a ≤ (k 0).val; omega, by show (k 0).val < a + 16; omega⟩
  · rw [write_slab]
    split
    · rename_i hh
      have h0 := hh 0
      simp only [Matrix.cons_val_zero] at h0
      exact absurd h0.2 (by show ¬ (k 0).val < a + 16; omega)
    · exact h.2 k (by omega) hk2

/-- An assertion set aside: held, but not by a name the body's run reads. -/
@[irreducible] def aside (A : sProp 𝕄) : sProp 𝕄 := A

theorem aside_eq (A : sProp 𝕄) : aside A = A := by unfold aside; rfl

end Cert.Proof.Kb

end
-- ==== Proof.KbLanded.lean ====
/-
  A finished half of the value scratch copied out whole onto the subcore's block of the flat result makes that block
  the flat result there.

  An element of block `r` of the subcore at grid point `(c, s)` is position `1024 s + 512 c + 256 r + y` of the flat
  result for one `y < 256`.  The copy puts there entry `y` of half `r` of the value scratch, that is entry `256 r + y` of
  the scratch, which stands for position `1024 s + 512 c + (256 r + y)` of the flat result: the same position.
-/
import proofs.«206194_g86921548136457_cont_9to1c4b_267_10_alg».proof.Proof.KbVals

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-! ## Entry `y` of a half of the value scratch stands for element `y` of the block -/

theorem pos0 (L : grid0.Coords) (y : S256.Idx) : gpos L ((rH0).view.emb y) = (oMem L 0).view.emb y := by
  funext a
  match a with
  | 0 =>
    apply Fin.ext
    show 1024 * (L 1).val + 512 * (L 0).val + (0 + 1 * (y 0).val)
      = (k0_off1 L (BitVec.ofNat 32 (256 * (0 : Fin 2).val))) 0 + 1 * (y 0).val
    rw [k0_off1_eq]
    show 1024 * (L 1).val + 512 * (L 0).val + (0 + 1 * (y 0).val) = 1024 * (L 1).val + 512 * (L 0).val + 256 * 0 + 1 * (y 0).val
    omega

theorem pos1 (L : grid0.Coords) (y : S256.Idx) : gpos L ((rH1).view.emb y) = (oMem L 1).view.emb y := by
  funext a
  match a with
  | 0 =>
    apply Fin.ext
    show 1024 * (L 1).val + 512 * (L 0).val + (256 + 1 * (y 0).val)
      = (k0_off1 L (BitVec.ofNat 32 (256 * (1 : Fin 2).val))) 0 + 1 * (y 0).val
    rw [k0_off1_eq]
    show 1024 * (L 1).val + 512 * (L 0).val + (256 + 1 * (y 0).val) = 1024 * (L 1).val + 512 * (L 0).val + 256 * 1 + 1 * (y 0).val
    omega

/-! ## The blocks after the copies out -/

theorem landed0_agree (d : Dev nD) (L : grid0.Coords) : ∀ j ∈ (oMem L 0).view.set, landed0 m d L j = oF m d j := by
  intro j hj
  obtain ⟨y, -, rfl⟩ := Finset.mem_map.mp hj
  have e := View.read_writes_cons_emb (oMem L 0).view (m (oLoc d)) (Rect.whole S256)
    (ReadAs.same.apply ((rH0).view.read (Elt F) (vF m d L))) [] y
  rw [Rect.emb_whole_apply] at e
  have e' : (oMem L 0).view.read (Elt F) (landed0 m d L) y = landed0 m d L ((oMem L 0).view.emb y) :=
    (View.read_apply _ _).trans (cast_eq _ _)
  rw [← e', e]
  show (rH0).view.read (Elt F) (vF m d L) y = oF m d ((oMem L 0).view.emb y)
  rw [show (rH0).view.read (Elt F) (vF m d L) y = vF m d L ((rH0).view.emb y) from (View.read_apply _ _).trans (cast_eq _ _)]
  show oF m d (gpos L ((rH0).view.emb y)) = oF m d ((oMem L 0).view.emb y)
  rw [pos0]

theorem landed1_agree (d : Dev nD) (L : grid0.Coords) : ∀ j ∈ (oMem L 1).view.set, landed1 m d L j = oF m d j := by
  intro j hj
  obtain ⟨y, -, rfl⟩ := Finset.mem_map.mp hj
  have e := View.read_writes_cons_emb (oMem L 1).view (m (oLoc d)) (Rect.whole S256)
    (ReadAs.same.apply ((rH1).view.read (Elt F) (vF m d L))) [] y
  rw [Rect.emb_whole_apply] at e
  have e' : (oMem L 1).view.read (Elt F) (landed1 m d L) y = landed1 m d L ((oMem L 1).view.emb y) :=
    (View.read_apply _ _).trans (cast_eq _ _)
  rw [← e', e]
  show (rH1).view.read (Elt F) (vF m d L) y = oF m d ((oMem L 1).view.emb y)
  rw [show (rH1).view.read (Elt F) (vF m d L) y = vF m d L ((rH1).view.emb y) from (View.read_apply _ _).trans (cast_eq _ _)]
  show oF m d (gpos L ((rH1).view.emb y)) = oF m d ((oMem L 1).view.emb y)
  rw [pos1]

end Cert.Proof.Kb

end
-- ==== Proof.KbGathered.lean ====
/-
  What a half of the value scratch holds after the index copy and the indirect gather.

  Half `h` of the index scratch receives block `h` of the subcore's 512 index words: its entry `y` is the index vector's
  word at position `1024 s + 512 c + 256 h + y`, the position entry `256 h + y` of the value scratch stands for.  The gather
  then puts at entry `y` of half `h` of the value scratch the flat table at the row that word names; every index word is
  below 1000000, so the row is the word itself, the one the specification's `row` names.
-/
import proofs.«206194_g86921548136457_cont_9to1c4b_267_10_alg».proof.Proof.KbVals

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-! ## Positions: entry `y` of a half of the scratch, element `y` of the block of index words -/

theorem gposI0 (L : grid0.Coords) (y : S256.Idx) : (iMem L 0).view.emb y = gpos L ((rH0).view.emb y) := by
  funext a
  match a with
  | 0 =>
    apply Fin.ext
    show (k0_off1 L (BitVec.ofNat 32 (256 * (0 : Fin 2).val))) 0 + 1 * (y 0).val
      = 1024 * (L 1).val + 512 * (L 0).val + (0 + 1 * (y 0).val)
    rw [k0_off1_eq]
    show 1024 * (L 1).val + 512 * (L 0).val + 256 * 0 + 1 * (y 0).val = 1024 * (L 1).val + 512 * (L 0).val + (0 + 1 * (y 0).val)
    omega

theorem gposI1 (L : grid0.Coords) (y : S256.Idx) : (iMem L 1).view.emb y = gpos L ((rH1).view.emb y) := by
  funext a
  match a with
  | 0 =>
    apply Fin.ext
    show (k0_off1 L (BitVec.ofNat 32 (256 * (1 : Fin 2).val))) 0 + 1 * (y 0).val
      = 1024 * (L 1).val + 512 * (L 0).val + (256 + 1 * (y 0).val)
    rw [k0_off1_eq]
    show 1024 * (L 1).val + 512 * (L 0).val + 256 * 1 + 1 * (y 0).val = 1024 * (L 1).val + 512 * (L 0).val + (256 + 1 * (y 0).val)
    omega

/-- A list of 256 words in row-major order: entry `k` is the word at index `k`. -/
theorem rowMajor_symm_S256 (hn : S256.numel = S256.size (gathers_S1000000_S256).axis') (y : S256.Idx) :
    S256.rowMajor.symm ((y (gathers_S1000000_S256).axis').cast hn.symm) = y := by
  rw [Equiv.symm_apply_eq]
  apply Fin.ext
  rw [Shape.rowMajor_val_one]
  rfl

/-! ## The gathered halves -/

/-- The whole flat table read through the kernel's whole-table slice is the flat table. -/
theorem read_wAll (d : Dev nD) (hs : ∀ a, (Rect.unit (s := S1000000) ![0] S1000000.size inb_S1000000_S1000000_0).stride a = 1)
    (x : S1000000.Idx) :
    View.read (Elt F) ((wV).slice (Rect.unit (s := S1000000) ![0] S1000000.size inb_S1000000_S1000000_0) hs).view (wF m d) x = wF m d x := by
  rw [show View.read (Elt F) ((wV).slice (Rect.unit (s := S1000000) ![0] S1000000.size inb_S1000000_S1000000_0) hs).view (wF m d) x
      = wF m d (((wV).slice (Rect.unit (s := S1000000) ![0] S1000000.size inb_S1000000_S1000000_0) hs).view.emb x) from
    (View.read_apply _ _).trans (cast_eq _ _)]
  congr 1
  funext a
  match a with
  | 0 =>
    apply Fin.ext
    show 0 + 1 * (x 0).val = (x 0).val
    omega

theorem gathered0 (hpre : PreOK m) (d : Dev nD) (L : grid0.Coords) (g : (sH0).view.ty.Contents (Elt F))
    (hs : ∀ a, (Rect.unit (s := S1000000) ![0] S1000000.size inb_S1000000_S1000000_0).stride a = 1)
    (hn : S256.numel = S256.size (gathers_S1000000_S256).axis')
    (hr : ∀ x, (View.read (Elt F) (sH0).view ((sH0).view.writes (Elt F) g
        [⟨Rect.whole S256, ReadAs.same.apply ((iMem L 0).view.read (Elt F) (m (iLoc d)))⟩]) x).toNat < S1000000.size (gathers_S1000000_S256).axis)
    (y : S256.Idx) :
    SparseCore.gatherPayload gathers_S1000000_S256
        (View.read (Elt F) ((wV).slice (Rect.unit (s := S1000000) ![0] S1000000.size inb_S1000000_S1000000_0) hs).view (wF m d))
        (SparseCore.rows (View.read (Elt F) (sH0).view ((sH0).view.writes (Elt F) g
          [⟨Rect.whole S256, ReadAs.same.apply ((iMem L 0).view.read (Elt F) (m (iLoc d)))⟩])) hn hr) y
      = wF m d (ValueIdx.ix1 (Cert.Spec.row (m (iLoc d) (gpos L ((rH0).view.emb y))))) := by
  unfold SparseCore.gatherPayload
  rw [read_wAll]
  congr 1
  funext a
  match a with
  | 0 =>
    apply Fin.ext
    rw [show (gathers_S1000000_S256).idx (SparseCore.rows (View.read (Elt F) (sH0).view ((sH0).view.writes (Elt F) g
          [⟨Rect.whole S256, ReadAs.same.apply ((iMem L 0).view.read (Elt F) (m (iLoc d)))⟩])) hn hr) y 0
        = SparseCore.rows (View.read (Elt F) (sH0).view ((sH0).view.writes (Elt F) g
          [⟨Rect.whole S256, ReadAs.same.apply ((iMem L 0).view.read (Elt F) (m (iLoc d)))⟩])) hn hr (y (gathers_S1000000_S256).axis')
        from Shape.Gathers.idx_axis _ _ _]
    show (View.read (Elt F) (sH0).view ((sH0).view.writes (Elt F) g
          [⟨Rect.whole S256, ReadAs.same.apply ((iMem L 0).view.read (Elt F) (m (iLoc d)))⟩])
          (S256.rowMajor.symm ((y (gathers_S1000000_S256).axis').cast hn.symm))).toNat
        = (Cert.Spec.row (m (iLoc d) (gpos L ((rH0).view.emb y)))).val
    rw [rowMajor_symm_S256 hn]
    have e := View.read_writes_cons_emb (sH0).view g (Rect.whole S256)
      (ReadAs.same.apply ((iMem L 0).view.read (Elt F) (m (iLoc d)))) [] y
    rw [Rect.emb_whole_apply] at e
    rw [e]
    show ((iMem L 0).view.read (Elt F) (m (iLoc d)) y).toNat = _
    rw [show (iMem L 0).view.read (Elt F) (m (iLoc d)) y = m (iLoc d) ((iMem L 0).view.emb y) from
      (View.read_apply _ _).trans (cast_eq _ _), gposI0, Cert.Spec.row_val_of_lt (hpre d _)]

theorem gathered1 (hpre : PreOK m) (d : Dev nD) (L : grid0.Coords) (g : (sH1).view.ty.Contents (Elt F))
    (hs : ∀ a, (Rect.unit (s := S1000000) ![0] S1000000.size inb_S1000000_S1000000_0).stride a = 1)
    (hn : S256.numel = S256.size (gathers_S1000000_S256).axis')
    (hr : ∀ x, (View.read (Elt F) (sH1).view ((sH1).view.writes (Elt F) g
        [⟨Rect.whole S256, ReadAs.same.apply ((iMem L 1).view.read (Elt F) (m (iLoc d)))⟩]) x).toNat < S1000000.size (gathers_S1000000_S256).axis)
    (y : S256.Idx) :
    SparseCore.gatherPayload gathers_S1000000_S256
        (View.read (Elt F) ((wV).slice (Rect.unit (s := S1000000) ![0] S1000000.size inb_S1000000_S1000000_0) hs).view (wF m d))
        (SparseCore.rows (View.read (Elt F) (sH1).view ((sH1).view.writes (Elt F) g
          [⟨Rect.whole S256, ReadAs.same.apply ((iMem L 1).view.read (Elt F) (m (iLoc d)))⟩])) hn hr) y
      = wF m d (ValueIdx.ix1 (Cert.Spec.row (m (iLoc d) (gpos L ((rH1).view.emb y))))) := by
  unfold SparseCore.gatherPayload
  rw [read_wAll]
  congr 1
  funext a
  match a with
  | 0 =>
    apply Fin.ext
    rw [show (gathers_S1000000_S256).idx (SparseCore.rows (View.read (Elt F) (sH1).view ((sH1).view.writes (Elt F) g
          [⟨Rect.whole S256, ReadAs.same.apply ((iMem L 1).view.read (Elt F) (m (iLoc d)))⟩])) hn hr) y 0
        = SparseCore.rows (View.read (Elt F) (sH1).view ((sH1).view.writes (Elt F) g
          [⟨Rect.whole S256, ReadAs.same.apply ((iMem L 1).view.read (Elt F) (m (iLoc d)))⟩])) hn hr (y (gathers_S1000000_S256).axis')
        from Shape.Gathers.idx_axis _ _ _]
    show (View.read (Elt F) (sH1).view ((sH1).view.writes (Elt F) g
          [⟨Rect.whole S256, ReadAs.same.apply ((iMem L 1).view.read (Elt F) (m (iLoc d)))⟩])
          (S256.rowMajor.symm ((y (gathers_S1000000_S256).axis').cast hn.symm))).toNat
        = (Cert.Spec.row (m (iLoc d) (gpos L ((rH1).view.emb y)))).val
    rw [rowMajor_symm_S256 hn]
    have e := View.read_writes_cons_emb (sH1).view g (Rect.whole S256)
      (ReadAs.same.apply ((iMem L 1).view.read (Elt F) (m (iLoc d)))) [] y
    rw [Rect.emb_whole_apply] at e
    rw [e]
    show ((iMem L 1).view.read (Elt F) (m (iLoc d)) y).toNat = _
    rw [show (iMem L 1).view.read (Elt F) (m (iLoc d)) y = m (iLoc d) ((iMem L 1).view.emb y) from
      (View.read_apply _ _).trans (cast_eq _ _), gposI1, Cert.Spec.row_val_of_lt (hpre d _)]

end Cert.Proof.Kb

end
-- ==== Proof.KbTile.lean ====
/-
  One vector subcore's body, run from its operands to its results.

  The subcore at grid point `L` copies its two blocks of 256 index words into the halves of its index scratch (a
  semaphore each), and as each lands gathers the table rows those words name into the matching half of its value scratch
  (a semaphore each; the words name rows of the table by the precondition, `idx_inb`).  As each gather lands it walks
  that half sixteen entries at a time, replacing each entry `x` by `1 / (1 + exp (0 - x))`, and copies the half out onto
  its block of the flat result.  The two copies out complete on ONE semaphore: a wait on it says nothing about either
  copy until both have been waited for, so their deliveries are stated together beforehand (`deliv`) and collected at
  the second wait; between the first copy's issue and that wait nothing touches its source or its destination.

  The value is carried along: when a half's sixteen slices are done its contents are, entry by entry, the flat result
  at the subcore's positions (`vF`: sixteen applications of `step` from what the gather left, `gathered0` /
  `gathered1`), so what lands on each block of the flat result is the flat result there (`landed0_agree`,
  `landed1_agree`).  The run stops before each copy out — the shared semaphore's counter, then the second block, are set
  aside until then — so that the half copied is held at that closed form when the copy is issued.
-/
import proofs.«206194_g86921548136457_cont_9to1c4b_267_10_alg».proof.Proof.KbStep
import proofs.«206194_g86921548136457_cont_9to1c4b_267_10_alg».proof.Proof.KbLanded
import proofs.«206194_g86921548136457_cont_9to1c4b_267_10_alg».proof.Proof.KbGathered

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-- Every payload of the body is the lane function of the vector it was computed from: the printed operations are
    pointwise, and a cast of a vector of sixteen to a vector of sixteen is the identity. -/
local macro "pay_tac" : tactic =>
  `(tactic| (funext y; simp only [laneVec, Cert.Spec.lane, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self]; rfl))

/-- What the two copies out deliver: block `t` of the subcore's part of the flat result landed, half `t` of the finished
    value scratch back. -/
def deliv (d : Dev nD) (L : grid0.Coords) : Fin 2 → sProp 𝕄
  | ⟨0, _⟩ => iprop(((oMem L 0).view.loc (V d (cV L) (jV L)) ↦[(oMem L 0).view.set]{fullShare} landed0 m d L)
      ∗ ((rH0).view.loc (V d (cV L) (jV L)) ↦[(rH0).view.set]{fullShare} vF m d L))
  | ⟨1, _⟩ => iprop(((oMem L 1).view.loc (V d (cV L) (jV L)) ↦[(oMem L 1).view.set]{fullShare} landed1 m d L)
      ∗ ((rH1).view.loc (V d (cV L) (jV L)) ↦[(rH1).view.set]{fullShare} vF m d L))

instance deliv_storable (d : Dev nD) (L : grid0.Coords) : ∀ t, BI.Storable (upEmb : UEmb _ 𝕄) (deliv m d L t)
  | ⟨0, _⟩ => (inferInstance : BI.Storable (upEmb : UEmb _ 𝕄) iprop(((oMem L 0).view.loc (V d (cV L) (jV L)) ↦[(oMem L 0).view.set]{fullShare} landed0 m d L)
      ∗ ((rH0).view.loc (V d (cV L) (jV L)) ↦[(rH0).view.set]{fullShare} vF m d L)))
  | ⟨1, _⟩ => (inferInstance : BI.Storable (upEmb : UEmb _ 𝕄) iprop(((oMem L 1).view.loc (V d (cV L) (jV L)) ↦[(oMem L 1).view.set]{fullShare} landed1 m d L)
      ∗ ((rH1).view.loc (V d (cV L) (jV L)) ↦[(rH1).view.set]{fullShare} vF m d L)))

/-- One block's credit on the shared completion semaphore. -/
abbrev creditO (L : grid0.Coords) : ℕ := (oMem L 0).view.amount (SemLoc.dma (sig := sig) semO)

set_option maxHeartbeats 4000000 in
theorem tile_core (hpre : PreOK m) (d : Dev nD) (L : grid0.Coords) (O : CellTallies nD τ sig (HIx 1)) (W : Waits sig (HIx 1)) (hO : ∀ g, O g none = 0) (q : PosShare TreeShare)
    (fs0 fs1 : Buf (Elt F) (sLoc d L)) (fr0 fr1 : Buf (Elt F) (vLoc d L)) :
    (iprop(levAts (K (F := F)).L (K (F := F)).lev
        ∗ (iLoc d ↦{q} m (iLoc d))
        ∗ (wLoc d ↦{q} wF m d)
        ∗ (oLoc d ↦[oSet L 0]{fullShare} m (oLoc d))
        ∗ (oLoc d ↦[oSet L 1]{fullShare} m (oLoc d))
        ∗ (sLoc d L ↦[(sH0).view.set]{fullShare} fs0)
        ∗ (sLoc d L ↦[(sH1).view.set]{fullShare} fs1)
        ∗ (vLoc d L ↦[(rH0).view.set]{fullShare} fr0)
        ∗ (vLoc d L ↦[(rH1).view.set]{fullShare} fr1)
        ∗ semVal (V d (cV L) (jV L), SemLoc.dma semI0) 0 ∗ semVal (V d (cV L) (jV L), SemLoc.dma semI1) 0
        ∗ semVal (V d (cV L) (jV L), SemLoc.dma semG0) 0 ∗ semVal (V d (cV L) (jV L), SemLoc.dma semG1) 0
        ∗ semVal (V d (cV L) (jV L), SemLoc.dma semO) 0
        ∗ owes (V d (cV L) (jV L)) O W) : sProp 𝕄)
      ⊢ wp frame (wpE (defs₀ (F := F)) 𝒱₀ (V d (cV L) (jV L)) none) Set.univ
          (cc0__emb_sigmoid L wV (Memref.isWhole_whole _) iV (Memref.isWhole_whole _) oV (Memref.isWhole_whole _)
            sV (Memref.isWhole_whole _) rV (Memref.isWhole_whole _) cc0_scratch2 cc0_scratch3 cc0_scratch4)
          fun _ => (iprop((iLoc d ↦{q} m (iLoc d))
            ∗ (wLoc d ↦{q} wF m d)
            ∗ (oLoc d ↦[oSet L 0]{fullShare} oF m d)
            ∗ (oLoc d ↦[oSet L 1]{fullShare} oF m d)
            ∗ (∃ f, sLoc d L ↦[(sH0).view.set]{fullShare} f)
            ∗ (∃ f, sLoc d L ↦[(sH1).view.set]{fullShare} f)
            ∗ (∃ f, vLoc d L ↦[(rH0).view.set]{fullShare} f)
            ∗ (∃ f, vLoc d L ↦[(rH1).view.set]{fullShare} f)
            ∗ semVal (V d (cV L) (jV L), SemLoc.dma semI0) 0 ∗ semVal (V d (cV L) (jV L), SemLoc.dma semI1) 0
            ∗ semVal (V d (cV L) (jV L), SemLoc.dma semG0) 0 ∗ semVal (V d (cV L) (jV L), SemLoc.dma semG1) 0
            ∗ semVal (V d (cV L) (jV L), SemLoc.dma semO) 0
            ∗ ∃ W', ⌜∀ p ∈ W', p ∈ W ∨ p.2 = none⌝ ∗ owes (V d (cV L) (jV L)) O W') : sProp 𝕄) := by
  simp only [cc0__emb_sigmoid_eq_skeleton]; unfold cc0__emb_sigmoid_skel
  iintro ⟨#Hlv, Hi, Hw, Ho0, Ho1, Hs0, Hs1, Hr0, Hr1, HsemI0, HsemI1, HsemG0, HsemG1, HsemO, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (show (iLoc d ↦{q} m (iLoc d) : sProp 𝕄) = ((iV).view.loc (V d (cV L) (jV L)) ↦{q} m (iLoc d)) from rfl)) $$ Hi
  ihave Hw' := (Entails.of_eq (show (wLoc d ↦{q} wF m d : sProp 𝕄) = ((wV).view.loc (V d (cV L) (jV L)) ↦{q} wF m d) from rfl)) $$ Hw
  ihave Ho0' := (Entails.of_eq (show (oLoc d ↦[oSet L 0]{fullShare} m (oLoc d) : sProp 𝕄)
      = ((oMem L 0).view.loc (V d (cV L) (jV L)) ↦[(oMem L 0).view.set]{fullShare} m (oLoc d)) from rfl)) $$ Ho0
  ihave Ho1a := (Entails.of_eq (aside_eq (oLoc d ↦[oSet L 1]{fullShare} m (oLoc d) : sProp 𝕄)).symm) $$ Ho1
  ihave HsemOa := (Entails.of_eq (aside_eq (semVal ((V d (cV L) (jV L)), SemLoc.dma semO) 0 : sProp 𝕄)).symm) $$ HsemO
  ihave Hs0' := (Entails.of_eq (show (sLoc d L ↦[(sH0).view.set]{fullShare} fs0 : sProp 𝕄)
      = ((sH0).view.loc (V d (cV L) (jV L)) ↦[(sH0).view.set]{fullShare} fs0) from rfl)) $$ Hs0
  ihave Hs1' := (Entails.of_eq (show (sLoc d L ↦[(sH1).view.set]{fullShare} fs1 : sProp 𝕄)
      = ((sH1).view.loc (V d (cV L) (jV L)) ↦[(sH1).view.set]{fullShare} fs1) from rfl)) $$ Hs1
  ihave Hr0' := (Entails.of_eq (show (vLoc d L ↦[(rH0).view.set]{fullShare} fr0 : sProp 𝕄)
      = ((rH0).view.loc (V d (cV L) (jV L)) ↦[(rH0).view.set]{fullShare} fr0) from rfl)) $$ Hr0
  ihave Hr1' := (Entails.of_eq (show (vLoc d L ↦[(rH1).view.set]{fullShare} fr1 : sProp 𝕄)
      = ((rH1).view.loc (V d (cV L) (jV L)) ↦[(rH1).view.set]{fullShare} fr1) from rfl)) $$ Hr1
  have hin := idx_inb (F := F) m hpre d
  -- two gathers read the table at once: a read share of it for each, and the rest
  ihave Hws := (Transfers.pointsTo_toks_split (ℓ := (wV).view.loc (V d (cV L) (jV L))) (S := Finset.univ) (f := wF m d) q 2) $$ Hw'
  icases Hws with ⟨Hwr, Hwt⟩
  ihave Hwt' := (Entails.of_eq (bigSep_univ_two (fun i : Fin 2 => ((wV).view.loc (V d (cV L) (jV L)) ↦{Transfers.shareTok q 2 i} wF m d : sProp 𝕄)))) $$ Hwt
  icases Hwt' with ⟨Hw0, Hw1⟩
  -- the index copies and their waits, the two gathers, the first gather's wait, sixteen slices
  sl_exec
  -- the first half of the value scratch is finished
  have hV1 : ∀ j ∈ (rH0).view.set, tile_core.sl.Hr0'_w16 m d L hin j = vF m d L j := by
    have eG : ∀ y, tile_core.sl.gather2 m d L hin y = wF m d (ValueIdx.ix1 (Cert.Spec.row (m (iLoc d) (gpos L ((rH0).view.emb y))))) := fun y => by
      unfold tile_core.sl.gather2 tile_core.sl.dma0; exact gathered0 m hpre d L _ _ _ _ y
    have hB : ∀ y, ((rH0).view.writes (Elt F) (rH0).view.junk [⟨Rect.whole S256, tile_core.sl.gather2 m d L hin⟩]) ((rH0).view.emb y) = tile_core.sl.gather2 m d L hin y := fun y => by
      have e := View.read_writes_cons_emb (rH0).view (rH0).view.junk (Rect.whole S256) (tile_core.sl.gather2 m d L hin) [] y
      rw [Rect.emb_whole_apply] at e
      exact ((View.read_apply _ _).trans (cast_eq _ _)).symm.trans e
    have d0 := done_start (F := F) 0 ((rH0).view.writes (Elt F) (rH0).view.junk [⟨Rect.whole S256, tile_core.sl.gather2 m d L hin⟩])
    have d1 : Done 0 16 (tile_core.sl.Hr0'_w1 m d L hin) _ := step 0 0 inb_S512_S16_0 _ _ _ (by pay_tac) d0 (by omega) (by omega)
    have d2 : Done 0 32 (tile_core.sl.Hr0'_w2 m d L hin) _ := step 0 16 inb_S512_S16_16 _ _ _ (by pay_tac) d1 (by omega) (by omega)
    have d3 : Done 0 48 (tile_core.sl.Hr0'_w3 m d L hin) _ := step 0 32 inb_S512_S16_32 _ _ _ (by unfold tile_core.sl.r; pay_tac) d2 (by omega) (by omega)
    have d4 : Done 0 64 (tile_core.sl.Hr0'_w4 m d L hin) _ := step 0 48 inb_S512_S16_48 _ _ _ (by pay_tac) d3 (by omega) (by omega)
    have d5 : Done 0 80 (tile_core.sl.Hr0'_w5 m d L hin) _ := step 0 64 inb_S512_S16_64 _ _ _ (by pay_tac) d4 (by omega) (by omega)
    have d6 : Done 0 96 (tile_core.sl.Hr0'_w6 m d L hin) _ := step 0 80 inb_S512_S16_80 _ _ _ (by unfold tile_core.sl.r_1; pay_tac) d5 (by omega) (by omega)
    have d7 : Done 0 112 (tile_core.sl.Hr0'_w7 m d L hin) _ := step 0 96 inb_S512_S16_96 _ _ _ (by pay_tac) d6 (by omega) (by omega)
    have d8 : Done 0 128 (tile_core.sl.Hr0'_w8 m d L hin) _ := step 0 112 inb_S512_S16_112 _ _ _ (by pay_tac) d7 (by omega) (by omega)
    have d9 : Done 0 144 (tile_core.sl.Hr0'_w9 m d L hin) _ := step 0 128 inb_S512_S16_128 _ _ _ (by unfold tile_core.sl.r_2; pay_tac) d8 (by omega) (by omega)
    have d10 : Done 0 160 (tile_core.sl.Hr0'_w10 m d L hin) _ := step 0 144 inb_S512_S16_144 _ _ _ (by pay_tac) d9 (by omega) (by omega)
    have d11 : Done 0 176 (tile_core.sl.Hr0'_w11 m d L hin) _ := step 0 160 inb_S512_S16_160 _ _ _ (by pay_tac) d10 (by omega) (by omega)
    have d12 : Done 0 192 (tile_core.sl.Hr0'_w12 m d L hin) _ := step 0 176 inb_S512_S16_176 _ _ _ (by pay_tac) d11 (by omega) (by omega)
    have d13 : Done 0 208 (tile_core.sl.Hr0'_w13 m d L hin) _ := step 0 192 inb_S512_S16_192 _ _ _ (by unfold tile_core.sl.r_4; pay_tac) d12 (by omega) (by omega)
    have d14 : Done 0 224 (tile_core.sl.Hr0'_w14 m d L hin) _ := step 0 208 inb_S512_S16_208 _ _ _ (by pay_tac) d13 (by omega) (by omega)
    have d15 : Done 0 240 (tile_core.sl.Hr0'_w15 m d L hin) _ := step 0 224 inb_S512_S16_224 _ _ _ (by pay_tac) d14 (by omega) (by omega)
    have d16 : Done 0 256 (tile_core.sl.Hr0'_w16 m d L hin) _ := step 0 240 inb_S512_S16_240 _ _ _ (by unfold tile_core.sl.r_5; pay_tac) d15 (by omega) (by omega)
    intro j hj
    obtain ⟨y, -, rfl⟩ := Finset.mem_map.mp hj
    have hy : ((rH0).view.emb y 0).val = 0 + (y 0).val := by show 0 + 1 * (y 0).val = _; omega
    have hy' : (y 0).val < 256 := (y 0).isLt
    rw [d16.1 _ (by omega) (by omega), hB y, eG y]
    rfl
  ihave Hr0c := (Entails.of_eq (pointsTo_congr (ℓ := (rH0).view.loc (V d (cV L) (jV L))) (q := fullShare) hV1)) $$ Hr0'
  -- the two copies out share one semaphore: their deliveries are stated now
  ihave HsemO := (Entails.of_eq (aside_eq (semVal ((V d (cV L) (jV L)), SemLoc.dma semO) 0 : sProp 𝕄))) $$ HsemOa
  imod (Transfers.batch_alloc' (Lvl := ℕ) countersEmb (V d (cV L) (jV L)) (default : HIx 1) (creditO L) (deliv m d L) (sm := .dma semO) (E := Set.univ)) $$ HsemO with HB
  -- the first copy out, the second gather's wait, sixteen slices
  sl_exec
  -- the second half of the value scratch is finished
  have hV2 : ∀ j ∈ (rH1).view.set, tile_core.sl.Hr1'_w16 m d L hin j = vF m d L j := by
    have eG : ∀ y, tile_core.sl.gather3 m d L hin y = wF m d (ValueIdx.ix1 (Cert.Spec.row (m (iLoc d) (gpos L ((rH1).view.emb y))))) := fun y => by
      unfold tile_core.sl.gather3 tile_core.sl.dma0_1; exact gathered1 m hpre d L _ _ _ _ y
    have hB : ∀ y, ((rH1).view.writes (Elt F) (rH1).view.junk [⟨Rect.whole S256, tile_core.sl.gather3 m d L hin⟩]) ((rH1).view.emb y) = tile_core.sl.gather3 m d L hin y := fun y => by
      have e := View.read_writes_cons_emb (rH1).view (rH1).view.junk (Rect.whole S256) (tile_core.sl.gather3 m d L hin) [] y
      rw [Rect.emb_whole_apply] at e
      exact ((View.read_apply _ _).trans (cast_eq _ _)).symm.trans e
    have d0 := done_start (F := F) 256 ((rH1).view.writes (Elt F) (rH1).view.junk [⟨Rect.whole S256, tile_core.sl.gather3 m d L hin⟩])
    have d1 : Done 256 272 (tile_core.sl.Hr1'_w1 m d L hin) _ := step 256 256 inb_S512_S16_256 _ _ _ (by pay_tac) d0 (by omega) (by omega)
    have d2 : Done 256 288 (tile_core.sl.Hr1'_w2 m d L hin) _ := step 256 272 inb_S512_S16_272 _ _ _ (by unfold tile_core.sl.r_6; pay_tac) d1 (by omega) (by omega)
    have d3 : Done 256 304 (tile_core.sl.Hr1'_w3 m d L hin) _ := step 256 288 inb_S512_S16_288 _ _ _ (by pay_tac) d2 (by omega) (by omega)
    have d4 : Done 256 320 (tile_core.sl.Hr1'_w4 m d L hin) _ := step 256 304 inb_S512_S16_304 _ _ _ (by pay_tac) d3 (by omega) (by omega)
    have d5 : Done 256 336 (tile_core.sl.Hr1'_w5 m d L hin) _ := step 256 320 inb_S512_S16_320 _ _ _ (by pay_tac) d4 (by omega) (by omega)
    have d6 : Done 256 352 (tile_core.sl.Hr1'_w6 m d L hin) _ := step 256 336 inb_S512_S16_336 _ _ _ (by unfold tile_core.sl.r_7; pay_tac) d5 (by omega) (by omega)
    have d7 : Done 256 368 (tile_core.sl.Hr1'_w7 m d L hin) _ := step 256 352 inb_S512_S16_352 _ _ _ (by pay_tac) d6 (by omega) (by omega)
    have d8 : Done 256 384 (tile_core.sl.Hr1'_w8 m d L hin) _ := step 256 368 inb_S512_S16_368 _ _ _ (by pay_tac) d7 (by omega) (by omega)
    have d9 : Done 256 400 (tile_core.sl.Hr1'_w9 m d L hin) _ := step 256 384 inb_S512_S16_384 _ _ _ (by unfold tile_core.sl.r_8 tile_core.sl.cst_126; pay_tac) d8 (by omega) (by omega)
    have d10 : Done 256 416 (tile_core.sl.Hr1'_w10 m d L hin) _ := step 256 400 inb_S512_S16_400 _ _ _ (by pay_tac) d9 (by omega) (by omega)
    have d11 : Done 256 432 (tile_core.sl.Hr1'_w11 m d L hin) _ := step 256 416 inb_S512_S16_416 _ _ _ (by pay_tac) d10 (by omega) (by omega)
    have d12 : Done 256 448 (tile_core.sl.Hr1'_w12 m d L hin) _ := step 256 432 inb_S512_S16_432 _ _ _ (by unfold tile_core.sl.r_9; pay_tac) d11 (by omega) (by omega)
    have d13 : Done 256 464 (tile_core.sl.Hr1'_w13 m d L hin) _ := step 256 448 inb_S512_S16_448 _ _ _ (by pay_tac) d12 (by omega) (by omega)
    have d14 : Done 256 480 (tile_core.sl.Hr1'_w14 m d L hin) _ := step 256 464 inb_S512_S16_464 _ _ _ (by pay_tac) d13 (by omega) (by omega)
    have d15 : Done 256 496 (tile_core.sl.Hr1'_w15 m d L hin) _ := step 256 480 inb_S512_S16_480 _ _ _ (by pay_tac) d14 (by omega) (by omega)
    have d16 : Done 256 512 (tile_core.sl.Hr1'_w16 m d L hin) _ := step 256 496 inb_S512_S16_496 _ _ _ (by unfold tile_core.sl.r_10; pay_tac) d15 (by omega) (by omega)
    intro j hj
    obtain ⟨y, -, rfl⟩ := Finset.mem_map.mp hj
    have hy : ((rH1).view.emb y 0).val = 256 + (y 0).val := by show 256 + 1 * (y 0).val = _; omega
    have hy' : (y 0).val < 256 := (y 0).isLt
    rw [d16.1 _ (by omega) (by omega), hB y, eG y]
    rfl
  ihave Hr1c := (Entails.of_eq (pointsTo_congr (ℓ := (rH1).view.loc (V d (cV L) (jV L))) (q := fullShare) hV2)) $$ Hr1'
  ihave Ho1 := (Entails.of_eq (aside_eq (oLoc d ↦[oSet L 1]{fullShare} m (oLoc d) : sProp 𝕄))) $$ Ho1a
  ihave Ho1' := (Entails.of_eq (show (oLoc d ↦[oSet L 1]{fullShare} m (oLoc d) : sProp 𝕄)
      = ((oMem L 1).view.loc (V d (cV L) (jV L)) ↦[(oMem L 1).view.set]{fullShare} m (oLoc d)) from rfl)) $$ Ho1
  -- the second copy out and the two waits
  sl_exec
  sl_step
  -- the table's read share whole again
  ihave Hwt2 := (Entails.of_eq (bigSep_univ_two (fun i : Fin 2 => ((wV).view.loc (V d (cV L) (jV L)) ↦{Transfers.shareTok q 2 i} wF m d : sProp 𝕄))).symm) $$ [Hw0 Hw1]
  · isplitl [Hw0]; · iexact Hw0
    iexact Hw1
  ihave Hw2 := (Transfers.pointsTo_toks_join (ℓ := (wV).view.loc (V d (cV L) (jV L))) (S := Finset.univ) (f := wF m d) q 2) $$ [Hwr Hwt2]
  · isplitl [Hwr]; · iexact Hwr
    iexact Hwt2
  -- what landed on the two blocks is the flat result there
  ihave Ho0f := (Entails.of_eq (pointsTo_congr (ℓ := (oMem L 0).view.loc (V d (cV L) (jV L))) (q := fullShare) (landed0_agree m d L))) $$ HB_dst0
  ihave Ho1f := (Entails.of_eq (pointsTo_congr (ℓ := (oMem L 1).view.loc (V d (cV L) (jV L))) (q := fullShare) (landed1_agree m d L))) $$ HB_dst1
  isplitl [Hi']; · iexact Hi'
  isplitl [Hw2]; · iexact Hw2
  isplitl [Ho0f]; · iexact Ho0f
  isplitl [Ho1f]; · iexact Ho1f
  isplitl [Hs0']; · iexists _; iexact Hs0'
  isplitl [Hs1']; · iexists _; iexact Hs1'
  isplitl [HB_src0]; · iexists _; iexact HB_src0
  isplitl [HB_src1]; · iexists _; iexact HB_src1
  isplitl [HsemI0]; · iexact HsemI0
  isplitl [HsemI1]; · iexact HsemI1
  isplitl [HsemG0]; · iexact HsemG0
  isplitl [HsemG1]; · iexact HsemG1
  isplitl [HB]; · iexact HB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Kb

end
-- ==== Proof.KbObl.lean ====
/-
  The launch theorem's obligation for the vector-subcore kernel, from the core run of one subcore's body.

  The launch theorem hands a subcore its task's operands — its read shares of the index vector and the flat table, its two
  blocks of the flat result — and its scoped storage: every buffer and every semaphore that is the subcore's own.  The core
  run is stated over exactly what the body touches: the two halves of each scratch buffer and the five completion
  semaphores.  So the scoped storage is opened: the subcore's own buffers are the two scratch buffers and a rest
  (`ownBufs_V`), its own cells the five semaphores and a rest (`ownSems0_V`); a scratch buffer's 512 entries are the two
  parts of 256 of its one axis, which are the kernel's two slices, so held whole it is its two halves, at any contents
  (`s_split`, `v_split`), and two halves at whatever contents join into the whole at some contents (`s_join`, `v_join`).
  The rests ride along beside the run (`tile_body`).  The body table runs the kernel function on each subcore of the grid
  at its grid point, which is the obligation (`tileObl`).
-/
import proofs.«206194_g86921548136457_cont_9to1c4b_267_10_alg».proof.Proof.KbTile

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-! ## A vector subcore's own cells and buffers -/

section Tile

variable (d : Dev nD) (L : grid0.Coords)

omit [FloatOps F] in
/-- Cells of one thread on distinct semaphores are distinct. -/
theorem cell_ne {k k' : DmaSem sig} (h : k ≠ k') :
    ((V d (cV L) (jV L), SemLoc.dma k) : GSem nD τ sig) ≠ (V d (cV L) (jV L), SemLoc.dma k') :=
  fun e => h (SemLoc.dma.inj (Prod.mk.inj e).2)

omit [FloatOps F] in
/-- A scoped completion semaphore of the subcore is one of its own cells. -/
theorem cell_mem {k : DmaSem sig} (hk : (SemLoc.dma k : SemLoc sig).isScoped .scVector = true) :
    ((V d (cV L) (jV L), SemLoc.dma k) : GSem nD τ sig) ∈ ownCells (V d (cV L) (jV L)) :=
  mem_ownCells.mpr ⟨rfl, hk⟩

omit [FloatOps F] in
/-- The five completion semaphores are among the subcore's own cells: they, at zero, and the rest. -/
theorem ownSems0_V :
    (ownSems0 (V d (cV L) (jV L)) : sProp 𝕄)
      = iprop(semVal (V d (cV L) (jV L), SemLoc.dma semI0) 0 ∗ semVal (V d (cV L) (jV L), SemLoc.dma semI1) 0
          ∗ semVal (V d (cV L) (jV L), SemLoc.dma semG0) 0 ∗ semVal (V d (cV L) (jV L), SemLoc.dma semG1) 0
          ∗ semVal (V d (cV L) (jV L), SemLoc.dma semO) 0
          ∗ bigSep ((((((ownCells (V d (cV L) (jV L))).erase (V d (cV L) (jV L), SemLoc.dma semI0)).erase (V d (cV L) (jV L), SemLoc.dma semI1)).erase
              (V d (cV L) (jV L), SemLoc.dma semG0)).erase (V d (cV L) (jV L), SemLoc.dma semG1)).erase (V d (cV L) (jV L), SemLoc.dma semO))
              fun g => semVal g 0) := by
  unfold SparseCore.Cfg.ownSems0
  have m0 := cell_mem d L (k := semI0) (by decide)
  have m1 := cell_mem d L (k := semI1) (by decide)
  have m2 := cell_mem d L (k := semG0) (by decide)
  have m3 := cell_mem d L (k := semG1) (by decide)
  have m4 := cell_mem d L (k := semO) (by decide)
  rw [SparseCore.bigSep_erase' m0,
    SparseCore.bigSep_erase' (Finset.mem_erase.mpr ⟨cell_ne d L (show semI1 ≠ semI0 by decide), m1⟩),
    SparseCore.bigSep_erase' (Finset.mem_erase.mpr ⟨cell_ne d L (show semG0 ≠ semI1 by decide),
      Finset.mem_erase.mpr ⟨cell_ne d L (show semG0 ≠ semI0 by decide), m2⟩⟩),
    SparseCore.bigSep_erase' (Finset.mem_erase.mpr ⟨cell_ne d L (show semG1 ≠ semG0 by decide),
      Finset.mem_erase.mpr ⟨cell_ne d L (show semG1 ≠ semI1 by decide),
        Finset.mem_erase.mpr ⟨cell_ne d L (show semG1 ≠ semI0 by decide), m3⟩⟩⟩),
    SparseCore.bigSep_erase' (Finset.mem_erase.mpr ⟨cell_ne d L (show semO ≠ semG1 by decide),
      Finset.mem_erase.mpr ⟨cell_ne d L (show semO ≠ semG0 by decide),
        Finset.mem_erase.mpr ⟨cell_ne d L (show semO ≠ semI1 by decide),
          Finset.mem_erase.mpr ⟨cell_ne d L (show semO ≠ semI0 by decide), m4⟩⟩⟩⟩)]

omit [FloatOps F] in
/-- The two scratch buffers are among the subcore's own: they, at some contents, and the rest. -/
theorem ownBufs_V :
    (ownBufs (V d (cV L) (jV L)) : sProp 𝕄)
      = iprop((∃ f, sLoc d L ↦{fullShare} f) ∗ (∃ f, vLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The halves of a scratch buffer -/

theorem hdiv : 2 ∣ S512.size 0 := ⟨256, rfl⟩

/-- The kernel's two slices of a scratch buffer are the two parts of its one axis. -/
theorem half0_eq : Rect.unit (s := S512) ![0] S256.size inb_S512_S256_0 = Rect.part (s := S512) (a₀ := 0) hdiv 0 := by
  unfold Rect.part Rect.block
  congr 1 <;> funext a
  · match a with
    | 0 => simp [Shape.partIx, Shape.partSize]
  · match a with
    | 0 => simp [Shape.partSize]
theorem half1_eq : Rect.unit (s := S512) ![256] S256.size inb_S512_S256_256 = Rect.part (s := S512) (a₀ := 0) hdiv 1 := by
  unfold Rect.part Rect.block
  congr 1 <;> funext a
  · match a with
    | 0 => simp [Shape.partIx, Shape.partSize]
  · match a with
    | 0 => simp [Shape.partSize]

omit [FloatOps F] in
theorem sH0_set : (sH0).view.set = (Rect.part (s := S512) (a₀ := 0) hdiv 0).set := by
  show ((View.whole (cc0_scratch0 : Ref sig .scVector)).slice (Rect.unit (s := S512) ![0] S256.size inb_S512_S256_0)).set = _
  rw [View.set_slice, half0_eq]; exact Finset.map_refl
omit [FloatOps F] in
theorem sH1_set : (sH1).view.set = (Rect.part (s := S512) (a₀ := 0) hdiv 1).set := by
  show ((View.whole (cc0_scratch0 : Ref sig .scVector)).slice (Rect.unit (s := S512) ![256] S256.size inb_S512_S256_256)).set = _
  rw [View.set_slice, half1_eq]; exact Finset.map_refl
omit [FloatOps F] in
theorem rH0_set : (rH0).view.set = (Rect.part (s := S512) (a₀ := 0) hdiv 0).set := by
  show ((View.whole (cc0_scratch1 : Ref sig .scVector)).slice (Rect.unit (s := S512) ![0] S256.size inb_S512_S256_0)).set = _
  rw [View.set_slice, half0_eq]; exact Finset.map_refl
omit [FloatOps F] in
theorem rH1_set : (rH1).view.set = (Rect.part (s := S512) (a₀ := 0) hdiv 1).set := by
  show ((View.whole (cc0_scratch1 : Ref sig .scVector)).slice (Rect.unit (s := S512) ![256] S256.size inb_S512_S256_256)).set = _
  rw [View.set_slice, half1_eq]; exact Finset.map_refl

theorem parts_disjoint : Disjoint (Rect.part (s := S512) (a₀ := 0) hdiv 0).set (Rect.part (s := S512) (a₀ := 0) hdiv 1).set :=
  Rect.part_disjoint hdiv (by decide)

theorem parts_union : (Rect.part (s := S512) (a₀ := 0) hdiv 0).set ∪ (Rect.part (s := S512) (a₀ := 0) hdiv 1).set = Finset.univ := by
  rw [← Rect.biUnion_part hdiv, show (Finset.univ : Finset (Fin 2)) = {0, 1} from by decide, Finset.biUnion_insert, Finset.singleton_biUnion]

omit [FloatOps F] in
/-- A scratch buffer held whole is its two halves, at any contents. -/
theorem s_split (f : Buf (Elt F) (sLoc d L)) :
    (sLoc d L ↦{fullShare} f : sProp 𝕄) = iprop((sLoc d L ↦[(sH0).view.set]{fullShare} f) ∗ (sLoc d L ↦[(sH1).view.set]{fullShare} f)) := by
  rw [sH0_set, sH1_set]
  have h : (sLoc d L ↦[(Rect.part (s := S512) (a₀ := 0) hdiv 0).set ∪ (Rect.part (s := S512) (a₀ := 0) hdiv 1).set]{fullShare} f : sProp 𝕄)
      ⊣⊢ iprop((sLoc d L ↦[(Rect.part (s := S512) (a₀ := 0) hdiv 0).set]{fullShare} f) ∗ sLoc d L ↦[(Rect.part (s := S512) (a₀ := 0) hdiv 1).set]{fullShare} f) :=
    pointsTo_union parts_disjoint
  rw [parts_union] at h
  exact BI.equiv_iff.mp ⟨h.1, h.2⟩
omit [FloatOps F] in
theorem v_split (f : Buf (Elt F) (vLoc d L)) :
    (vLoc d L ↦{fullShare} f : sProp 𝕄) = iprop((vLoc d L ↦[(rH0).view.set]{fullShare} f) ∗ (vLoc d L ↦[(rH1).view.set]{fullShare} f)) := by
  rw [rH0_set, rH1_set]
  have h : (vLoc d L ↦[(Rect.part (s := S512) (a₀ := 0) hdiv 0).set ∪ (Rect.part (s := S512) (a₀ := 0) hdiv 1).set]{fullShare} f : sProp 𝕄)
      ⊣⊢ iprop((vLoc d L ↦[(Rect.part (s := S512) (a₀ := 0) hdiv 0).set]{fullShare} f) ∗ vLoc d L ↦[(Rect.part (s := S512) (a₀ := 0) hdiv 1).set]{fullShare} f) :=
    pointsTo_union parts_disjoint
  rw [parts_union] at h
  exact BI.equiv_iff.mp ⟨h.1, h.2⟩

omit [FloatOps F] in
/-- The two halves, at whatever contents each has, are the whole buffer at some contents. -/
theorem s_join :
    (iprop((∃ f, sLoc d L ↦[(sH0).view.set]{fullShare} f) ∗ (∃ f, sLoc d L ↦[(sH1).view.set]{fullShare} f)) : sProp 𝕄)
      ⊢ iprop(∃ f, sLoc d L ↦{fullShare} f) := by
  rw [sH0_set, sH1_set]
  iintro ⟨⟨%f0, H0⟩, ⟨%f1, H1⟩⟩
  ihave H := (pointsTo_join (ℓ := sLoc d L) (q := fullShare) parts_disjoint) $$ [H0 H1]
  · isplitl [H0] <;> iassumption
  rw [parts_union]
  iexists _; iexact H
omit [FloatOps F] in
theorem v_join :
    (iprop((∃ f, vLoc d L ↦[(rH0).view.set]{fullShare} f) ∗ (∃ f, vLoc d L ↦[(rH1).view.set]{fullShare} f)) : sProp 𝕄)
      ⊢ iprop(∃ f, vLoc d L ↦{fullShare} f) := by
  rw [rH0_set, rH1_set]
  iintro ⟨⟨%f0, H0⟩, ⟨%f1, H1⟩⟩
  ihave H := (pointsTo_join (ℓ := vLoc d L) (q := fullShare) parts_disjoint) $$ [H0 H1]
  · isplitl [H0] <;> iassumption
  rw [parts_union]
  iexists _; iexact H

/-! ## The task in the launch theorem's own resources -/

/-- The task on the vector subcore at `L` of device `d`: from its read shares of the index vector and the flat table, its
    two blocks of the flat result, its scoped storage and semaphores, to the blocks at the flat result's contents and the
    storage back.  The scoped storage opens to the two scratch buffers, each split into its halves, and the five
    completion semaphores; the core run uses exactly those; the halves join again. -/
theorem tile_body (hF : (K (F := F)).Facts) (hpre : PreOK m) (O : CellTallies nD τ sig (HIx 1)) (W : Waits sig (HIx 1)) (hO : ∀ g, O g none = 0)
    (q : PosShare TreeShare) :
    (iprop(levAts (K (F := F)).L (K (F := F)).lev ∗ emp
        ∗ (iSh m d q ∗ wSh m d q ∗ (oBlkPts d L 0 (m (oLoc d)) ∗ oBlkPts d L 1 (m (oLoc d))))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__emb_sigmoid L wV (Memref.isWhole_whole _) iV (Memref.isWhole_whole _) oV (Memref.isWhole_whole _)
            sV (Memref.isWhole_whole _) rV (Memref.isWhole_whole _) cc0_scratch2 cc0_scratch3 cc0_scratch4)
          fun _ => (iprop((iSh m d q ∗ wSh m d q ∗ (oBlkPts d L 0 (oF m d) ∗ oBlkPts d L 1 (oF m d)))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Hi, Hw, Ho0, Ho1⟩, ⟨⟨%fs, Hs⟩, ⟨%fr, Hr⟩, Hbufs⟩, ⟨HI0, HI1, HG0, HG1, HSO, Hsems⟩, HO⟩
  ihave Hs := (Entails.of_eq (s_split (F := F) d L fs)) $$ Hs
  icases Hs with ⟨Hs0, Hs1⟩
  ihave Hr := (Entails.of_eq (v_split (F := F) d L fr)) $$ Hr
  icases Hr with ⟨Hr0, Hr1⟩
  iapply (wp_wand_r frame _ Set.univ)
  isplitl [Hi Hw Ho0 Ho1 Hs0 Hs1 Hr0 Hr1 HI0 HI1 HG0 HG1 HSO HO]
  · iapply (tile_core m hpre d L O W hO q fs fs fr fr)
    isplitr; · iexact Hlv
    isplitl [Hi]; · iexact Hi
    isplitl [Hw]; · iexact Hw
    isplitl [Ho0]; · iexact Ho0
    isplitl [Ho1]; · iexact Ho1
    isplitl [Hs0]; · iexact Hs0
    isplitl [Hs1]; · iexact Hs1
    isplitl [Hr0]; · iexact Hr0
    isplitl [Hr1]; · iexact Hr1
    isplitl [HI0]; · iexact HI0
    isplitl [HI1]; · iexact HI1
    isplitl [HG0]; · iexact HG0
    isplitl [HG1]; · iexact HG1
    isplitl [HSO]; · iexact HSO
    iexact HO
  iintro %_ ⟨Hi, Hw, Ho0, Ho1, Hs0, Hs1, Hr0, Hr1, HI0, HI1, HG0, HG1, HSO, HO⟩
  isplitl [Hi Hw Ho0 Ho1]
  · isplitl [Hi]; · iexact Hi
    isplitl [Hw]; · iexact Hw
    isplitl [Ho0]; · iexact Ho0
    iexact Ho1
  isplitl [Hs0 Hs1 Hr0 Hr1 Hbufs]
  · isplitl [Hs0 Hs1]
    · iapply (s_join (F := F) d L)
      isplitl [Hs0]; · iexact Hs0
      iexact Hs1
    isplitl [Hr0 Hr1]
    · iapply (v_join (F := F) d L)
      isplitl [Hr0]; · iexact Hr0
      iexact Hr1
    iexact Hbufs
  isplitl [HI0 HI1 HG0 HG1 HSO Hsems]
  · isplitl [HI0]; · iexact HI0
    isplitl [HI1]; · iexact HI1
    isplitl [HG0]; · iexact HG0
    isplitl [HG1]; · iexact HG1
    isplitl [HSO]; · iexact HSO
    iexact Hsems
  iexact HO

end Tile

/-! ## The obligation -/

/-- The body table runs the kernel function on a vector subcore at its grid point, on the whole arrays and its scratch. -/
theorem defs₀_vector (c : Fin τ.nSC) (s : Fin τ.nSub) :
    defs₀ (F := F) (.scVector c s) 0 ()
      = SparseCore.onTile hcore0 hsub0 (fun c s => cc0__emb_sigmoid (coordsV c s)
          wV (Memref.isWhole_whole _) iV (Memref.isWhole_whole _) oV (Memref.isWhole_whole _)
          sV (Memref.isWhole_whole _) rV (Memref.isWhole_whole _) cc0_scratch2 cc0_scratch3 cc0_scratch4) ⟨⟩ c s := rfl

omit [FloatOps F] in
/-- A wait recorded by the task is one the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- THE OBLIGATION of the vector-subcore kernel: every subcore of the grid, handed its task's operands and its scoped
    storage, runs the kernel function to the task's results. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO _).trans (wp_mono frame _ _ fun _ => obl_post)

end Cert.Proof.Kb

end
-- ==== Proof.KbSplit.lean ====
/-
  The launch's splits and joins: how the device's three arrays are shared out to the two SparseCores and, on each, to its
  sixteen subcores, and how what comes back is gathered into the whole arrays again.

  The flat result has 16384 entries, 64 blocks of 256.  Block `r` of the subcore at grid point `(c, s)` starts at
  `1024 s + 512 c + 256 r`: it is block number `4 s + 2 c + r`, and `(c, s, r) ↦ 4 s + 2 c + r` is a bijection onto the 64
  block numbers.  So the 64 sets are pairwise disjoint and cover the array, and the points-to of the whole array is the
  separating conjunction, over the SparseCores and their subcores, of the subcore's two blocks — at any contents.
  The index vector and the flat table are only read: the full share gives one read share per SparseCore and keeps a rest,
  a SparseCore's share one per subcore and keeps a rest; a rest waits beside the returning shares and joins them again.
-/
import proofs.«206194_g86921548136457_cont_9to1c4b_267_10_alg».proof.Proof.KbSetup
import Idealize.ShloMosaic.Lib.Transfers

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "oV" => (Memref.whole Cert.Kernel.main_v1_scv : Memref Cert.Kernel.sig Kind.scVector Space.hbm Cert.Kernel.S16384 EltTy.f32)

/-! ## The 64 blocks of the flat result -/

theorem odiv : 64 ∣ S16384.size 0 := ⟨256, rfl⟩

/-- The number of block `r` of subcore `s` of SparseCore `c`. -/
def blk (c : Fin 2) (s : Fin 16) (r : Fin 2) : Fin 64 := ⟨4 * s.val + 2 * c.val + r.val, by omega⟩

/-- Every block number is that of exactly one `(c, s, r)`. -/
def blkEquiv : Fin 2 × Fin 16 × Fin 2 ≃ Fin 64 where
  toFun t := blk t.1 t.2.1 t.2.2
  invFun b := (⟨b.val / 2 % 2, by omega⟩, ⟨b.val / 4, by omega⟩, ⟨b.val % 2, by omega⟩)
  left_inv := fun ⟨c, s, r⟩ => by
    refine Prod.ext (Fin.ext ?_) (Prod.ext (Fin.ext ?_) (Fin.ext ?_)) <;> simp only [blk] <;> omega
  right_inv := fun b => Fin.ext (by simp only [blk]; omega)

/-- The block as the kernel slices it is the block of that number. -/
theorem oBlk_eq (c : Fin 2) (s : Fin 16) (r : Fin 2) :
    oBlk (LL c s) r = Rect.part (s := S16384) (a₀ := 0) odiv (blk c s r) := by
  unfold oBlk Rect.part Rect.block
  congr 1 <;> funext a
  · rw [k0_off1_eq]
    match a with
    | 0 => simp [Shape.partIx, Shape.partSize, blk, LL, coordsV]; omega
  · match a with
    | 0 => simp [Shape.partSize]

theorem oSet_eq (c : Fin 2) (s : Fin 16) (r : Fin 2) :
    oSet (LL c s) r = (Rect.part (s := S16384) (a₀ := 0) odiv (blk c s r)).set := by
  show ((View.whole (main_v1_scv : Ref sig .scVector)).slice (oBlk (LL c s) r)).set = _
  rw [View.set_slice, oBlk_eq]; exact Finset.map_refl

/-- The whole flat result is the two SparseCores' subcores' blocks, at any contents. -/
theorem oPts_tiles (d : Dev nD) (f : Buf (Elt F) (oLoc d)) :
    (oLoc d ↦{fullShare} f : sProp 𝕄) = bigSep Finset.univ fun c : Fin 2 => oCore d c f := by
  have h1 : (oLoc d ↦{fullShare} f : sProp 𝕄)
      = bigSep Finset.univ fun b : Fin 64 => oLoc d ↦[(Rect.part (s := S16384) (a₀ := 0) odiv b).set]{fullShare} f := by
    rw [← pointsTo_biUnion Finset.univ (ℓ := oLoc d) (fun b : Fin 64 => (Rect.part (s := S16384) (a₀ := 0) odiv b).set)
      (fun i _ j _ h => Rect.part_disjoint odiv h), Rect.biUnion_part odiv]; try rfl
  rw [h1, bigSep_univ_equiv blkEquiv, bigSep_univ_prod]
  refine bigSep_congr fun c _ => ?_
  rw [bigSep_univ_prod]
  refine bigSep_congr fun s _ => ?_
  rw [bigSep_univ_two]
  show iprop((oLoc d ↦[(Rect.part (s := S16384) (a₀ := 0) odiv (blk c s 0)).set]{fullShare} f)
      ∗ (oLoc d ↦[(Rect.part (s := S16384) (a₀ := 0) odiv (blk c s 1)).set]{fullShare} f))
    = iprop((oLoc d ↦[oSet (LL c s) 0]{fullShare} f) ∗ (oLoc d ↦[oSet (LL c s) 1]{fullShare} f))
  rw [oSet_eq, oSet_eq]

/-! ## Re-indexing over the configuration's own counts -/

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ)

variable [FloatOps F]

/-! ## A SparseCore's operands among its subcores -/

/-- What the sixteen subcores of a SparseCore hold together: their shares of the two read arrays, and the SparseCore's blocks. -/
theorem bigSep_tiles (d : Dev nD) (c : Fin 2) (f : Buf (Elt F) (oLoc d)) :
    (bigSep Finset.univ fun i : Fin 16 => iprop(iSh m d (qt c i) ∗ wSh m d (qt c i) ∗ oTile d c i f))
      = (iprop((bigSep Finset.univ fun i : Fin 16 => iSh m d (qt c i)) ∗ (bigSep Finset.univ fun i : Fin 16 => wSh m d (qt c i)) ∗ oCore d c f) : sProp 𝕄) := by
  rw [bigSep_sep' Finset.univ (fun i : Fin 16 => iSh m d (qt c i)) (fun i : Fin 16 => iprop(wSh m d (qt c i) ∗ oTile d c i f)),
    bigSep_sep' Finset.univ (fun i : Fin 16 => wSh m d (qt c i)) (fun i : Fin 16 => oTile d c i f)]

/-- A SparseCore's operands split among its sixteen subcores, and their results gather. -/
theorem vecSplit : (K (F := F)).VecSplit' (P m) 0 := by
  intro d c
  show iprop(iSh m d (qc (Fin.cast nCore_zero c)) ∗ wSh m d (qc (Fin.cast nCore_zero c)) ∗ oCore d (Fin.cast nCore_zero c) (m (oLoc d)))
    ⊢ |={Set.univ}=> iprop(
      (bigSep Finset.univ fun i : Fin ((K (F := F)).nSub 0) =>
        iprop(iSh m d (qt (Fin.cast nCore_zero c) (Fin.cast nSub_zero i)) ∗ wSh m d (qt (Fin.cast nCore_zero c) (Fin.cast nSub_zero i))
          ∗ oTile d (Fin.cast nCore_zero c) (Fin.cast nSub_zero i) (m (oLoc d))))
      ∗ ((bigSep Finset.univ fun i : Fin ((K (F := F)).nSub 0) =>
          iprop(iSh m d (qt (Fin.cast nCore_zero c) (Fin.cast nSub_zero i)) ∗ wSh m d (qt (Fin.cast nCore_zero c) (Fin.cast nSub_zero i))
            ∗ oTile d (Fin.cast nCore_zero c) (Fin.cast nSub_zero i) (oF m d)))
          -∗ iprop(iSh m d (qc (Fin.cast nCore_zero c)) ∗ wSh m d (qc (Fin.cast nCore_zero c)) ∗ oCore d (Fin.cast nCore_zero c) (oF m d))))
  generalize Fin.cast nCore_zero c = c'
  rw [bigSep_subs (F := F) (fun i => iprop(iSh m d (qt c' i) ∗ wSh m d (qt c' i) ∗ oTile d c' i (m (oLoc d)))),
    bigSep_subs (F := F) (fun i => iprop(iSh m d (qt c' i) ∗ wSh m d (qt c' i) ∗ oTile d c' i (oF m d))),
    bigSep_tiles, bigSep_tiles]
  iintro ⟨Hi, Hw, Ho⟩
  ihave Hi := (Transfers.pointsTo_toks_split (qc c') 16) $$ Hi
  icases Hi with ⟨Hi0, Hi⟩
  ihave Hw := (Transfers.pointsTo_toks_split (qc c') 16) $$ Hw
  icases Hw with ⟨Hw0, Hw⟩
  imodintro
  isplitl [Hi Hw Ho]
  · isplitl [Hi]; · iexact Hi
    isplitl [Hw]; · iexact Hw
    iexact Ho
  iintro ⟨Hi, Hw, Ho⟩
  isplitl [Hi0 Hi]
  · iapply (Transfers.pointsTo_toks_join (qc c') 16)
    isplitl [Hi0]; · iexact Hi0
    iexact Hi
  isplitl [Hw0 Hw]
  · iapply (Transfers.pointsTo_toks_join (qc c') 16)
    isplitl [Hw0]; · iexact Hw0
    iexact Hw
  iexact Ho

/-! ## The device's arrays between the two SparseCores -/

/-- What the two SparseCores hold together: their shares of the two read arrays, and the whole flat result. -/
theorem bigSep_coresAll (d : Dev nD) (f : Buf (Elt F) (oLoc d)) :
    (bigSep Finset.univ fun c : Fin 2 => iprop(iSh m d (qc c) ∗ wSh m d (qc c) ∗ oCore d c f))
      = (iprop((bigSep Finset.univ fun c : Fin 2 => iSh m d (qc c)) ∗ (bigSep Finset.univ fun c : Fin 2 => wSh m d (qc c)) ∗ (oLoc d ↦{fullShare} f)) : sProp 𝕄) := by
  rw [bigSep_sep' Finset.univ (fun c : Fin 2 => iSh m d (qc c)) (fun c : Fin 2 => iprop(wSh m d (qc c) ∗ oCore d c f)),
    bigSep_sep' Finset.univ (fun c : Fin 2 => wSh m d (qc c)) (fun c : Fin 2 => oCore d c f), oPts_tiles]

/-- The TensorCore's three arrays split between the two SparseCores, and their results gather into the whole arrays,
    the flat result now at oF. -/
theorem st_split (d : Dev nD) :
    iprop((iLoc d ↦{fullShare} m (iLoc d)) ∗ (wLoc d ↦{fullShare} wF m d) ∗ (oLoc d ↦{fullShare} m (oLoc d)))
      ⊢ (iprop((bigSep Finset.univ fun c : Fin ((K (F := F)).nCore 0) => (P m).st 0 d c)
          ∗ ((bigSep Finset.univ fun c : Fin ((K (F := F)).nCore 0) => (P m).dn 0 d c)
              -∗ iprop((iLoc d ↦{fullShare} m (iLoc d)) ∗ (wLoc d ↦{fullShare} wF m d) ∗ (oLoc d ↦{fullShare} oF m d)))) : sProp 𝕄) := by
  show iprop((iLoc d ↦{fullShare} m (iLoc d)) ∗ (wLoc d ↦{fullShare} wF m d) ∗ (oLoc d ↦{fullShare} m (oLoc d)))
      ⊢ (iprop((bigSep Finset.univ fun c : Fin ((K (F := F)).nCore 0) =>
            iprop(iSh m d (qc (Fin.cast nCore_zero c)) ∗ wSh m d (qc (Fin.cast nCore_zero c)) ∗ oCore d (Fin.cast nCore_zero c) (m (oLoc d))))
          ∗ ((bigSep Finset.univ fun c : Fin ((K (F := F)).nCore 0) =>
              iprop(iSh m d (qc (Fin.cast nCore_zero c)) ∗ wSh m d (qc (Fin.cast nCore_zero c)) ∗ oCore d (Fin.cast nCore_zero c) (oF m d)))
              -∗ iprop((iLoc d ↦{fullShare} m (iLoc d)) ∗ (wLoc d ↦{fullShare} wF m d) ∗ (oLoc d ↦{fullShare} oF m d)))) : sProp 𝕄)
  rw [bigSep_cores (F := F) (fun c => iprop(iSh m d (qc c) ∗ wSh m d (qc c) ∗ oCore d c (m (oLoc d)))),
    bigSep_cores (F := F) (fun c => iprop(iSh m d (qc c) ∗ wSh m d (qc c) ∗ oCore d c (oF m d))),
    bigSep_coresAll, bigSep_coresAll]
  iintro ⟨Hi, Hw, Ho⟩
  ihave Hi := (Transfers.pointsTo_toks_split fullShare 2) $$ Hi
  icases Hi with ⟨Hi0, Hi⟩
  ihave Hw := (Transfers.pointsTo_toks_split fullShare 2) $$ Hw
  icases Hw with ⟨Hw0, Hw⟩
  isplitl [Hi Hw Ho]
  · isplitl [Hi]; · iexact Hi
    isplitl [Hw]; · iexact Hw
    iexact Ho
  iintro ⟨Hi, Hw, Ho⟩
  isplitl [Hi0 Hi]
  · iapply (Transfers.pointsTo_toks_join fullShare 2)
    isplitl [Hi0]; · iexact Hi0
    iexact Hi
  isplitl [Hw0 Hw]
  · iapply (Transfers.pointsTo_toks_join fullShare 2)
    isplitl [Hw0]; · iexact Hw0
    iexact Hw
  iexact Ho

end Cert.Proof.Kb

end
-- ==== Proof.KbLaunch.lean ====
/-
  The launch side of the kernel's certificate: the ghost state the run starts from, @main on the TensorCore, and how
  the final memory reads the claim.

  @main is three lines.  The first flattens the table: a reshape writes the flat array with the table's elements in
  row-major order, which is the contents `wF`.  The second is the call: the index vector, the flat table and the flat
  result, held whole, are shared out to the two SparseCores (`st_split`), the call runs, and what comes back gathers into
  the three whole arrays again, the flat result now at `oF`.  The third reshapes the flat result to a column, which is
  the contents `rF`.  Around the call the TensorCore's five arrays are held whole at a valuation: the launch contents,
  then the flat table written, then the flat result written, then the column written; an operation changes the
  valuation at the one array it writes.  What @main ends with is the two arguments as at the launch and the column at
  `rF`; the final memory agrees with each array held whole.
-/
import proofs.«206194_g86921548136457_cont_9to1c4b_267_10_alg».proof.Proof.KbSplit
import Idealize.ShloMosaic.Lib.SparseCore.Launch
import Idealize.ShloMosaic.Lib.SparseCore.Threads
import Idealize.ShloMosaic.Lib.StableHlo.Run

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element of the certificate's ghost state -/

/-- The handshakes' cells at their initial rounds, beside the unit of the transfers' counters. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch element gives the handshakes' initial state; no device and no thread is handed anything more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev a' : DevRef τ sig := Proc.devRef .tc (main_arg1 : Ref sig .tc)
abbrev w' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes: the table to one flat row, the flat result to a column. -/
abbrev opW : HloOp τ sig (Elt F) := StableHlo.reshape main_arg1 main_v0 rfl shapeCasts_S1000000x1_S1000000
abbrev opR : HloOp τ sig (Elt F) := StableHlo.reshape main_v1 main_v2 rfl shapeCasts_S16384_S16384x1

/-- The TensorCore's arrays, all unscoped: the index vector, the table, the flat table, the flat result, the column. -/
abbrev S5 : Finset (DevRef τ sig) := {i', a', w', o', r'}

omit [FloatOps F] in
theorem held_S5 (d : Dev nD) (W : Valuation τ sig (Elt F)) :
    (held (T d) S5 W : sProp 𝕄)
      = iprop((iLoc d ↦{fullShare} W i') ∗ (aLoc d ↦{fullShare} W a') ∗ (wLoc d ↦{fullShare} W w')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (aLoc d ↦{fullShare} W main_arg1) ∗ (wLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call (the flat result at `oF`). -/
def V0 (d : Dev nD) : Valuation τ sig (Elt F) := fun b => m (d, b)
def V1 (d : Dev nD) : Valuation τ sig (Elt F) := (opW (F := F)).result (V0 m d)
def V2 (d : Dev nD) : Valuation τ sig (Elt F) := Function.update (V1 m d) o' (oF m d)

omit [FloatOps F] in
theorem unscoped_held (d : Dev nD) : (unscopedBufs d (fun b => m ((SparseCore.T d).loc b)) : sProp 𝕄) = held (T d) S5 (V0 m d) := by
  rw [unscopedBufs_eq, held_S5]; rfl

theorem V1_i (d : Dev nD) : V1 m d i' = m (iLoc d) := by
  unfold V1
  rw [(opW (F := F)).result_of_not_mem _ (show i' ∉ ({w'} : Finset (DevRef τ sig)) by decide)]
  rfl
theorem V1_a (d : Dev nD) : V1 m d a' = m (aLoc d) := by
  unfold V1
  rw [(opW (F := F)).result_of_not_mem _ (show a' ∉ ({w'} : Finset (DevRef τ sig)) by decide)]
  rfl
theorem V1_o (d : Dev nD) : V1 m d o' = m (oLoc d) := by
  unfold V1
  rw [(opW (F := F)).result_of_not_mem _ (show o' ∉ ({w'} : Finset (DevRef τ sig)) by decide)]
  rfl
theorem V1_r (d : Dev nD) : V1 m d r' = m (rLoc d) := by
  unfold V1
  rw [(opW (F := F)).result_of_not_mem _ (show r' ∉ ({w'} : Finset (DevRef τ sig)) by decide)]
  rfl
/-- The first reshape writes the flat table: the table's elements in row-major order. -/
theorem V1_w (d : Dev nD) : V1 m d w' = wF m d := by
  unfold V1
  rw [StableHlo.reshape_result]
  rfl

theorem V2_i (d : Dev nD) : V2 m d i' = m (iLoc d) := (Function.update_of_ne (show i' ≠ o' by decide) _ _).trans (V1_i m d)
theorem V2_a (d : Dev nD) : V2 m d a' = m (aLoc d) := (Function.update_of_ne (show a' ≠ o' by decide) _ _).trans (V1_a m d)
theorem V2_w (d : Dev nD) : V2 m d w' = wF m d := (Function.update_of_ne (show w' ≠ o' by decide) _ _).trans (V1_w m d)
theorem V2_o (d : Dev nD) : V2 m d o' = oF m d := Function.update_self _ _ _
theorem V2_r (d : Dev nD) : V2 m d r' = m (rLoc d) := (Function.update_of_ne (show r' ≠ o' by decide) _ _).trans (V1_r m d)

/-- The five arrays after the first reshape. -/
theorem held_V1 (d : Dev nD) :
    (held (T d) S5 ((opW (F := F)).result (V0 m d)) : sProp 𝕄)
      = iprop((iLoc d ↦{fullShare} m (iLoc d)) ∗ (aLoc d ↦{fullShare} m (aLoc d)) ∗ (wLoc d ↦{fullShare} wF m d)
          ∗ (oLoc d ↦{fullShare} m (oLoc d)) ∗ rLoc d ↦{fullShare} m (rLoc d)) := by
  show held (SparseCore.T d) S5 (V1 m d) = _
  rw [held_S5, V1_i, V1_a, V1_w, V1_o, V1_r]

/-- The five arrays after the second reshape: the column at `rF`. -/
theorem held_V3 (d : Dev nD) :
    (held (T d) S5 ((opR (F := F)).result (V2 m d)) : sProp 𝕄)
      = iprop((iLoc d ↦{fullShare} m (iLoc d)) ∗ (aLoc d ↦{fullShare} m (aLoc d)) ∗ (wLoc d ↦{fullShare} wF m d)
          ∗ (oLoc d ↦{fullShare} oF m d) ∗ rLoc d ↦{fullShare} rF m d) := by
  rw [held_S5,
    (opR (F := F)).result_of_not_mem _ (show i' ∉ ({r'} : Finset (DevRef τ sig)) by decide),
    (opR (F := F)).result_of_not_mem _ (show a' ∉ ({r'} : Finset (DevRef τ sig)) by decide),
    (opR (F := F)).result_of_not_mem _ (show w' ∉ ({r'} : Finset (DevRef τ sig)) by decide),
    (opR (F := F)).result_of_not_mem _ (show o' ∉ ({r'} : Finset (DevRef τ sig)) by decide),
    V2_i, V2_a, V2_w, V2_o,
    show (opR (F := F)).result (V2 m d) r' = rF m d from by
      rw [StableHlo.reshape_result, V2_o]; rfl]

theorem hW : (opW (F := F)).bufs ⊆ S5 := show ({a', w'} : Finset (DevRef τ sig)) ⊆ S5 by decide
theorem hR : (opR (F := F)).bufs ⊆ S5 := show ({o', r'} : Finset (DevRef τ sig)) ⊆ S5 by decide

/-- What @main ends with: the two arguments as at the launch, the result column at rF. -/
abbrev FIN (d : Dev nD) : sProp 𝕄 := iprop((iLoc d ↦{fullShare} m (iLoc d)) ∗ (aLoc d ↦{fullShare} m (aLoc d)) ∗ (rLoc d ↦{fullShare} rF m d))

/-- @main on device `d`'s TensorCore: the table flattened, the call from the index vector, the flat table and the flat
    result shared out to the SparseCores and gathered again, the flat result reshaped to the column; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table flattened
  iapply (wp_hlo_within 𝒱 (SparseCore.T d) none Set.univ (op := opW) (S := S5) hW (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Ha, Hw, Ho, Hr⟩
  -- the call: the three arrays to the SparseCores and back
  ihave Hs := (st_split (F := F) m d) $$ [Hi Hw Ho]
  · isplitl [Hi]; · iexact Hi
    isplitl [Hw]; · iexact Hw
    iexact Ho
  icases Hs with ⟨Hst0, Hback⟩
  iapply ((K (F := F)).wp_run (D (F := F)) 𝒱 (EH := EH) (P := P m) κ d 0) $$ [Hst Hst0 Hback Hb Ha Hr]
  isplitr; · iexact Hctx
  isplitl [Hst]; · iexact Hst
  isplitl [Hst0]; · iexact Hst0
  iintro ⟨Hst, Hdn⟩
  ispecialize Hback $$ Hdn
  icases Hback with ⟨Hi, Hw, Ho⟩
  -- the flat result reshaped to the column
  iapply (wp_hlo_within 𝒱 (SparseCore.T d) none Set.univ (op := opR) (S := S5) hR (V := V2 m d)) $$ [Hb Hi Ha Hw Ho Hr]
  · isplitl [Hb]; · iexact Hb
    rw [held_S5, V2_i, V2_a, V2_w, V2_o, V2_r]
    isplitl [Hi]; · iexact Hi
    isplitl [Ha]; · iexact Ha
    isplitl [Hw]; · iexact Hw
    isplitl [Ho]; · iexact Ho
    iexact Hr
  iintro ⟨Hb, Hheld⟩
  ihave Hh := (Entails.of_eq (held_V3 (F := F) m d)) $$ Hheld
  icases Hh with ⟨Hi, Ha, -, -, Hr⟩
  rw [wp_ret]; imodintro; imodintro
  isplitl [Hst]; · iexact Hst
  isplitl [Hi]; · iexact Hi
  isplitl [Ha]; · iexact Ha
  iexact Hr

/-! ## The final memory -/

/-- The final memory has the two arguments as at the launch and the result column at `rF`. -/
def fq (d : Dev nD) (s' : Phys nD τ sig (Elt F)) : Prop :=
  s'.mem.mem (iLoc d) = m (iLoc d) ∧ s'.mem.mem (aLoc d) = m (aLoc d) ∧ s'.mem.mem (rLoc d) = rF m d

set_option maxRecDepth 16384 in
/-- An array held whole is what the memory holds there. -/
theorem hfin (d : Dev nD) (s' : Phys nD τ sig (Elt F)) : iprop(FIN m d ∗ SI s') ⊢ (⌜fq m d s'⌝ : sProp 𝕄) := by
  iintro ⟨⟨Hi, Ha, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := rF m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

end Cert.Proof.Kb

end
-- ==== Proof.KbRun.lean ====
/-
  The kernel's run: every weakly fair execution of all its threads ends, nothing faulting, with the two arguments as
  at the launch and the result column at `rF`: the reshaped flat result, entry `n` the lane function of the flattened table
  at the row the index word `idx n` names.  From the subcores' obligation, the split of each SparseCore's operands among
  its subcores, and @main on the TensorCore, by the library's launch theorem for SparseCore programs.
-/
import proofs.«206194_g86921548136457_cont_9to1c4b_267_10_alg».proof.Proof.KbObl
import proofs.«206194_g86921548136457_cont_9to1c4b_267_10_alg».proof.Proof.KbLaunch

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

/-- What the run ends with, on every device. -/
def QC : PUnit × MemSt nD τ sig (Elt F) → Prop :=
  fun r => ∀ c : Dev nD, r.2.mem (iLoc c) = m (iLoc c) ∧ r.2.mem (aLoc c) = m (aLoc c) ∧ r.2.mem (rLoc c) = rF m c

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Kb

end
-- ==== Proof.KIValue.lean ====
/-
  On the extended reals the kernel's result column is the specification.

  Entry `(n, 0)` of the column is entry `n` of the flat result (row-major position `1 · n + 0`), which is the lane function
  of the flat table at the row `r` the index word `idx n` names; the flat table at `r` is the table at `(r, 0)` (row-major
  position `1 · r + 0` again); and on the extended reals the lane function is the logistic function.
-/
import proofs.«206194_g86921548136457_cont_9to1c4b_267_10_alg».proof.Proof.KISetup
import Idealize.ShloMosaic.Lib.Pipeline.Value
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- Entry `(n, 0)` of the result column is entry `n` of the flat result. -/
theorem rF_apply (m : (ℓ : Loc nD τ sig) → Buf (Elt Ideal) ℓ) (d : Dev nD) (n : Fin 16384) :
    rF (F := Ideal) m d (ValueIdx.ix2 n (0 : Fin 1)) = oF m d (ValueIdx.ix1 n) := by
  unfold rF
  exact shapeCast_apply _ _ _ _ (by
    show (S16384.rowMajor (ValueIdx.ix1 n)).val = (S16384x1.rowMajor (ValueIdx.ix2 n (0 : Fin 1))).val
    rw [Shape.rowMajor_val_one, Shape.rowMajor_val_two]; simp)

/-- Entry `r` of the flat table is entry `(r, 0)` of the table. -/
theorem wF_apply (m : (ℓ : Loc nD τ sig) → Buf (Elt Ideal) ℓ) (d : Dev nD) (r : Fin 1000000) :
    wF (F := Ideal) m d (ValueIdx.ix1 r) = m (aLoc d) (ValueIdx.ix2 r (0 : Fin 1)) := by
  unfold wF
  exact shapeCast_apply _ _ _ _ (by
    show (S1000000x1.rowMajor (ValueIdx.ix2 r (0 : Fin 1))).val = (S1000000.rowMajor (ValueIdx.ix1 r)).val
    rw [Shape.rowMajor_val_two, Shape.rowMajor_val_one]; simp)

theorem rF_eq_G (m : (ℓ : Loc nD τ sig) → Buf (Elt Ideal) ℓ) (d : Dev nD) :
    rF (F := Ideal) m d = Cert.Spec.G (m (iLoc d)) (m (aLoc d)) := by
  funext j
  obtain ⟨n, z, rfl⟩ : ∃ (n : Fin 16384) (z : Fin 1), j = ValueIdx.ix2 n z := ⟨j 0, j 1, ValueIdx.eq_ix2 j⟩
  obtain rfl : z = 0 := Fin.fin_one_eq_zero z
  rw [rF_apply]
  show Cert.Spec.lane (F := Ideal) (wF (F := Ideal) m d (ValueIdx.ix1 (Cert.Spec.row (m (iLoc d) (ValueIdx.ix1 n)))))
    = Cert.Spec.logi (m (aLoc d) (ValueIdx.ix2 (Cert.Spec.row (m (iLoc d) (ValueIdx.ix1 n))) (0 : Fin 1)))
  rw [Cert.Spec.lane_eq_logi, wF_apply]

end Cert.Proof.KI

end
-- ==== Proof.RefRun.lean ====
/-
  The idealized reference's run, read back.

  The reference is `take(W, idx, axis = 0)` followed by the logistic function.  Its `@main` calls `@_take`,
  which calls `@_where`; unfolding both calls at their buffer records makes `@main` one straight line of
  thirty-one host operations (`ops`).  Every weakly fair execution of a straight line terminates with each
  buffer at the fold of the operations' results over the launch contents, so the result buffer ends at the
  operations' composed term of the two arguments (`out`), and the arguments end unchanged (`run_out`).

  The composed term is named in stages: the index vector with negative words wrapped by the table's
  extent (`wrapped`), that vector as a column (`col`), the in-range mask of the column (`mask`), the gathered
  rows with the default word where the mask is off (`taken`), and the logistic function of that (`out`).
-/
import proofs.«206194_g86921548136457_cont_9to1c4b_267_10_alg».proof.ReferenceIdeal
import proofs.«206194_g86921548136457_cont_9to1c4b_267_10_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The index vector after `where(idx < 0, idx + 1000000, idx)`. -/
def wrapped (idx : (⟨S16384, .i32⟩ : BufTy).Contents (Elt F)) : (⟨S16384, .i32⟩ : BufTy).Contents (Elt F) :=
  select (cmpi .slt idx (broadcastInDim S16384 ![] bcast_S_S16384 (constantI S_ 32 0#32)))
    (addi idx (broadcastInDim S16384 ![] bcast_S_S16384 (constantI S_ 32 1000000#32))) idx

/-- The wrapped index vector as a column. -/
def col (idx : (⟨S16384, .i32⟩ : BufTy).Contents (Elt F)) : (⟨S16384x1, .i32⟩ : BufTy).Contents (Elt F) :=
  broadcastInDim S16384x1 ![0] bcast_S16384_S16384x1_0 (wrapped idx)

/-- The in-range mask: per row, whether the column's word is at least 0 and at most 999999, as a column. -/
def mask (idx : (⟨S16384, .i32⟩ : BufTy).Contents (Elt F)) : (⟨S16384x1, .i1⟩ : BufTy).Contents (Elt F) :=
  broadcastInDim S16384x1 ![0] bcast_S16384_S16384x1_0
    (Host.reduce IntOp.andi
      (andi (cmpi .sge (col idx) (broadcastInDim S16384x1 ![] bcast_S_S16384x1 (constantI S_ 32 0#32)))
        (cmpi .sle (col idx)
          (broadcastInDim S16384x1 ![0, 1] bcast_S1x1_S16384x1_0_1
            (broadcastInDim S1x1 ![1] bcast_S1_S1x1_1 (constantI S1 32 999999#32)))))
      (constantI S_ 1 1#1) reducesTo_S16384x1_S16384_d1 h_S_)

/-- The gathered rows, the default word where the mask is off. -/
def taken (idx : (⟨S16384, .i32⟩ : BufTy).Contents (Elt F)) (W : (⟨S1000000x1, .f32⟩ : BufTy).Contents (Elt F)) :
    (⟨S16384x1, .f32⟩ : BufTy).Contents (Elt F) :=
  select (mask idx) (Host.gather gather_S1000000x1_S16384x1_S16384x1_1_0_n_n_0_1_11 W (col idx))
    (broadcastInDim S16384x1 ![] bcast_S_S16384x1 (constant S_ .f32 0x7FC00000#32))

/-- The reference's result: `1 / (1 + exp (-x))` of the taken rows, the ones the broadcast word `0x3F800000`. -/
def out (idx : (⟨S16384, .i32⟩ : BufTy).Contents (Elt F)) (W : (⟨S1000000x1, .f32⟩ : BufTy).Contents (Elt F)) :
    (⟨S16384x1, .f32⟩ : BufTy).Contents (Elt F) :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (taken idx W))))

/-! ## The straight line -/

/-- @main's thirty-one operations in order, the calls unfolded: `@_take`'s twenty-three over the record
    `main_call0` (the seventh `@_where`'s select, over `main_call0.call0`), then @main's own eight. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x1_S16384x1_S16384x1_1_0_n_n_0_1_11 x i),
    TRef.unary main_call0.v12 main_call0.v14 (broadcastInDim S16384x1 ![0] bcast_S16384_S16384x1_0),
    TRef.nullary main_call0.cst (constant S_ .f32 0x7FC00000#32),
    TRef.unary main_call0.cst main_call0.v15 (broadcastInDim S16384x1 ![] bcast_S_S16384x1),
    TRef.ternary main_call0.v14 main_call0.v13 main_call0.v15 main_call0.v16 select,
    unary main_v0 main_v1 (Host.negf : (⟨S16384x1, .f32⟩ : BufTy).Contents (Elt F) → (⟨S16384x1, .f32⟩ : BufTy).Contents (Elt F)),
    unary main_v1 main_v2 (Host.exp : (⟨S16384x1, .f32⟩ : BufTy).Contents (Elt F) → (⟨S16384x1, .f32⟩ : BufTy).Contents (Elt F)),
    nullary main_cst (constant S_ .f32 0x3F800000#32),
    unary main_cst main_v3 (broadcastInDim S16384x1 ![] bcast_S_S16384x1 : (⟨S_, .f32⟩ : BufTy).Contents (Elt F) → (⟨S16384x1, .f32⟩ : BufTy).Contents (Elt F)),
    binary main_v3 main_v2 main_v4 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v5 (broadcastInDim S16384x1 ![] bcast_S_S16384x1 : (⟨S_, .f32⟩ : BufTy).Contents (Elt F) → (⟨S16384x1, .f32⟩ : BufTy).Contents (Elt F)),
    binary main_v5 main_v4 main_v6 (Host.divf : (⟨S16384x1, .f32⟩ : BufTy).Contents (Elt F) → (⟨S16384x1, .f32⟩ : BufTy).Contents (Elt F) → (⟨S16384x1, .f32⟩ : BufTy).Contents (Elt F)) ]

set_option maxRecDepth 1024 in
/-- @main is that straight line: the two functions' definitions unfolded at their calls, both sides are one
    chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., nullary_bufs_sub .., unary_bufs_sub .., binary_bufs_sub .., nullary_bufs_sub ..,
    unary_bufs_sub .., binary_bufs_sub ..⟩

attribute [local irreducible] Host.reduce Host.gather in
/-- The fold of the operations at the result buffer is the composed term of the launch contents of the two
    arguments: each operation's result decides whether the buffer read is the one it writes, and the typed
    references' transports are the identity at these literal references.  The reduction and the gather stay
    folded meanwhile: the equation never looks inside them. -/
theorem out_eq (V : Valuation τ sig (Elt F)) :
    after ops V (main_v6 : DevRef τ sig) = out (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, for any float values, from any memory with zero counters: every weakly fair execution of
    @main terminates with the result buffer at the composed term of the arguments and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (out_eq _), (h c main_arg0).trans (arg0_eq _),
      (h c main_arg1).trans (arg1_eq _)⟩)
    (run_seq scopedRefs_eq scopedSems_eq defs main (fun _ => ops) main_eq (fun _ => ops_sub) m ρ)

end Cert.RefSide

end
-- ==== Proof.RefValue.lean ====
/-
  The reference's composed term is the specification.

  Under the precondition every index word `w` has `w.toNat < 1000000`.  Read as a signed word it is then its own
  natural number: not negative, at least `0`, at most `999999`.  So the three comparisons the reference makes are
  decided (`cmpi_slt_zero`, `cmpi_sge_zero`, `cmpi_sle_max`): the `where` keeps the word (`wrapped_apply`), the
  in-range mask is `1` on every row — an `and`-reduction of ones from the initial one (`reduce_and_one`,
  `mask_apply`) — and the select keeps the gathered value.  The gather, with the row axis collapsed and the
  start index on it, reads row `n` of the result at the table's row `min w 999999` for `w` the column's word at
  row `n` read signed (`gather_apply`): the specification's `row` (`taken_apply`).  The four float operations
  after it are pointwise, and at the extended reals they are `1 / (1 + exp (-x))` with the units the word
  `0x3F800000` on both sides (`out_eq_G`).  With the run of the straight line that is the statement `run`.
-/
import proofs.«206194_g86921548136457_cont_9to1c4b_267_10_alg».proof.Proof.RefRun
import proofs.«206194_g86921548136457_cont_9to1c4b_267_10_alg».proof.Proof.Spec
import Idealize.ShloMosaic.Lib.ValueIdx
import Idealize.ShloMosaic.PureOps.Ideal

noncomputable section

namespace Cert.RefSide

open Cert.ReferenceIdeal Cert.ReferenceIdeal.Gen Idealize.ShloMosaic Idealize.ShloMosaic.ValueIdx Idealize.SL.Sem

/-! ## A word below the table's extent -/

section Word
variable {w : BitVec 32}

/-- Read signed, a word below the extent is its natural number. -/
theorem toInt_of_lt (h : w.toNat < 1000000) : w.toInt = (w.toNat : Int) := by
  rw [BitVec.toInt_eq_toNat_cond]; split <;> omega

theorem toInt_toNat_of_lt (h : w.toNat < 1000000) : w.toInt.toNat = w.toNat := by
  rw [toInt_of_lt h]; rfl

/-- It is not negative … -/
theorem cmpi_slt_zero (h : w.toNat < 1000000) : IntOp.cmpi .slt w 0#32 = 0#1 := by
  have h1 := toInt_of_lt h
  have h2 : w.slt 0#32 = false := by
    rw [BitVec.slt, decide_eq_false_iff_not, BitVec.toInt_zero]; omega
  show BitVec.ofBool (w.slt 0#32) = 0#1
  rw [h2]; rfl

/-- … it is at least zero … -/
theorem cmpi_sge_zero (h : w.toNat < 1000000) : IntOp.cmpi .sge w 0#32 = 1#1 := by
  have h1 := toInt_of_lt h
  have h2 : (0#32 : BitVec 32).sle w = true := by
    rw [BitVec.sle, decide_eq_true_iff, BitVec.toInt_zero]; omega
  show BitVec.ofBool ((0#32 : BitVec 32).sle w) = 1#1
  rw [h2]; rfl

/-- … and at most the last row. -/
theorem cmpi_sle_max (h : w.toNat < 1000000) : IntOp.cmpi .sle w 999999#32 = 1#1 := by
  have h1 := toInt_of_lt h
  have h3 : (999999#32 : BitVec 32).toInt = 999999 := by decide
  have h2 : w.sle 999999#32 = true := by
    rw [BitVec.sle, decide_eq_true_iff, h3]; omega
  show BitVec.ofBool (w.sle 999999#32) = 1#1
  rw [h2]; rfl

end Word

/-! ## The gather and the reduction, read at an index -/

/-- The gather of rows read at `(n, z)`: the row axis of the operand is collapsed and carries the start index,
    the column axis is the offset axis of extent one, so the element read is the operand's at row
    `min w 999999`, column `0`, for `w` the start index at `(n, 0)` read signed. -/
theorem gather_apply {α : Type} {v : Nat} (x : S1000000x1.Idx → α) (i : IVec S16384x1 v) (n : Fin 16384) (z : Fin 1) :
    Host.gather gather_S1000000x1_S16384x1_S16384x1_1_0_n_n_0_1_11 x i (ix2 n z)
      = x (ix2 ⟨min (i (ix2 n 0)).toInt.toNat 999999, by omega⟩ 0) := by
  unfold Host.gather
  congr 1
  funext a
  refine Fin.ext ?_
  match a with
  | ⟨0, _⟩ =>
    show GatherDims.start _ (ix2 n z) i 0 + GatherDims.batchCoord _ (ix2 n z) 0 + GatherDims.offCoord _ (ix2 n z) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x1_S16384x1_S16384x1_1_0_n_n_0_1_11.startIndexMap from List.mem_singleton.mpr rfl)]
    have hsi : gather_S1000000x1_S16384x1_S16384x1_1_0_n_n_0_1_11.siIdx (ix2 n z)
        ⟨List.idxOf (0 : Fin 2) gather_S1000000x1_S16384x1_S16384x1_1_0_n_n_0_1_11.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    obtain rfl : z = 0 := Subsingleton.elim _ _
    rfl

/-- An `and`-reduction of an array of ones from an initial one is one at every index: the fold never leaves `1`. -/
theorem reduce_and_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter _ = l
  induction l with
  | nil => rfl
  | cons a l ih => rw [List.foldl_cons, hx]; exact ih

/-! ## The composed term's stages at an index -/

section Stages
variable (idx : (⟨S16384, .i32⟩ : BufTy).Contents (Elt Ideal)) (W : (⟨S1000000x1, .f32⟩ : BufTy).Contents (Elt Ideal))

/-- The `where` keeps a word below the extent. -/
theorem wrapped_apply (n : Fin 16384) (h : (idx (ix1 n)).toNat < 1000000) :
    wrapped (F := Ideal) idx (ix1 n) = idx (ix1 n) := by
  show Scalar.select (IntOp.cmpi .slt (idx (ix1 n)) 0#32) _ (idx (ix1 n)) = _
  rw [cmpi_slt_zero h, select_zero]

/-- The column at `(n, z)` is the wrapped vector at `n`. -/
theorem col_apply (n : Fin 16384) (z : Fin 1) : col (F := Ideal) idx (ix2 n z) = wrapped (F := Ideal) idx (ix1 n) := by
  show wrapped (F := Ideal) idx _ = _
  congr 1
  funext a
  match a with
  | ⟨0, _⟩ => rfl

/-- With every word below the extent the in-range mask is one everywhere. -/
theorem mask_apply (h : ∀ j, (idx j).toNat < 1000000) (j : S16384x1.Idx) : mask (F := Ideal) idx j = 1#1 := by
  show Host.reduce IntOp.andi _ _ _ _ _ = 1#1
  refine reduce_and_one _ _ _ _ (fun i => ?_) (fun _ => rfl) _
  obtain ⟨n, z, rfl⟩ : ∃ (n : Fin 16384) (z : Fin 1), i = ix2 n z := ⟨i 0, i 1, eq_ix2 i⟩
  show IntOp.andi (IntOp.cmpi .sge (col (F := Ideal) idx (ix2 n z)) 0#32)
    (IntOp.cmpi .sle (col (F := Ideal) idx (ix2 n z)) 999999#32) = 1#1
  rw [col_apply, wrapped_apply idx n (h _), cmpi_sge_zero (h _), cmpi_sle_max (h _)]
  rfl

/-- With every word below the extent the taken value at `(n, z)` is the table's at the row the word names. -/
theorem taken_apply (h : ∀ j, (idx j).toNat < 1000000) (n : Fin 16384) (z : Fin 1) :
    taken (F := Ideal) idx W (ix2 n z) = W (ix2 (Cert.Spec.row (idx (ix1 n))) (0 : Fin 1)) := by
  unfold taken
  rw [select_apply, mask_apply idx h, select_one, gather_apply]
  refine congrArg (fun r : Fin 1000000 => W (ix2 r (0 : Fin 1))) (Fin.ext ?_)
  show min (col (F := Ideal) idx (ix2 n 0)).toInt.toNat 999999 = min (idx (ix1 n)).toNat 999999
  rw [col_apply, wrapped_apply idx n (h _), toInt_toNat_of_lt (h _)]

/-- The four float operations after the take are pointwise: at the extended reals, `1 / (1 + exp (-x))` of the
    taken value, the units the word `0x3F800000`. -/
theorem out_apply (j : S16384x1.Idx) :
    out (F := Ideal) idx W j = Ideal.div (Ideal.ofBits .f32 0x3F800000#32)
      (Ideal.ofBits .f32 0x3F800000#32 + Ideal.exp (-(taken (F := Ideal) idx W j))) := by
  simp only [out, Host.divf, Host.exp, Host.negf, Idealize.ShloMosaic.addf, broadcastInDim, constant,
    Ideal.hostDivf_def, Ideal.addf_def, Ideal.hostUnary_exp_def, Ideal.hostNegf_def, Ideal.negf_def, Ideal.ofBits_def]

/-- THE VALUE: with every index word below the extent the reference's composed term is the specification. -/
theorem out_eq_G (h : ∀ j, (idx j).toNat < 1000000) : out (F := Ideal) idx W = Cert.Spec.G idx W := by
  funext j
  obtain ⟨n, z, rfl⟩ : ∃ (n : Fin 16384) (z : Fin 1), j = ix2 n z := ⟨j 0, j 1, eq_ix2 j⟩
  rw [out_apply, taken_apply idx W h]
  unfold Cert.Spec.G Cert.Spec.logi
  rfl

end Stages

/-! ## The run -/

/-- Every index word is below the table's extent. -/
def IdxOK (m : (ℓ : Loc nD τ sig) → Buf (Elt Ideal) ℓ) : Prop :=
  ∀ (c : Dev nD) (j : S16384.Idx), (m ((c.tc : Thread nD τ).loc main_arg0) j).toNat < 1000000

/-- On every device, from any memory with zero counters whose index words are below the extent: every weakly fair
    execution of the reference terminates with the result buffer at the specification of the two arguments' launch
    contents, and the arguments unchanged. -/
theorem run (m : (ℓ : Loc nD τ sig) → Buf (Elt Ideal) ℓ) (ρ : Dev nD → PrngReg) (h : IdxOK m) :
    θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨(hr c).1.trans (out_eq_G _ _ (h c)), (hr c).2⟩) (run_out m ρ)

end Cert.RefSide

end
-- ==== Proof.PreIdx.lean ====
/-
  The precondition's index half, read back: every index word is below 1000000.

  The precondition is the conjunction of two `all`s, each a reduction by `and` from 1 over every axis.
  Its value being 1 gives, by splitting the outer `and`, that the reduction over the index words is 1;
  hence each of its elements is 1; such an element is `(0 ≤ v) and (v ≤ 999999)` with both comparisons
  signed. A 32-bit word that is non-negative as a signed number reads the same unsigned, so its
  unsigned value is at most 999999. The floating-point half of the conjunction is discarded unopened.
-/
import proofs.«206194_g86921548136457_cont_9to1c4b_267_10_alg».proof.Pre_input_domain
import proofs.«206194_g86921548136457_cont_9to1c4b_267_10_alg».proof.Proof.Gen.Pre_input_domain
import proofs.«206194_g86921548136457_cont_9to1c4b_267_10_alg».proof.Defs
import Idealize.ShloMosaic.Lib.ReduceAll
import Idealize.ShloMosaic.Lib.ValueIdx

namespace Cert.PreIdx

open Idealize.ShloMosaic

/-- The rank-0 shape has one index. -/
instance : Subsingleton Cert.Pre_input_domain.S_.Idx := ⟨fun a b => funext fun d => d.elim0⟩

/-- A word that tests signed `0 ≤ v` and signed `v ≤ 999999` has unsigned value below 1000000. -/
theorem word_lt (v : BitVec 32)
    (h : IntOp.andi (IntOp.cmpi .sge v 0#32) (IntOp.cmpi .sle v 999999#32) = 1#1) : v.toNat < 1000000 := by
  obtain ⟨h0, h1⟩ := IntOp.andi_eq_one.1 h
  rw [IntOp.cmpi_sge] at h0
  rw [IntOp.cmpi_sle] at h1
  rw [show (0#32 : BitVec 32).toInt = 0 from by decide] at h0
  rw [show (999999#32 : BitVec 32).toInt = 999999 from by decide] at h1
  rw [BitVec.toInt_eq_toNat_cond] at h0 h1
  have := v.isLt
  split at h0 <;> omega

theorem idx_lt {F : FTy → Type} [FloatOps F] (idx : IVec Cert.Pre_input_domain.S16384 32) (W : FVec F Cert.Pre_input_domain.S1000000x1 .f32)
    (h : Cert.Pre_input_domain.fn (F := F) idx W = (fun _ => 1#1)) : ∀ j : Cert.Pre_input_domain.S16384.Idx, (idx j).toNat < 1000000 := by
  intro j
  have e := congrFun h ValueIdx.ix0
  dsimp only [Cert.Pre_input_domain.fn] at e
  have e2 := (IntOp.andi_eq_one.1 e).2
  clear e h
  have e3 := Host.reduce_andi_all _ _ _ _ _ e2 j
  exact word_lt _ e3

/-! ## The same fact, in the claim's spelling: of each program's index argument buffer, on every device -/

theorem kernel_idx_lt (m : (ℓ : Loc Cert.Kernel.nD Cert.Kernel.τ Cert.Kernel.sig) → Buf (Elt Bits) ℓ) (h : Cert.Pre_Kernel m) :
    ∀ (c : Dev Cert.Kernel.nD) (j : Cert.Kernel.S16384.Idx), (m ((c.tc : Thread Cert.Kernel.nD Cert.Kernel.τ).loc Cert.Kernel.main_arg0) j).toNat < 1000000 :=
  fun c j => idx_lt _ _ (h c) j

theorem kernelIdeal_idx_lt (m : (ℓ : Loc Cert.KernelIdeal.nD Cert.KernelIdeal.τ Cert.KernelIdeal.sig) → Buf (Elt Ideal) ℓ) (h : Cert.Pre_KernelIdeal m) :
    ∀ (c : Dev Cert.KernelIdeal.nD) (j : Cert.KernelIdeal.S16384.Idx), (m ((c.tc : Thread Cert.KernelIdeal.nD Cert.KernelIdeal.τ).loc Cert.KernelIdeal.main_arg0) j).toNat < 1000000 :=
  fun c j => idx_lt _ _ (h c) j

theorem referenceIdeal_idx_lt (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : Cert.ReferenceIdeal.S16384.Idx), (m ((c.tc : Thread Cert.ReferenceIdeal.nD Cert.ReferenceIdeal.τ).loc Cert.ReferenceIdeal.main_arg0) j).toNat < 1000000 :=
  fun c j => idx_lt _ _ (h c) j

end Cert.PreIdx
-- ==== Proof.lean ====
/-
  An embedding lookup followed by the logistic function: for 16384 index words `idx` and a one-column table `W` of
  1000000 rows, entry `n` of the result is `1 / (1 + exp (-W[idx n]))`.

  THE KERNEL runs on the two SparseCores' thirty-two vector subcores.  Subcore `s` of SparseCore `c` owns the 512
  consecutive entries from `1024 s + 512 c` on: it copies its 512 index words into its own memory, gathers the table
  rows they name (the table flattened to one row by the host beforehand), replaces each gathered entry `x` by
  `1 / (1 + exp (0 - x))` sixteen at a time, and copies the 512 results onto its part of the flat result, which the host
  reshapes to a column.  THE REFERENCE is `take` along axis 0 — negative words wrapped, words out of range masked to a
  filler — followed by negate, exponential, add one, divide one by it.

  The certificate's precondition says every index word is between 0 and 999999 (`Cert.PreIdx`): so every gather names
  rows of the table and no thread is left without a step, the reference's wrap keeps each word and its mask is all
  ones.  Both programs then compute, at the extended reals, the one function `Cert.Spec.G` of the argument arrays
  (`0 - x = -x` there, infinities included; no other law is used, so finiteness of `W` is never opened):
  the kernel's run ends with the result at the reshaped flat result (`Cert.Proof.KI.run_main`), which is `G`
  (`Cert.Proof.KI.rF_eq_G`), and the reference's with the result at `G` (`Cert.RefSide.run`).  The three frames are the
  same runs with the values dropped, the kernel's at the word-level instance from the same text read over the printed
  word-level program (`Cert.Proof.Kb`); the ideal pass rewrote nothing, so `preserves` asks nothing.
-/
import proofs.«206194_g86921548136457_cont_9to1c4b_267_10_alg».proof.Defs
import proofs.«206194_g86921548136457_cont_9to1c4b_267_10_alg».proof.Proof.Gen.Kernel
import proofs.«206194_g86921548136457_cont_9to1c4b_267_10_alg».proof.Proof.Gen.Kernel.Skeleton
import proofs.«206194_g86921548136457_cont_9to1c4b_267_10_alg».proof.Proof.Gen.KernelIdeal
import proofs.«206194_g86921548136457_cont_9to1c4b_267_10_alg».proof.Proof.Gen.KernelIdeal.Skeleton
import proofs.«206194_g86921548136457_cont_9to1c4b_267_10_alg».proof.Proof.Gen.ReferenceIdeal
import proofs.«206194_g86921548136457_cont_9to1c4b_267_10_alg».proof.Proof.Gen.Pre_input_domain
import proofs.«206194_g86921548136457_cont_9to1c4b_267_10_alg».proof.Proof.KIRun
import proofs.«206194_g86921548136457_cont_9to1c4b_267_10_alg».proof.Proof.KbRun
import proofs.«206194_g86921548136457_cont_9to1c4b_267_10_alg».proof.Proof.KIValue
import proofs.«206194_g86921548136457_cont_9to1c4b_267_10_alg».proof.Proof.RefValue
import proofs.«206194_g86921548136457_cont_9to1c4b_267_10_alg».proof.Proof.PreIdx
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ hpre =>
  (θ_run Cert.Kernel.defs _ _).mono (fun _ h c => ⟨(h c).1, (h c).2.1⟩)
    (Cert.Proof.Kb.run_main (F := Bits) m ρ (Cert.PreIdx.kernel_idx_lt m hpre))

/-- The idealized kernel runs and leaves its arguments as they were. -/
theorem frame_ki : Cert.frame_KernelIdeal := fun m ρ hpre =>
  (θ_run Cert.KernelIdeal.defs _ _).mono (fun _ h c => ⟨(h c).1, (h c).2.1⟩)
    (Cert.Proof.KI.run_main (F := Ideal) m ρ (Cert.PreIdx.kernelIdeal_idx_lt m hpre))

/-- The idealized reference runs and leaves its arguments as they were. -/
theorem frame_ri : Cert.frame_ReferenceIdeal := fun m ρ hpre =>
  (θ_run Cert.ReferenceIdeal.defs _ _).mono (fun _ h c => (h c).2)
    (Cert.RefSide.run m ρ (Cert.PreIdx.referenceIdeal_idx_lt m hpre))

/-- The ideal pass rewrote no operation. -/
theorem preserves : Cert.preserves_Kernel_KernelIdeal := trivial

/-- From memories agreeing on the arguments both idealized programs end with the result at `Cert.Spec.G` of them. -/
theorem algebraic : Cert.algebraic_KernelIdeal_ReferenceIdeal := by
  intro m ρ m' ρ' hpre hagree
  have ok := Cert.PreIdx.kernelIdeal_idx_lt m hpre
  have ok' : Cert.RefSide.IdxOK m' := fun c j => by rw [(hagree c).1]; exact ok c j
  refine ⟨fun c => Cert.Proof.KI.rF (F := Ideal) m c,
    (θ_run Cert.KernelIdeal.defs _ _).mono (fun _ h c => ⟨(h c).2.2, (h c).1, (h c).2.1⟩)
      (Cert.Proof.KI.run_main (F := Ideal) m ρ ok), ?_⟩
  refine (θ_run Cert.ReferenceIdeal.defs _ _).mono (fun _ h c => ⟨(h c).1.trans ?_, (h c).2⟩) (Cert.RefSide.run m' ρ' ok')
  rw [(hagree c).1, (hagree c).2]
  exact (Cert.Proof.KI.rF_eq_G m c).symm

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
